-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v34)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v64) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S8x1000000 : Shape := ⟨2, ![8, 1000000]⟩
abbrev S2000000x16 : Shape := ⟨2, ![2000000, 16]⟩
abbrev S16x32 : Shape := ⟨2, ![16, 32]⟩
abbrev S32 : Shape := ⟨1, ![32]⟩
abbrev S32x8 : Shape := ⟨2, ![32, 8]⟩
abbrev S8 : Shape := ⟨1, ![8]⟩
abbrev S2000000 : Shape := ⟨1, ![2000000]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S8x1000000 : S_.BroadcastsInDim S8x1000000 (![] : Fin 0 → Fin S8x1000000.rank)
  reducesTo_S8x1000000_S_d0_1 : S8x1000000.ReducesTo [0, 1] S_
  bcast_S_S2000000x16 : S_.BroadcastsInDim S2000000x16 (![] : Fin 0 → Fin S2000000x16.rank)
  reducesTo_S2000000x16_S_d0_1 : S2000000x16.ReducesTo [0, 1] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x8 : S_.BroadcastsInDim S32x8 (![] : Fin 0 → Fin S32x8.rank)
  reducesTo_S32x8_S_d0_1 : S32x8.ReducesTo [0, 1] S_
  bcast_S_S8 : S_.BroadcastsInDim S8 (![] : Fin 0 → Fin S8.rank)
  reducesTo_S8_S_d0 : S8.ReducesTo [0] S_
  bcast_S_S2000000 : S_.BroadcastsInDim S2000000 (![] : Fin 0 → Fin S2000000.rank)
  reducesTo_S2000000_S_d0 : S2000000.ReducesTo [0] S_

variable [Facts]

def fn_part2 {F : FTy → Type} [FloatOps F] (main_arg7 : FVec F S8 .f32) (main_arg8 : FVec F S2000000 .f32) (main_arg9 : FVec F S2000000 .f32) (main_v33 : IVec S_ 1) : IVec S_ 1 :=
  let main_v34 : FVec F S8 .f32 := Host.absf main_arg7
  let main_cst_12 : FVec F S_ .f32 := constant S_ .f32 0x7F800000#32
  let main_v35 : FVec F S8 .f32 := broadcastInDim S8 ![] bcast_S_S8 main_cst_12
  let main_v36 : IVec S8 1 := cmpf .olt main_v34 main_v35
  let main_c_13 : IVec S_ 1 := constantI S_ 1 1#1
  let main_v37 : IVec S_ 1 := (fun x v => Host.reduce IntOp.andi x v reducesTo_S8_S_d0 h_S_) main_v36 main_c_13
  let main_v38 : IVec S_ 1 := andi main_v33 main_v37
  let main_v39 : FVec F S2000000 .f32 := Host.absf main_arg8
  let main_cst_14 : FVec F S_ .f32 := constant S_ .f32 0x7F800000#32
  let main_v40 : FVec F S2000000 .f32 := broadcastInDim S2000000 ![] bcast_S_S2000000 main_cst_14
  let main_v41 : IVec S2000000 1 := cmpf .olt main_v39 main_v40
  let main_c_15 : IVec S_ 1 := constantI S_ 1 1#1
  let main_v42 : IVec S_ 1 := (fun x v => Host.reduce IntOp.andi x v reducesTo_S2000000_S_d0 h_S_) main_v41 main_c_15
  let main_v43 : IVec S_ 1 := andi main_v38 main_v42
  let main_v44 : FVec F S2000000 .f32 := Host.absf main_arg9
  let main_cst_16 : FVec F S_ .f32 := constant S_ .f32 0x7F800000#32
  let main_v45 : FVec F S2000000 .f32 := broadcastInDim S2000000 ![] bcast_S_S2000000 main_cst_16
  let main_v46 : IVec S2000000 1 := cmpf .olt main_v44 main_v45
  let main_c_17 : IVec S_ 1 := constantI S_ 1 1#1
  let main_v47 : IVec S_ 1 := (fun x v => Host.reduce IntOp.andi x v reducesTo_S2000000_S_d0 h_S_) main_v46 main_c_17
  let main_v48 : IVec S_ 1 := andi main_v43 main_v47
  main_v48

def fn_part1 {F : FTy → Type} [FloatOps F] (main_arg4 : FVec F S16x32 .f32) (main_arg5 : FVec F S32 .f32) (main_arg6 : FVec F S32x8 .f32) (main_arg7 : FVec F S8 .f32) (main_arg8 : FVec F S2000000 .f32) (main_arg9 : FVec F S2000000 .f32) (main_v13 : IVec S_ 1) (main_v16 : IVec S2000000x16 1) : IVec S_ 1 :=
  let main_c_5 : IVec S_ 1 := constantI S_ 1 1#1
  let main_v17 : IVec S_ 1 := (fun x v => Host.reduce IntOp.andi x v reducesTo_S2000000x16_S_d0_1 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x8 .f32 := Host.absf main_arg6
  let main_cst_10 : FVec F S_ .f32 := constant S_ .f32 0x7F800000#32
  let main_v30 : FVec F S32x8 .f32 := broadcastInDim S32x8 ![] bcast_S_S32x8 main_cst_10
  let main_v31 : IVec S32x8 1 := cmpf .olt main_v29 main_v30
  let main_c_11 : IVec S_ 1 := constantI S_ 1 1#1
  let main_v32 : IVec S_ 1 := (fun x v => Host.reduce IntOp.andi x v reducesTo_S32x8_S_d0_1 h_S_) main_v31 main_c_11
  let main_v33 : IVec S_ 1 := andi main_v28 main_v32
  fn_part2 (F := F) main_arg7 main_arg8 main_arg9 main_v33

def fn {F : FTy → Type} [FloatOps F] (main_arg0 : FVec F S1000000 .f32) (main_arg1 : FVec F S1000000 .f32) (main_arg2 : FVec F S8x1000000 .f32) (main_arg3 : FVec F S2000000x16 .f32) (main_arg4 : FVec F S16x32 .f32) (main_arg5 : FVec F S32 .f32) (main_arg6 : FVec F S32x8 .f32) (main_arg7 : FVec F S8 .f32) (main_arg8 : FVec F S2000000 .f32) (main_arg9 : FVec F S2000000 .f32) (main_arg10 : IVec S2000000 32) (main_arg11 : IVec S2000000 32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1000000 .f32 := Host.absf main_arg1
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_v9 : FVec F S8x1000000 .f32 := Host.absf main_arg2
  let main_cst_2 : FVec F S_ .f32 := constant S_ .f32 0x7F800000#32
  let main_v10 : FVec F S8x1000000 .f32 := broadcastInDim S8x1000000 ![] bcast_S_S8x1000000 main_cst_2
  let main_v11 : IVec S8x1000000 1 := cmpf .olt main_v9 main_v10
  let main_c_3 : IVec S_ 1 := constantI S_ 1 1#1
  let main_v12 : IVec S_ 1 := (fun x v => Host.reduce IntOp.andi x v reducesTo_S8x1000000_S_d0_1 h_S_) main_v11 main_c_3
  let main_v13 : IVec S_ 1 := andi main_v8 main_v12
  let main_v14 : FVec F S2000000x16 .f32 := Host.absf main_arg3
  let main_cst_4 : FVec F S_ .f32 := constant S_ .f32 0x7F800000#32
  let main_v15 : FVec F S2000000x16 .f32 := broadcastInDim S2000000x16 ![] bcast_S_S2000000x16 main_cst_4
  let main_v16 : IVec S2000000x16 1 := cmpf .olt main_v14 main_v15
  fn_part1 (F := F) main_arg4 main_arg5 main_arg6 main_arg7 main_arg8 main_arg9 main_v13 main_v16
-- ==== Kernel.lean ====
abbrev S1000000 : Shape := ⟨1, ![1000000]⟩
abbrev S8x1000000 : Shape := ⟨2, ![8, 1000000]⟩
abbrev S2000000x16 : Shape := ⟨2, ![2000000, 16]⟩
abbrev S16x32 : Shape := ⟨2, ![16, 32]⟩
abbrev S32 : Shape := ⟨1, ![32]⟩
abbrev S32x8 : Shape := ⟨2, ![32, 8]⟩
abbrev S8 : Shape := ⟨1, ![8]⟩
abbrev S2000000 : Shape := ⟨1, ![2000000]⟩
abbrev S1x1000000 : Shape := ⟨2, ![1, 1000000]⟩
abbrev S_ : Shape := ⟨0, ![]⟩
abbrev S1x1048576 : Shape := ⟨2, ![1, 1048576]⟩
abbrev S8x1048576 : Shape := ⟨2, ![8, 1048576]⟩
abbrev S1x65536 : Shape := ⟨2, ![1, 65536]⟩
abbrev S8x65536 : Shape := ⟨2, ![8, 65536]⟩
abbrev S1000000x8 : Shape := ⟨2, ![1000000, 8]⟩
abbrev S2000000x1 : Shape := ⟨2, ![2000000, 1]⟩
abbrev S1 : Shape := ⟨1, ![1]⟩
abbrev S1x1 : Shape := ⟨2, ![1, 1]⟩
abbrev S2000000x8 : Shape := ⟨2, ![2000000, 8]⟩
abbrev S2002944x16 : Shape := ⟨2, ![2002944, 16]⟩
abbrev S2002944x8 : Shape := ⟨2, ![2002944, 8]⟩
abbrev S2002944 : Shape := ⟨1, ![2002944]⟩
abbrev S4096x16 : Shape := ⟨2, ![4096, 16]⟩
abbrev S4096x8 : Shape := ⟨2, ![4096, 8]⟩
abbrev S4096 : Shape := ⟨1, ![4096]⟩
abbrev S4096x32 : Shape := ⟨2, ![4096, 32]⟩
abbrev S1x32 : Shape := ⟨2, ![1, 32]⟩
abbrev S1x8 : Shape := ⟨2, ![1, 8]⟩
abbrev S4096x1 : Shape := ⟨2, ![4096, 1]⟩
abbrev S8192 : Shape := ⟨1, ![8192]⟩

abbrev nBuf : Space → Nat
  | .hbm => 94
  | .vmem => 26
  | .smem => 0
  | _ => 0

abbrev bufTy : (tb : Table) → Fin (tcTables nBuf tb) → BufTy
  | .hbm, ⟨0, _⟩ => ⟨S1000000, .f32⟩
  | .hbm, ⟨1, _⟩ => ⟨S1000000, .f32⟩
  | .hbm, ⟨2, _⟩ => ⟨S8x1000000, .f32⟩
  | .hbm, ⟨3, _⟩ => ⟨S2000000x16, .f32⟩
  | .hbm, ⟨4, _⟩ => ⟨S16x32, .f32⟩
  | .hbm, ⟨5, _⟩ => ⟨S32, .f32⟩
  | .hbm, ⟨6, _⟩ => ⟨S32x8, .f32⟩
  | .hbm, ⟨7, _⟩ => ⟨S8, .f32⟩
  | .hbm, ⟨8, _⟩ => ⟨S2000000, .f32⟩
  | .hbm, ⟨9, _⟩ => ⟨S2000000, .f32⟩
  | .hbm, ⟨10, _⟩ => ⟨S2000000, .i32⟩
  | .hbm, ⟨11, _⟩ => ⟨S2000000, .i32⟩
  | .hbm, ⟨12, _⟩ => ⟨S1x1000000, .f32⟩
  | .hbm, ⟨13, _⟩ => ⟨S_, .i32⟩
  | .hbm, ⟨14, _⟩ => ⟨S_, .f32⟩
  | .hbm, ⟨15, _⟩ => ⟨S1x1048576, .f32⟩
  | .hbm, ⟨16, _⟩ => ⟨S1x1000000, .f32⟩
  | .hbm, ⟨17, _⟩ => ⟨S_, .i32⟩
  | .hbm, ⟨18, _⟩ => ⟨S_, .f32⟩
  | .hbm, ⟨19, _⟩ => ⟨S1x1048576, .f32⟩
  | .hbm, ⟨20, _⟩ => ⟨S_, .i32⟩
  | .hbm, ⟨21, _⟩ => ⟨S_, .f32⟩
  | .hbm, ⟨22, _⟩ => ⟨S8x1048576, .f32⟩
  | .hbm, ⟨23, _⟩ => ⟨S8x1048576, .f32⟩
  | .hbm, ⟨24, _⟩ => ⟨S1x1048576, .f32⟩
  | .hbm, ⟨25, _⟩ => ⟨S8x1000000, .f32⟩
  | .hbm, ⟨26, _⟩ => ⟨S1x1000000, .f32⟩
  | .hbm, ⟨27, _⟩ => ⟨S1000000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S1000000x8, .f32⟩
  | .hbm, ⟨33, _⟩ => ⟨S_, .i32⟩
  | .hbm, ⟨34, _⟩ => ⟨S2000000, .i32⟩
  | .hbm, ⟨35, _⟩ => ⟨S2000000, .i1⟩
  | .hbm, ⟨36, _⟩ => ⟨S_, .i32⟩
  | .hbm, ⟨37, _⟩ => ⟨S2000000, .i32⟩
  | .hbm, ⟨38, _⟩ => ⟨S2000000, .i32⟩
  | .hbm, ⟨39, _⟩ => ⟨S2000000, .i32⟩
  | .hbm, ⟨40, _⟩ => ⟨S2000000x1, .i32⟩
  | .hbm, ⟨41, _⟩ => ⟨S1, .i32⟩
  | .hbm, ⟨42, _⟩ => ⟨S_, .i32⟩
  | .hbm, ⟨43, _⟩ => ⟨S2000000x1, .i32⟩
  | .hbm, ⟨44, _⟩ => ⟨S2000000x1, .i1⟩
  | .hbm, ⟨45, _⟩ => ⟨S1x1, .i32⟩
  | .hbm, ⟨46, _⟩ => ⟨S2000000x1, .i32⟩
  | .hbm, ⟨47, _⟩ => ⟨S2000000x1, .i1⟩
  | .hbm, ⟨48, _⟩ => ⟨S2000000x1, .i1⟩
  | .hbm, ⟨49, _⟩ => ⟨S_, .i1⟩
  | .hbm, ⟨50, _⟩ => ⟨S2000000, .i1⟩
  | .hbm, ⟨51, _⟩ => ⟨S2000000x8, .f32⟩
  | .hbm, ⟨52, _⟩ => ⟨S2000000x8, .i1⟩
  | .hbm, ⟨53, _⟩ => ⟨S_, .f32⟩
  | .hbm, ⟨54, _⟩ => ⟨S2000000x8, .f32⟩
  | .hbm, ⟨55, _⟩ => ⟨S2000000x8, .f32⟩
  | .hbm, ⟨56, _⟩ => ⟨S_, .i32⟩
  | .hbm, ⟨57, _⟩ => ⟨S_, .f32⟩
  | .hbm, ⟨58, _⟩ => ⟨S2002944x16, .f32⟩
  | .hbm, ⟨59, _⟩ => ⟨S_, .i32⟩
  | .hbm, ⟨60, _⟩ => ⟨S_, .f32⟩
  | .hbm, ⟨61, _⟩ => ⟨S2002944x8, .f32⟩
  | .hbm, ⟨62, _⟩ => ⟨S_, .i32⟩
  | .hbm, ⟨63, _⟩ => ⟨S_, .f32⟩
  | .hbm, ⟨64, _⟩ => ⟨S2002944, .f32⟩
  | .hbm, ⟨65, _⟩ => ⟨S_, .f32⟩
  | .hbm, ⟨66, _⟩ => ⟨S_, .f32⟩
  | .hbm, ⟨67, _⟩ => ⟨S2002944, .f32⟩
  | .hbm, ⟨68, _⟩ => ⟨S2002944, .f32⟩
  | .hbm, ⟨69, _⟩ => ⟨S2002944, .f32⟩
  | .hbm, ⟨70, _⟩ => ⟨S2000000, .f32⟩
  | .hbm, ⟨71, _⟩ => ⟨S2000000, .f32⟩
  | .hbm, ⟨72, _⟩ => ⟨S_, .f32⟩
  | .hbm, ⟨73, _⟩ => ⟨S8192, .f32⟩
  | .hbm, ⟨74, _⟩ => ⟨S2000000x1, .i32⟩
  | .hbm, ⟨75, _⟩ => ⟨S8192, .f32⟩
  | .hbm, ⟨76, _⟩ => ⟨S_, .f32⟩
  | .hbm, ⟨77, _⟩ => ⟨S2000000, .f32⟩
  | .hbm, ⟨78, _⟩ => ⟨S_, .f32⟩
  | .hbm, ⟨79, _⟩ => ⟨S8192, .f32⟩
  | .hbm, ⟨80, _⟩ => ⟨S2000000x1, .i32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192, .f32⟩
  | .hbm, ⟨86, _⟩ => ⟨S_, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .local _ .vmem, ⟨0, _⟩ => ⟨S1x65536, .f32⟩
  | .local _ .vmem, ⟨1, _⟩ => ⟨S1x65536, .f32⟩
  | .local _ .vmem, ⟨2, _⟩ => ⟨S1x65536, .f32⟩
  | .local _ .vmem, ⟨3, _⟩ => ⟨S1x65536, .f32⟩
  | .local _ .vmem, ⟨4, _⟩ => ⟨S8x65536, .f32⟩
  | .local _ .vmem, ⟨5, _⟩ => ⟨S8x65536, .f32⟩
  | .local _ .vmem, ⟨6, _⟩ => ⟨S8x65536, .f32⟩
  | .local _ .vmem, ⟨7, _⟩ => ⟨S8x65536, .f32⟩
  | .local _ .vmem, ⟨8, _⟩ => ⟨S1x65536, .f32⟩
  | .local _ .vmem, ⟨9, _⟩ => ⟨S1x65536, .f32⟩
  | .local _ .vmem, ⟨10, _⟩ => ⟨S4096x16, .f32⟩
  | .local _ .vmem, ⟨11, _⟩ => ⟨S4096x16, .f32⟩
  | .local _ .vmem, ⟨12, _⟩ => ⟨S4096x8, .f32⟩
  | .local _ .vmem, ⟨13, _⟩ => ⟨S4096x8, .f32⟩
  | .local _ .vmem, ⟨14, _⟩ => ⟨S4096, .f32⟩
  | .local _ .vmem, ⟨15, _⟩ => ⟨S4096, .f32⟩
  | .local _ .vmem, ⟨16, _⟩ => ⟨S4096, .f32⟩
  | .local _ .vmem, ⟨17, _⟩ => ⟨S4096, .f32⟩
  | .local _ .vmem, ⟨18, _⟩ => ⟨S16x32, .f32⟩
  | .local _ .vmem, ⟨19, _⟩ => ⟨S32, .f32⟩
  | .local _ .vmem, ⟨20, _⟩ => ⟨S32x8, .f32⟩
  | .local _ .vmem, ⟨21, _⟩ => ⟨S8, .f32⟩
  | .local _ .vmem, ⟨22, _⟩ => ⟨S4096, .f32⟩
  | .local _ .vmem, ⟨23, _⟩ => ⟨S4096, .f32⟩
  | .local _ .vmem, ⟨24, _⟩ => ⟨S4096, .f32⟩
  | .local _ .vmem, ⟨25, _⟩ => ⟨S4096, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_c_0 : Ref sig .tc := ⟨.hbm, 17, rfl⟩
abbrev main_call1_v0 : Ref sig .tc := ⟨.hbm, 18, rfl⟩
abbrev main_v3 : Ref sig .tc := ⟨.hbm, 19, rfl⟩
abbrev main_c_1 : Ref sig .tc := ⟨.hbm, 20, rfl⟩
abbrev main_call2_v0 : Ref sig .tc := ⟨.hbm, 21, rfl⟩
abbrev main_v4 : Ref sig .tc := ⟨.hbm, 22, rfl⟩
abbrev main_v5_0 : Ref sig .tc := ⟨.hbm, 23, rfl⟩
abbrev main_v5_1 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_cst_2 : Ref sig .tc := ⟨.hbm, 30, rfl⟩
abbrev main_v10 : Ref sig .tc := ⟨.hbm, 31, rfl⟩
abbrev main_v11 : Ref sig .tc := ⟨.hbm, 32, rfl⟩
abbrev main_call3_c : Ref sig .tc := ⟨.hbm, 33, rfl⟩
abbrev main_call3_v0 : Ref sig .tc := ⟨.hbm, 34, rfl⟩
abbrev main_call3_v1 : Ref sig .tc := ⟨.hbm, 35, rfl⟩
abbrev main_call3_c_0 : Ref sig .tc := ⟨.hbm, 36, rfl⟩
abbrev main_call3_v2 : Ref sig .tc := ⟨.hbm, 37, rfl⟩
abbrev main_call3_v3 : Ref sig .tc := ⟨.hbm, 38, rfl⟩
abbrev main_call3_v4 : Ref sig .tc := ⟨.hbm, 39, rfl⟩
abbrev main_call3_v5 : Ref sig .tc := ⟨.hbm, 40, rfl⟩
abbrev main_call3_c_1 : Ref sig .tc := ⟨.hbm, 41, rfl⟩
abbrev main_call3_c_2 : Ref sig .tc := ⟨.hbm, 42, rfl⟩
abbrev main_call3_v6 : Ref sig .tc := ⟨.hbm, 43, rfl⟩
abbrev main_call3_v7 : Ref sig .tc := ⟨.hbm, 44, rfl⟩
abbrev main_call3_v8 : Ref sig .tc := ⟨.hbm, 45, rfl⟩
abbrev main_call3_v9 : Ref sig .tc := ⟨.hbm, 46, rfl⟩
abbrev main_call3_v10 : Ref sig .tc := ⟨.hbm, 47, rfl⟩
abbrev main_call3_v11 : Ref sig .tc := ⟨.hbm, 48, rfl⟩
abbrev main_call3_c_3 : Ref sig .tc := ⟨.hbm, 49, rfl⟩
abbrev main_call3_v12 : Ref sig .tc := ⟨.hbm, 50, rfl⟩
abbrev main_call3_v13 : Ref sig .tc := ⟨.hbm, 51, rfl⟩
abbrev main_call3_v14 : Ref sig .tc := ⟨.hbm, 52, rfl⟩
abbrev main_call3_cst : Ref sig .tc := ⟨.hbm, 53, rfl⟩
abbrev main_call3_v15 : Ref sig .tc := ⟨.hbm, 54, rfl⟩
abbrev main_v12 : Ref sig .tc := ⟨.hbm, 55, rfl⟩
abbrev main_c_3 : Ref sig .tc := ⟨.hbm, 56, rfl⟩
abbrev main_call4_v0 : Ref sig .tc := ⟨.hbm, 57, rfl⟩
abbrev main_v13 : Ref sig .tc := ⟨.hbm, 58, rfl⟩
abbrev main_c_4 : Ref sig .tc := ⟨.hbm, 59, rfl⟩
abbrev main_call5_v0 : Ref sig .tc := ⟨.hbm, 60, rfl⟩
abbrev main_v14 : Ref sig .tc := ⟨.hbm, 61, rfl⟩
abbrev main_c_5 : Ref sig .tc := ⟨.hbm, 62, rfl⟩
abbrev main_call6_v0 : Ref sig .tc := ⟨.hbm, 63, rfl⟩
abbrev main_v15 : Ref sig .tc := ⟨.hbm, 64, rfl⟩
abbrev main_cst_6 : Ref sig .tc := ⟨.hbm, 65, rfl⟩
abbrev main_call7_v0 : Ref sig .tc := ⟨.hbm, 66, rfl⟩
abbrev main_v16 : Ref sig .tc := ⟨.hbm, 67, rfl⟩
abbrev main_v17_0 : Ref sig .tc := ⟨.hbm, 68, rfl⟩
abbrev main_v17_1 : Ref sig .tc := ⟨.hbm, 69, rfl⟩
abbrev main_v18 : Ref sig .tc := ⟨.hbm, 70, rfl⟩
abbrev main_v19 : Ref sig .tc := ⟨.hbm, 71, rfl⟩
abbrev main_cst_7 : Ref sig .tc := ⟨.hbm, 72, rfl⟩
abbrev main_v20 : Ref sig .tc := ⟨.hbm, 73, rfl⟩
abbrev main_v21 : Ref sig .tc := ⟨.hbm, 74, rfl⟩
abbrev main_v22 : Ref sig .tc := ⟨.hbm, 75, rfl⟩
abbrev main_cst_8 : Ref sig .tc := ⟨.hbm, 76, rfl⟩
abbrev main_v23 : Ref sig .tc := ⟨.hbm, 77, rfl⟩
abbrev main_cst_9 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_cst_10 : Ref sig .tc := ⟨.hbm, 82, rfl⟩
abbrev main_v27 : Ref sig .tc := ⟨.hbm, 83, rfl⟩
abbrev main_v28 : Ref sig .tc := ⟨.hbm, 84, rfl⟩
abbrev main_v29 : Ref sig .tc := ⟨.hbm, 85, rfl⟩
abbrev main_cst_11 : Ref sig .tc := ⟨.hbm, 86, rfl⟩
abbrev main_v30 : Ref sig .tc := ⟨.hbm, 87, rfl⟩
abbrev main_v31 : Ref sig .tc := ⟨.hbm, 88, rfl⟩
abbrev main_cst_12 : Ref sig .tc := ⟨.hbm, 89, rfl⟩
abbrev main_v32 : Ref sig .tc := ⟨.hbm, 90, rfl⟩
abbrev main_cst_13 : Ref sig .tc := ⟨.hbm, 91, rfl⟩
abbrev main_v33 : Ref sig .tc := ⟨.hbm, 92, rfl⟩
abbrev main_v34 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc1_stg9_0 : Ref sig .tc := ⟨.vmem, 24, rfl⟩
abbrev cc1_stg9_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc1_sem9_0 : DmaSem sig := 24
abbrev cc1_sem9_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1x65536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x65536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x65536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x65536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x65536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![489], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  ![arg0.toNat]

def cc1_transform_3 (i : grid1.Coords) : Fin 1 → Nat :=
  let arg0 : BitVec 32 := BitVec.ofNat 32 (i 0).val
  let c0_i32 : BitVec 32 := 0#32
  ![arg0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  ![arg0.toNat]

def cc1_transform_9 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S4096x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x8 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S16x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S32x8 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S8 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4096 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4096 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  shapeCasts_S1000000_S1x1000000 : S1000000.ShapeCasts S1x1000000
  pads_S1x1000000_S1x1048576_000_0485760 : S1x1000000.Pads (![0, 0] : Fin 2 → Nat) ![0, 48576] ![0, 0] S1x1048576
  h_S_ : 0 < S_.numel
  pads_S8x1000000_S8x1048576_000_0485760 : S8x1000000.Pads (![0, 0] : Fin 2 → Nat) ![0, 48576] ![0, 0] S8x1048576
  inb_S1x65536_S1x65536_0_0 : ∀ a, (![0, 0] : Fin 2 → Nat) a + S1x65536.size a ≤ S1x65536.size a
  h_S1x65536 : 0 < S1x65536.numel
  shapeCasts_S1x65536_S1x65536 : S1x65536.ShapeCasts S1x65536
  inb_S8x65536_S8x65536_0_0 : ∀ a, (![0, 0] : Fin 2 → Nat) a + S8x65536.size a ≤ S8x65536.size a
  h_S8x65536 : 0 < S8x65536.numel
  shapeCasts_S8x65536_S8x65536 : S8x65536.ShapeCasts S8x65536
  broadcasts_S1x65536_S8x65536 : S1x65536.Broadcasts S8x65536
  slices_S8x1048576_S8x1000000_0_0 : S8x1048576.Slices ![0, 0] S8x1000000
  slices_S1x1048576_S1x1000000_0_0 : S1x1048576.Slices ![0, 0] S1x1000000
  shapeCasts_S1x1000000_S1000000 : S1x1000000.ShapeCasts S1000000
  reducesTo_S1000000_S_d0 : S1000000.ReducesTo [0] S_
  transposes_S8x1000000_S1000000x8_1_0 : S8x1000000.Transposes [1, 0] S1000000x8
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  bcast_S2000000_S2000000x8_0 : S2000000.BroadcastsInDim S2000000x8 (![0] : Fin 1 → Fin S2000000x8.rank)
  bcast_S_S2000000x8 : S_.BroadcastsInDim S2000000x8 (![] : Fin 0 → Fin S2000000x8.rank)
  pads_S2000000x16_S2002944x16_029440_000 : S2000000x16.Pads (![0, 0] : Fin 2 → Nat) ![2944, 0] ![0, 0] S2002944x16
  pads_S2000000x8_S2002944x8_029440_000 : S2000000x8.Pads (![0, 0] : Fin 2 → Nat) ![2944, 0] ![0, 0] S2002944x8
  pads_S2000000_S2002944_029440 : S2000000.Pads (![0] : Fin 1 → Nat) ![2944] ![0] S2002944
  inb_S4096x16_S4096x16_0_0 : ∀ a, (![0, 0] : Fin 2 → Nat) a + S4096x16.size a ≤ S4096x16.size a
  h_S4096x16 : 0 < S4096x16.numel
  shapeCasts_S4096x16_S4096x16 : S4096x16.ShapeCasts S4096x16
  bitsLt_bf16_f32 : FTy.bits .bf16 < FTy.bits .f32
  inb_S16x32_S16x32_0_0 : ∀ a, (![0, 0] : Fin 2 → Nat) a + S16x32.size a ≤ S16x32.size a
  h_S16x32 : 0 < S16x32.numel
  inb_S32_S32_0 : ∀ a, (![0] : Fin 1 → Nat) a + S32.size a ≤ S32.size a
  h_S32 : 0 < S32.numel
  shapeCasts_S32_S1x32 : S32.ShapeCasts S1x32
  broadcasts_S1x32_S4096x32 : S1x32.Broadcasts S4096x32
  inb_S32x8_S32x8_0_0 : ∀ a, (![0, 0] : Fin 2 → Nat) a + S32x8.size a ≤ S32x8.size a
  h_S32x8 : 0 < S32x8.numel
  inb_S8_S8_0 : ∀ a, (![0] : Fin 1 → Nat) a + S8.size a ≤ S8.size a
  h_S8 : 0 < S8.numel
  shapeCasts_S8_S1x8 : S8.ShapeCasts S1x8
  broadcasts_S1x8_S4096x8 : S1x8.Broadcasts S4096x8
  inb_S4096x8_S4096x8_0_0 : ∀ a, (![0, 0] : Fin 2 → Nat) a + S4096x8.size a ≤ S4096x8.size a
  h_S4096x8 : 0 < S4096x8.numel
  shapeCasts_S4096x8_S4096x8 : S4096x8.ShapeCasts S4096x8
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  broadcasts_S4096x1_S4096x8 : S4096x1.Broadcasts S4096x8
  reduces_S4096x8_S4096 : S4096x8.Reduces [1] S4096
  slices_S2002944_S2000000_0 : S2002944.Slices ![0] S2000000
  bcast_S_S8192 : S_.BroadcastsInDim S8192 (![] : Fin 0 → Fin S8192.rank)
  reducesTo_S8192_S_d0 : S8192.ReducesTo [0] S_
  gather_S1000000x8_S2000000x1_S2000000x8_1_0_n_n_0_1_18_wf : GatherDims.WF S1000000x8 S2000000x1 S2000000x8 [1] [0] [] [0] [] 1 ![1, 8]
  dot_S4096x16_S16x32_S4096x32_1_0_0_1_n_n_wf : DotDims.WF S4096x16 S16x32 S4096x32 [1] [0] [0] [1] [] []
  dot_S4096x32_S32x8_S4096x8_1_0_0_1_n_n_wf : DotDims.WF S4096x32 S32x8 S4096x8 [1] [0] [0] [1] [] []
  scatter_S8192_S2000000x1_S2000000_n_0_0_1_wf : ScatterDims.WF S8192 S2000000x1 S2000000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x65536.size a ≤ S1x1048576.size a
  hwx0_0 : ∀ i : grid0.Coords, EltTy.bits .f32 = 32 ∨ (Rect.block (s := S1x1048576) S1x65536.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x65536.size a ≤ S1x1048576.size a
  hwx0_1 : ∀ i : grid0.Coords, EltTy.bits .f32 = 32 ∨ (Rect.block (s := S1x1048576) S1x65536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x65536.size a ≤ S8x1048576.size a
  hwx0_2 : ∀ i : grid0.Coords, EltTy.bits .f32 = 32 ∨ (Rect.block (s := S8x1048576) S8x65536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x65536.size a ≤ S8x1048576.size a
  hwx0_3 : ∀ i : grid0.Coords, EltTy.bits .f32 = 32 ∨ (Rect.block (s := S8x1048576) S8x65536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x65536.size a ≤ S1x1048576.size a
  hwx0_4 : ∀ i : grid0.Coords, EltTy.bits .f32 = 32 ∨ (Rect.block (s := S1x1048576) S1x65536.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x16.size a ≤ S2002944x16.size a
  hwx1_0 : ∀ i : grid1.Coords, EltTy.bits .f32 = 32 ∨ (Rect.block (s := S2002944x16) S4096x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x8.size a ≤ S2002944x8.size a
  hwx1_1 : ∀ i : grid1.Coords, EltTy.bits .f32 = 32 ∨ (Rect.block (s := S2002944x8) S4096x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096.size a ≤ S2002944.size a
  hwx1_2 : ∀ i : grid1.Coords, EltTy.bits .f32 = 32 ∨ (Rect.block (s := S2002944) S4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096.size a ≤ S2002944.size a
  hwx1_3 : ∀ i : grid1.Coords, EltTy.bits .f32 = 32 ∨ (Rect.block (s := S2002944) S4096.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S16x32.size a ≤ S16x32.size a
  hwx1_4 : ∀ i : grid1.Coords, EltTy.bits .f32 = 32 ∨ (Rect.block (s := S16x32) S16x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32.size a ≤ S32.size a
  hwx1_5 : ∀ i : grid1.Coords, EltTy.bits .f32 = 32 ∨ (Rect.block (s := S32) S32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S32x8.size a ≤ S32x8.size a
  hwx1_6 : ∀ i : grid1.Coords, EltTy.bits .f32 = 32 ∨ (Rect.block (s := S32x8) S32x8.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S8.size a ≤ S8.size a
  hwx1_7 : ∀ i : grid1.Coords, EltTy.bits .f32 = 32 ∨ (Rect.block (s := S8) S8.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4096.size a ≤ S2002944.size a
  hwx1_8 : ∀ i : grid1.Coords, EltTy.bits .f32 = 32 ∨ (Rect.block (s := S2002944) S4096.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4096.size a ≤ S2002944.size a
  hwx1_9 : ∀ i : grid1.Coords, EltTy.bits .f32 = 32 ∨ (Rect.block (s := S2002944) S4096.size (cc1_transform_9 i) (hinb1_9 i)).WholeWords (EltTy.packing .f32)

variable [Facts₀]

def gather_S1000000x8_S2000000x1_S2000000x8_1_0_n_n_0_1_18 : GatherDims S1000000x8 S2000000x1 S2000000x8 where
  offsetDims := [1]
  collapsedSliceDims := [0]
  operandBatchingDims := []
  startIndicesBatchingDims := []
  startIndexMap := [0]
  indexVectorDim := 1
  sliceSizes := ![1, 8]
  wf := gather_S1000000x8_S2000000x1_S2000000x8_1_0_n_n_0_1_18_wf
def dot_S4096x16_S16x32_S4096x32_1_0_0_1_n_n : DotDims S4096x16 S16x32 S4096x32 where
  lhsContracting := [1]
  rhsContracting := [0]
  lhsNonContracting := [0]
  rhsNonContracting := [1]
  lhsBatch := []
  rhsBatch := []
  wf := dot_S4096x16_S16x32_S4096x32_1_0_0_1_n_n_wf
def dot_S4096x32_S32x8_S4096x8_1_0_0_1_n_n : DotDims S4096x32 S32x8 S4096x8 where
  lhsContracting := [1]
  rhsContracting := [0]
  lhsNonContracting := [0]
  rhsNonContracting := [1]
  lhsBatch := []
  rhsBatch := []
  wf := dot_S4096x32_S32x8_S4096x8_1_0_0_1_n_n_wf
def scatter_S8192_S2000000x1_S2000000_n_0_0_1 : ScatterDims S8192 S2000000x1 S2000000 where
  updateWindowDims := []
  insertedWindowDims := [0]
  scatterDimsToOperandDims := [0]
  indexVectorDim := 1
  wf := scatter_S8192_S2000000x1_S2000000_n_0_0_1_wf

abbrev win0_0 : Pipeline.Window sig grid0 :=
  Pipeline.Window.ofSpec (Memref.whole main_v1) S1x65536.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1x65536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x65536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S8x65536.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S1x65536.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v13) S4096x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S4096x8.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S16x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S32x8.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S8.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v17_0) S4096.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v17_1) S4096.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S1000000 : Shape := ⟨1, ![1000000]⟩
abbrev S8x1000000 : Shape := ⟨2, ![8, 1000000]⟩
abbrev S2000000x16 : Shape := ⟨2, ![2000000, 16]⟩
abbrev S16x32 : Shape := ⟨2, ![16, 32]⟩
abbrev S32 : Shape := ⟨1, ![32]⟩
abbrev S32x8 : Shape := ⟨2, ![32, 8]⟩
abbrev S8 : Shape := ⟨1, ![8]⟩
abbrev S2000000 : Shape := ⟨1, ![2000000]⟩
abbrev S1x1000000 : Shape := ⟨2, ![1, 1000000]⟩
abbrev S_ : Shape := ⟨0, ![]⟩
abbrev S2000000x32 : Shape := ⟨2, ![2000000, 32]⟩
abbrev S1x32 : Shape := ⟨2, ![1, 32]⟩
abbrev S2000000x8 : Shape := ⟨2, ![2000000, 8]⟩
abbrev S1x8 : Shape := ⟨2, ![1, 8]⟩
abbrev S1000000x8 : Shape := ⟨2, ![1000000, 8]⟩
abbrev S2000000x1 : Shape := ⟨2, ![2000000, 1]⟩
abbrev S1 : Shape := ⟨1, ![1]⟩
abbrev S1x1 : Shape := ⟨2, ![1, 1]⟩
abbrev S8192 : Shape := ⟨1, ![8192]⟩

abbrev nBuf : Space → Nat
  | .hbm => 130
  | .vmem => 0
  | .smem => 0
  | _ => 0

abbrev hbmTy0_0 (i : Nat) : BufTy := match i % 128 with
  | 0 => ⟨S1000000, .f32⟩
  | 1 => ⟨S1000000, .f32⟩
  | 2 => ⟨S8x1000000, .f32⟩
  | 3 => ⟨S2000000x16, .f32⟩
  | 4 => ⟨S16x32, .f32⟩
  | 5 => ⟨S32, .f32⟩
  | 6 => ⟨S32x8, .f32⟩
  | 7 => ⟨S8, .f32⟩
  | 8 => ⟨S2000000, .f32⟩
  | 9 => ⟨S2000000, .f32⟩
  | 10 => ⟨S2000000, .i32⟩
  | 11 => ⟨S2000000, .i32⟩
  | 12 => ⟨S1000000, .f32⟩
  | 13 => ⟨S1x1000000, .f32⟩
  | 14 => ⟨S8x1000000, .f32⟩
  | 15 => ⟨S8x1000000, .f32⟩
  | 16 => ⟨S1x1000000, .f32⟩
  | 17 => ⟨S8x1000000, .f32⟩
  | 18 => ⟨S8x1000000, .f32⟩
  | 19 => ⟨S1000000, .f32⟩
  | 20 => ⟨S1000000, .f32⟩
  | 21 => ⟨S1000000, .f32⟩
  | 22 => ⟨S_, .f32⟩
  | 23 => ⟨S1000000, .f32⟩
  | 24 => ⟨S1000000, .f32⟩
  | 25 => ⟨S_, .f32⟩
  | 26 => ⟨S1000000, .f32⟩
  | 27 => ⟨S1000000, .f32⟩
  | 28 => ⟨S1000000, .f32⟩
  | 29 => ⟨S2000000x32, .f32⟩
  | 30 => ⟨S1x32, .f32⟩
  | 31 => ⟨S2000000x32, .f32⟩
  | 32 => ⟨S2000000x32, .f32⟩
  | 33 => ⟨S_, .f32⟩
  | 34 => ⟨S2000000x32, .f32⟩
  | 35 => ⟨S2000000x32, .f32⟩
  | 36 => ⟨S2000000x8, .f32⟩
  | 37 => ⟨S1x8, .f32⟩
  | 38 => ⟨S2000000x8, .f32⟩
  | 39 => ⟨S2000000x8, .f32⟩
  | 40 => ⟨S_, .f32⟩
  | 41 => ⟨S2000000x8, .f32⟩
  | 42 => ⟨S2000000x8, .f32⟩
  | 43 => ⟨S2000000x8, .f32⟩
  | 44 => ⟨S2000000x8, .f32⟩
  | 45 => ⟨S2000000x8, .i1⟩
  | 46 => ⟨S2000000x8, .f32⟩
  | 47 => ⟨S2000000x8, .f32⟩
  | 48 => ⟨S2000000x8, .f32⟩
  | 49 => ⟨S2000000x8, .f32⟩
  | 50 => ⟨S2000000x8, .f32⟩
  | 51 => ⟨S2000000x8, .f32⟩
  | 52 => ⟨S2000000x8, .f32⟩
  | 53 => ⟨S2000000x8, .f32⟩
  | 54 => ⟨S1000000x8, .f32⟩
  | 55 => ⟨S_, .i32⟩
  | 56 => ⟨S2000000, .i32⟩
  | 57 => ⟨S2000000, .i1⟩
  | 58 => ⟨S_, .i32⟩
  | 59 => ⟨S2000000, .i32⟩
  | 60 => ⟨S2000000, .i32⟩
  | 61 => ⟨S2000000, .i32⟩
  | 62 => ⟨S2000000x1, .i32⟩
  | 63 => ⟨S1, .i32⟩
  | 64 => ⟨S_, .i32⟩
  | 65 => ⟨S2000000x1, .i32⟩
  | 66 => ⟨S2000000x1, .i1⟩
  | 67 => ⟨S1x1, .i32⟩
  | 68 => ⟨S2000000x1, .i32⟩
  | 69 => ⟨S2000000x1, .i1⟩
  | 70 => ⟨S2000000x1, .i1⟩
  | 71 => ⟨S_, .i1⟩
  | 72 => ⟨S2000000, .i1⟩
  | 73 => ⟨S2000000x8, .f32⟩
  | 74 => ⟨S2000000x8, .i1⟩
  | 75 => ⟨S_, .f32⟩
  | 76 => ⟨S2000000x8, .f32⟩
  | 77 => ⟨S2000000x8, .f32⟩
  | 78 => ⟨S2000000x8, .f32⟩
  | 79 => ⟨S2000000x8, .f32⟩
  | 80 => ⟨S2000000x1, .f32⟩
  | 81 => ⟨S2000000x8, .f32⟩
  | 82 => ⟨S2000000x8, .f32⟩
  | 83 => ⟨S2000000x1, .f32⟩
  | 84 => ⟨S2000000x8, .f32⟩
  | 85 => ⟨S2000000x8, .f32⟩
  | 86 => ⟨S_, .f32⟩
  | 87 => ⟨S2000000x8, .f32⟩
  | 88 => ⟨S2000000x8, .f32⟩
  | 89 => ⟨S2000000x8, .f32⟩
  | 90 => ⟨S2000000, .f32⟩
  | 91 => ⟨S2000000x1, .f32⟩
  | 92 => ⟨S2000000x8, .f32⟩
  | 93 => ⟨S2000000x8, .f32⟩
  | 94 => ⟨S_, .f32⟩
  | 95 => ⟨S2000000x8, .f32⟩
  | 96 => ⟨S2000000x8, .f32⟩
  | 97 => ⟨S_, .f32⟩
  | 98 => ⟨S2000000, .f32⟩
  | 99 => ⟨S_, .f32⟩
  | 100 => ⟨S8192, .f32⟩
  | 101 => ⟨S2000000x1, .i32⟩
  | 102 => ⟨S8192, .f32⟩
  | 103 => ⟨S_, .f32⟩
  | 104 => ⟨S2000000, .f32⟩
  | 105 => ⟨S_, .f32⟩
  | 106 => ⟨S8192, .f32⟩
  | 107 => ⟨S2000000x1, .i32⟩
  | 108 => ⟨S8192, .f32⟩
  | 109 => ⟨S_, .f32⟩
  | 110 => ⟨S8192, .f32⟩
  | 111 => ⟨S8192, .f32⟩
  | 112 => ⟨S8192, .f32⟩
  | 113 => ⟨S_, .f32⟩
  | 114 => ⟨S8192, .f32⟩
  | 115 => ⟨S8192, .f32⟩
  | 116 => ⟨S_, .f32⟩
  | 117 => ⟨S2000000, .f32⟩
  | 118 => ⟨S_, .f32⟩
  | 119 => ⟨S2000000, .f32⟩
  | 120 => ⟨S2000000, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S1000000, .f32⟩

abbrev hbmTy0_1 (i : Nat) : BufTy := match i % 128 with
  | 0 => ⟨S_, .f32⟩
  | 1 => ⟨S_, .f32⟩
  | _ => ⟨S1000000, .f32⟩

abbrev hbmTy (i : Nat) : BufTy := match i / 128 with
  | 0 => hbmTy0_0 i
  | 1 => hbmTy0_1 i
  | _ => ⟨S1000000, .f32⟩

abbrev bufTy : (tb : Table) → Fin (tcTables nBuf tb) → BufTy
  | .hbm, ⟨i, _⟩ => hbmTy i
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_call0_cst : Ref sig .tc := ⟨.hbm, 33, rfl⟩
abbrev main_call0_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_v24 : Ref sig .tc := ⟨.hbm, 53, rfl⟩
abbrev main_v25 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_v5 : Ref sig .tc := ⟨.hbm, 62, rfl⟩
abbrev main_call2_c_1 : Ref sig .tc := ⟨.hbm, 63, rfl⟩
abbrev main_call2_c_2 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_v11 : Ref sig .tc := ⟨.hbm, 70, rfl⟩
abbrev main_call2_c_3 : Ref sig .tc := ⟨.hbm, 71, rfl⟩
abbrev main_call2_v12 : Ref sig .tc := ⟨.hbm, 72, rfl⟩
abbrev main_call2_v13 : Ref sig .tc := ⟨.hbm, 73, rfl⟩
abbrev main_call2_v14 : Ref sig .tc := ⟨.hbm, 74, rfl⟩
abbrev main_call2_cst : Ref sig .tc := ⟨.hbm, 75, rfl⟩
abbrev main_call2_v15 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_cst_1 : Ref sig .tc := ⟨.hbm, 86, rfl⟩
abbrev main_v35 : Ref sig .tc := ⟨.hbm, 87, rfl⟩
abbrev main_v36 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst_2 : Ref sig .tc := ⟨.hbm, 94, rfl⟩
abbrev main_v42 : Ref sig .tc := ⟨.hbm, 95, rfl⟩
abbrev main_v43 : Ref sig .tc := ⟨.hbm, 96, rfl⟩
abbrev main_cst_3 : Ref sig .tc := ⟨.hbm, 97, rfl⟩
abbrev main_v44 : Ref sig .tc := ⟨.hbm, 98, rfl⟩
abbrev main_cst_4 : Ref sig .tc := ⟨.hbm, 99, rfl⟩
abbrev main_v45 : Ref sig .tc := ⟨.hbm, 100, rfl⟩
abbrev main_v46 : Ref sig .tc := ⟨.hbm, 101, rfl⟩
abbrev main_v47 : Ref sig .tc := ⟨.hbm, 102, rfl⟩
abbrev main_cst_5 : Ref sig .tc := ⟨.hbm, 103, rfl⟩
abbrev main_v48 : Ref sig .tc := ⟨.hbm, 104, rfl⟩
abbrev main_cst_6 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_cst_7 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_cst_8 : Ref sig .tc := ⟨.hbm, 113, rfl⟩
abbrev main_v55 : Ref sig .tc := ⟨.hbm, 114, rfl⟩
abbrev main_v56 : Ref sig .tc := ⟨.hbm, 115, rfl⟩
abbrev main_cst_9 : Ref sig .tc := ⟨.hbm, 116, rfl⟩
abbrev main_v57 : Ref sig .tc := ⟨.hbm, 117, rfl⟩
abbrev main_cst_10 : Ref sig .tc := ⟨.hbm, 118, rfl⟩
abbrev main_v58 : Ref sig .tc := ⟨.hbm, 119, rfl⟩
abbrev main_v59 : Ref sig .tc := ⟨.hbm, 120, rfl⟩
abbrev main_cst_11 : Ref sig .tc := ⟨.hbm, 121, rfl⟩
abbrev main_v60 : Ref sig .tc := ⟨.hbm, 122, rfl⟩
abbrev main_cst_12 : Ref sig .tc := ⟨.hbm, 123, rfl⟩
abbrev main_v61 : Ref sig .tc := ⟨.hbm, 124, rfl⟩
abbrev main_v62 : Ref sig .tc := ⟨.hbm, 125, rfl⟩
abbrev main_cst_13 : Ref sig .tc := ⟨.hbm, 126, rfl⟩
abbrev main_v63 : Ref sig .tc := ⟨.hbm, 127, rfl⟩
abbrev main_cst_14 : Ref sig .tc := ⟨.hbm, 128, rfl⟩
abbrev main_v64 : Ref sig .tc := ⟨.hbm, 129, rfl⟩

abbrev nD : Nat := 1
abbrev τ : Topo := Topo.v7x

variable {F : FTy → Type} [FloatOps F]

class Facts₀ : Prop where
  bcast_S1000000_S1x1000000_1 : S1000000.BroadcastsInDim S1x1000000 (![1] : Fin 1 → Fin S1x1000000.rank)
  bcast_S1x1000000_S8x1000000_0_1 : S1x1000000.BroadcastsInDim S8x1000000 (![0, 1] : Fin 2 → Fin S8x1000000.rank)
  bcast_S_S1000000 : S_.BroadcastsInDim S1000000 (![] : Fin 0 → Fin S1000000.rank)
  bcast_S32_S1x32_1 : S32.BroadcastsInDim S1x32 (![1] : Fin 1 → Fin S1x32.rank)
  bcast_S1x32_S2000000x32_0_1 : S1x32.BroadcastsInDim S2000000x32 (![0, 1] : Fin 2 → Fin S2000000x32.rank)
  bcast_S_S2000000x32 : S_.BroadcastsInDim S2000000x32 (![] : Fin 0 → Fin S2000000x32.rank)
  bcast_S8_S1x8_1 : S8.BroadcastsInDim S1x8 (![1] : Fin 1 → Fin S1x8.rank)
  bcast_S1x8_S2000000x8_0_1 : S1x8.BroadcastsInDim S2000000x8 (![0, 1] : Fin 2 → Fin S2000000x8.rank)
  bcast_S_S2000000x8 : S_.BroadcastsInDim S2000000x8 (![] : Fin 0 → Fin S2000000x8.rank)
  transposes_S8x1000000_S1000000x8_1_0 : S8x1000000.Transposes [1, 0] S1000000x8
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x8_0 : S2000000.BroadcastsInDim S2000000x8 (![0] : Fin 1 → Fin S2000000x8.rank)
  bcast_S2000000x1_S2000000x8_0_1 : S2000000x1.BroadcastsInDim S2000000x8 (![0, 1] : Fin 2 → Fin S2000000x8.rank)
  reducesTo_S2000000x8_S2000000_d1 : S2000000x8.ReducesTo [1] S2000000
  bcast_S_S8192 : S_.BroadcastsInDim S8192 (![] : Fin 0 → Fin S8192.rank)
  reducesTo_S8192_S_d0 : S8192.ReducesTo [0] S_
  reducesTo_S1000000_S_d0 : S1000000.ReducesTo [0] S_
  dot_S2000000x16_S16x32_S2000000x32_1_0_0_1_n_n_wf : DotDims.WF S2000000x16 S16x32 S2000000x32 [1] [0] [0] [1] [] []
  dot_S2000000x32_S32x8_S2000000x8_1_0_0_1_n_n_wf : DotDims.WF S2000000x32 S32x8 S2000000x8 [1] [0] [0] [1] [] []
  gather_S1000000x8_S2000000x1_S2000000x8_1_0_n_n_0_1_18_wf : GatherDims.WF S1000000x8 S2000000x1 S2000000x8 [1] [0] [] [0] [] 1 ![1, 8]
  scatter_S8192_S2000000x1_S2000000_n_0_0_1_wf : ScatterDims.WF S8192 S2000000x1 S2000000 [] [0] [0] 1

variable [Facts₀]

def dot_S2000000x16_S16x32_S2000000x32_1_0_0_1_n_n : DotDims S2000000x16 S16x32 S2000000x32 where
  lhsContracting := [1]
  rhsContracting := [0]
  lhsNonContracting := [0]
  rhsNonContracting := [1]
  lhsBatch := []
  rhsBatch := []
  wf := dot_S2000000x16_S16x32_S2000000x32_1_0_0_1_n_n_wf
def dot_S2000000x32_S32x8_S2000000x8_1_0_0_1_n_n : DotDims S2000000x32 S32x8 S2000000x8 where
  lhsContracting := [1]
  rhsContracting := [0]
  lhsNonContracting := [0]
  rhsNonContracting := [1]
  lhsBatch := []
  rhsBatch := []
  wf := dot_S2000000x32_S32x8_S2000000x8_1_0_0_1_n_n_wf
def gather_S1000000x8_S2000000x1_S2000000x8_1_0_n_n_0_1_18 : GatherDims S1000000x8 S2000000x1 S2000000x8 where
  offsetDims := [1]
  collapsedSliceDims := [0]
  operandBatchingDims := []
  startIndicesBatchingDims := []
  startIndexMap := [0]
  indexVectorDim := 1
  sliceSizes := ![1, 8]
  wf := gather_S1000000x8_S2000000x1_S2000000x8_1_0_n_n_0_1_18_wf
def scatter_S8192_S2000000x1_S2000000_n_0_0_1 : ScatterDims S8192 S2000000x1 S2000000 where
  updateWindowDims := []
  insertedWindowDims := [0]
  scatterDimsToOperandDims := [0]
  indexVectorDim := 1
  wf := scatter_S8192_S2000000x1_S2000000_n_0_0_1_wf

class Facts : Prop extends Facts₀ where

variable [Facts]
-- ==== Proof.KerRun.lean ====
/-
  The kernel program's run with every buffer's final contents.

  The entry point is nineteen segments in a row: stretches of host operations and, between them, two pipelined regions.
  The contents of the core's buffers at each boundary are a fold from the launch memory: a stretch applies its operations;
  a region leaves each of its arrays at what its write-backs leave and every other buffer as it found it. Run from any
  memory with zero counters, every weakly fair execution terminates without a fault and ends with every unscoped buffer
  at the last boundary's contents. (The frame claim keeps, of this, only the twelve argument buffers.)
-/
import proofs.«104806_j40261023433129_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the entry point terminates, nothing faulting, with each unscoped buffer of each core
    at the contents the fold through the segments gives it. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W19 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c => h c)

/-- An unscoped buffer of the core is among those the run accounts for. -/
theorem final_at (b : Ref sig .tc) (hb : ¬ (Proc.devRef .tc b : DevRef τ sig).isScoped) :
    θ_run defs (onTc (τ := τ) (main (F := F))) ⟨m, fun _ => 0, ρ⟩ (fun r => ∀ c : Dev nD,
      r.2.mem ((c.tc : Thread nD τ).loc b) = W19 m ρ c (Proc.devRef .tc b)) :=
  (θ_run defs _ _).mono (fun _ h c => h c _ (mem_uc b hb)) (run_all m ρ)

end Cert.KernelIdeal.Whole

end
-- ==== Proof.Spec.lean ====
/-
  The quantities both programs compute, entry by entry, over the extended reals.

  A table entry has a location, a log-scale and eight noise draws; sample k of the entry is
  location + exp(log-scale) · noise, and the entry's divergence term is ½ (exp(log-scale)² + location² − 1) − log-scale.
  A reflection has sixteen metadata values; its eight positive scales are the softplus of a two-layer network's outputs,
  softplus(x) = max(x, 0) + log(1 + exp(−|x|)), the hidden layer being the positive part of an affine map. With the eight
  samples f of the reflection's table entry, the predicted intensities are f² · scale, their mean is the first result, and
  the second sums, over the eight, the normal log-density of the observation at the predicted intensity.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- One sample: location + exp(log-scale) · noise. -/
def sample (loc ls e : EReal) : EReal := loc + Ideal.exp ls * e

/-- The divergence term of one entry: ½ (exp(log-scale)² + location² − 1) − log-scale. -/
def divergence (loc ls : EReal) : EReal :=
  Ideal.ofBits .f32 0x3F000000#32 * (Ideal.exp ls * Ideal.exp ls + loc * loc - Ideal.ofBits .f32 0x3F800000#32) - ls

/-- softplus(x) = max(x, 0) + log(1 + exp(−|x|)), with |x| = max(x, −x). -/
def softplus (x : EReal) : EReal := max x 0 + Ideal.log1p (Ideal.exp (-(max x (-x))))

/-- Hidden unit j of a reflection: the positive part of (metadata row) · W1[:, j] + b1[j]. -/
def hidden (mrow : Fin 16 → EReal) (W1 : (⟨2, ![16, 32]⟩ : Shape).Idx → EReal) (b1 : (⟨1, ![32]⟩ : Shape).Idx → EReal)
    (j : Fin 32) : EReal :=
  max ((∑ i : Fin 16, mrow i * W1 (ix2 i j)) + b1 (ix1 j)) 0

/-- Scale k of a reflection: softplus of (hidden row) · W2[:, k] + b2[k]. -/
def scale (mrow : Fin 16 → EReal) (W1 : (⟨2, ![16, 32]⟩ : Shape).Idx → EReal) (b1 : (⟨1, ![32]⟩ : Shape).Idx → EReal)
    (W2 : (⟨2, ![32, 8]⟩ : Shape).Idx → EReal) (b2 : (⟨1, ![8]⟩ : Shape).Idx → EReal) (k : Fin 8) : EReal :=
  softplus ((∑ j : Fin 32, hidden mrow W1 b1 j * W2 (ix2 j k)) + b2 (ix1 k))

/-- The predicted intensity of one sample: f² · scale. -/
def intensity (f sc : EReal) : EReal := f * f * sc

/-- The mean of the eight predicted intensities. -/
def meanIntensity (frow sc : Fin 8 → EReal) : EReal :=
  Ideal.div (∑ k : Fin 8, intensity (frow k) (sc k)) (Ideal.ofBits .f32 0x41000000#32)

/-- The normal log-density of the observation at one predicted intensity: −½ r² − log σ − ½ log 2π, r the residual in
    units of σ. -/
def logDensity (ip io sg : EReal) : EReal :=
  Ideal.ofBits .f32 0xBF000000#32 * Ideal.div (ip - io) sg * Ideal.div (ip - io) sg - Ideal.log sg
    - Ideal.ofBits .f32 0x3F6B3F8E#32

/-- The sum over the eight samples of the log-densities. -/
def logDensitySum (frow sc : Fin 8 → EReal) (io sg : EReal) : EReal :=
  ∑ k : Fin 8, logDensity (intensity (frow k) (sc k)) io sg

/-- The softplus as both programs spell it: a test "x − 0 differs from itself" (never true on the extended reals) selecting
    x + 0, else max(x, 0) + log(1 + exp(·)) of minus |x − 0| — written 0 − |x − 0| by one program and −|x − 0| by the other. -/
theorem softplus_spelled (x z : EReal) (hz : z = 0) (p : CmpFPredicate) (hp : p = .one ∨ p = .une) (n : EReal → EReal)
    (hn : ∀ y, n y = -y) :
    Scalar.select (Ideal.cmp p (x - z) (x - z)) (x + z)
      (max x z + Ideal.log1p (Ideal.exp (n (max (x - z) (-(x - z)))))) = softplus x := by
  subst hz
  have hc : Ideal.cmp p (x - 0) (x - 0) = 0#1 := by
    rcases hp with rfl | rfl <;> simp [Ideal.cmp]
  rw [hc, select_zero, hn, sub_zero]
  rfl

/-- The accelerator program's spelling. -/
theorem softplus_one (x : EReal) :
    Scalar.select (Ideal.cmp .one (x - 0) (x - 0)) (x + 0)
      (max x 0 + Ideal.log1p (Ideal.exp (0 - max (x - 0) (-(x - 0))))) = softplus x :=
  softplus_spelled x 0 rfl .one (Or.inl rfl) (fun y => 0 - y) (fun y => zero_sub y)

/-- The array program's spelling. -/
theorem softplus_une (x : EReal) :
    Scalar.select (Ideal.cmp .une (x - 0) (x - 0)) (x + 0)
      (max x 0 + Ideal.log1p (Ideal.exp (-(max (x - 0) (-(x - 0)))))) = softplus x :=
  softplus_spelled x 0 rfl .une (Or.inr rfl) (fun y => -y) (fun _ => rfl)

end Cert.Spec

end
-- ==== Proof.Block0.lean ====
/-
  What one grid point of the sampling region leaves in its two output blocks, entry by entry.

  The point holds one column block: a [1, 65536] row of locations, a [1, 65536] row of log-scales and an [8, 65536]
  block of noise. Entry (p, q) of its sample block is the sample built from column q of the two rows and entry (p, q)
  of the noise; entry (0, q) of its divergence row is the divergence term of column q.
-/
import proofs.«104806_j40261023433129_2_alg».proof.Proof.Gen.KernelIdeal.Frame
import proofs.«104806_j40261023433129_2_alg».proof.Proof.Spec
import Idealize.ShloMosaic.Lib.Pipeline.Value
import Idealize.ShloMosaic.Lib.ValueIdx
import Idealize.ShloMosaic.Lib.ValueLayout

noncomputable section

namespace Cert.KernelIdeal.Blocks

open Cert.KernelIdeal Cert.KernelIdeal.Gen Idealize.ShloMosaic Idealize.ShloMosaic.ValueIdx

theorem zero2 : (![0, 0] : Fin 2 → Nat) = fun _ => 0 := funext fun a => by fin_cases a <;> rfl
theorem zero1 : (![0] : Fin 1 → Nat) = fun _ => 0 := funext fun a => by fin_cases a; rfl

/-- Entry (p, q) of the sample block. -/
theorem sample_block (x0 x1 : Vec Ideal S1x65536 .f32) (x2 : Vec Ideal S8x65536 .f32) (p : Fin 8) (q : Fin 65536) :
    out0_3 (F := Ideal) x0 x1 x2 (ix2 p q) = Spec.sample (x0 (ix2 0 q)) (x1 (ix2 0 q)) (x2 (ix2 p q)) := by
  unfold out0_3
  rw [View.canon_unit_zero zero2]
  simp only [View.ld_unit_zero (S := S1x65536) zero2, View.ld_unit_zero (S := S8x65536) zero2]
  unfold k0_pay4 k0_pay3 k0_pay2 k0_pay1
  simp only [shapeCast_self]
  rw [addf_apply, mulf_apply, broadcastTo_1b_ab_apply, broadcastTo_1b_ab_apply]
  rfl

/-- Entry (u, q) of the divergence row. -/
theorem divergence_block (x0 x1 : Vec Ideal S1x65536 .f32) (x2 : Vec Ideal S8x65536 .f32) (u : Fin 1) (q : Fin 65536) :
    out0_4 (F := Ideal) x0 x1 x2 (ix2 u q) = Spec.divergence (x0 (ix2 u q)) (x1 (ix2 u q)) := by
  unfold out0_4
  rw [View.canon_unit_zero zero2]
  simp only [View.ld_unit_zero (S := S1x65536) zero2]
  unfold k0_pay5 k0_pay3 k0_pay2 k0_pay1
  simp only [shapeCast_self]
  rfl

end Cert.KernelIdeal.Blocks

end
-- ==== Proof.Region0.lean ====
/-
  The sampling region's two output arrays, whole.

  Sixteen grid points, point t holding column block t (columns 65536·t … 65536·t + 65535) of each of its five arrays. What
  point t writes back to the sample array is block t of ONE function of the three input arrays — entry (p, q) is the
  sample built from column q of the location and log-scale rows and entry (p, q) of the noise — and likewise for the
  divergence row; the sixteen blocks tile each output array, so after the region each output array IS that function of the
  input arrays as the region found them.
-/
import proofs.«104806_j40261023433129_2_alg».proof.Proof.Block0

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The sample array as one function of the three input arrays. -/
def samplesOf (a0 a1 : S1x1048576.Idx → EReal) (a2 : S8x1048576.Idx → EReal) : S8x1048576.Idx → EReal :=
  fun i => Spec.sample (a0 (ix2 0 (i 1))) (a1 (ix2 0 (i 1))) (a2 (ix2 (i 0) (i 1)))

/-- The divergence row as one function of the two input rows. -/
def divergencesOf (a0 a1 : S1x1048576.Idx → EReal) : S1x1048576.Idx → EReal :=
  fun i => Spec.divergence (a0 (ix2 (i 0) (i 1))) (a1 (ix2 (i 0) (i 1)))

/-- Every window of the region sits at block row 0 and block column t at point t. -/
theorem index0 : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val
    ∧ win0_4.index t (0 : Fin 2) = 0 ∧ win0_4.index t (1 : Fin 2) = t.val :=
  (by decide +kernel : ∀ t : Fin grid0.N, _)

/-- What point t writes back to the sample array is block t of `samplesOf` of the input arrays. -/
theorem flushed_samples (c : Dev nD) (t : Fin cfg0.N) :
    (dat0 V c).flushed 3 t = ((cfg0.win 3).blk t).view.read (Elt Ideal)
      (samplesOf (V c (Pipeline.arrRef spec0 0)) (V c (Pipeline.arrRef spec0 1)) (V c (Pipeline.arrRef spec0 2))) := by
  show (cfg0.win 3).cut (grid0.coords t) ((dat0 V c).after 3 t) = _
  rw [after0_3]
  obtain ⟨e00, e01, e10, e11, e20, e21, e30, e31, e40, e41⟩ := index0 t
  funext j
  obtain ⟨p, q, rfl⟩ : ∃ (p : Fin 8) (q : Fin 65536), j = ix2 p q := ⟨j 0, j 1, eq_ix2 j⟩
  refine (Blocks.sample_block (iblk0 V c 0 t) (iblk0 V c 1 t) (iblk0 V c 2 t) p q).trans ?_
  have h0 : ((cfg0.win 0).blk t).view.emb (ix2 (0 : Fin 1) q)
      = ix2 (0 : Fin 1) ((((cfg0.win 3).blk t).view.emb (ix2 p q)) 1) := by
    funext a; apply Fin.ext
    match a with
    | ⟨0, _⟩ => show win0_0.index t (0 : Fin 2) * 1 + 1 * 0 = 0; omega
    | ⟨1, _⟩ => show win0_0.index t (1 : Fin 2) * 65536 + 1 * q.val = win0_3.index t (1 : Fin 2) * 65536 + 1 * q.val; omega
  have h1 : ((cfg0.win 1).blk t).view.emb (ix2 (0 : Fin 1) q)
      = ix2 (0 : Fin 1) ((((cfg0.win 3).blk t).view.emb (ix2 p q)) 1) := by
    funext a; apply Fin.ext
    match a with
    | ⟨0, _⟩ => show win0_1.index t (0 : Fin 2) * 1 + 1 * 0 = 0; omega
    | ⟨1, _⟩ => show win0_1.index t (1 : Fin 2) * 65536 + 1 * q.val = win0_3.index t (1 : Fin 2) * 65536 + 1 * q.val; omega
  have h2 : ((cfg0.win 2).blk t).view.emb (ix2 p q)
      = ix2 ((((cfg0.win 3).blk t).view.emb (ix2 p q)) 0) ((((cfg0.win 3).blk t).view.emb (ix2 p q)) 1) := by
    funext a; apply Fin.ext
    match a with
    | ⟨0, _⟩ => show win0_2.index t (0 : Fin 2) * 8 + 1 * p.val = win0_3.index t (0 : Fin 2) * 8 + 1 * p.val; omega
    | ⟨1, _⟩ => show win0_2.index t (1 : Fin 2) * 65536 + 1 * q.val = win0_3.index t (1 : Fin 2) * 65536 + 1 * q.val; omega
  show Spec.sample (V c (Pipeline.arrRef spec0 0) (((cfg0.win 0).blk t).view.emb (ix2 (0 : Fin 1) q)))
      (V c (Pipeline.arrRef spec0 1) (((cfg0.win 1).blk t).view.emb (ix2 (0 : Fin 1) q)))
      (V c (Pipeline.arrRef spec0 2) (((cfg0.win 2).blk t).view.emb (ix2 p q))) = _
  rw [h0, h1, h2]
  rfl

/-- What point t writes back to the divergence row is block t of `divergencesOf` of the two input rows. -/
theorem flushed_divergences (c : Dev nD) (t : Fin cfg0.N) :
    (dat0 V c).flushed 4 t = ((cfg0.win 4).blk t).view.read (Elt Ideal)
      (divergencesOf (V c (Pipeline.arrRef spec0 0)) (V c (Pipeline.arrRef spec0 1))) := by
  show (cfg0.win 4).cut (grid0.coords t) ((dat0 V c).after 4 t) = _
  rw [after0_4]
  obtain ⟨e00, e01, e10, e11, e20, e21, e30, e31, e40, e41⟩ := index0 t
  funext j
  obtain ⟨u, q, rfl⟩ : ∃ (u : Fin 1) (q : Fin 65536), j = ix2 u q := ⟨j 0, j 1, eq_ix2 j⟩
  refine (Blocks.divergence_block (iblk0 V c 0 t) (iblk0 V c 1 t) (iblk0 V c 2 t) u q).trans ?_
  have h0 : ((cfg0.win 0).blk t).view.emb (ix2 u q)
      = ix2 ((((cfg0.win 4).blk t).view.emb (ix2 u q)) 0) ((((cfg0.win 4).blk t).view.emb (ix2 u q)) 1) := by
    funext a; apply Fin.ext
    match a with
    | ⟨0, _⟩ => show win0_0.index t (0 : Fin 2) * 1 + 1 * u.val = win0_4.index t (0 : Fin 2) * 1 + 1 * u.val; omega
    | ⟨1, _⟩ => show win0_0.index t (1 : Fin 2) * 65536 + 1 * q.val = win0_4.index t (1 : Fin 2) * 65536 + 1 * q.val; omega
  have h1 : ((cfg0.win 1).blk t).view.emb (ix2 u q)
      = ix2 ((((cfg0.win 4).blk t).view.emb (ix2 u q)) 0) ((((cfg0.win 4).blk t).view.emb (ix2 u q)) 1) := by
    funext a; apply Fin.ext
    match a with
    | ⟨0, _⟩ => show win0_1.index t (0 : Fin 2) * 1 + 1 * u.val = win0_4.index t (0 : Fin 2) * 1 + 1 * u.val; omega
    | ⟨1, _⟩ => show win0_1.index t (1 : Fin 2) * 65536 + 1 * q.val = win0_4.index t (1 : Fin 2) * 65536 + 1 * q.val; omega
  show Spec.divergence (V c (Pipeline.arrRef spec0 0) (((cfg0.win 0).blk t).view.emb (ix2 u q)))
      (V c (Pipeline.arrRef spec0 1) (((cfg0.win 1).blk t).view.emb (ix2 u q))) = _
  rw [h0, h1]
  rfl

/-- An entry of the sample array is in point t's block iff each coordinate is in the block's range on its axis. -/
theorem mem_samples (t : Fin cfg0.N) (i : S8x1048576.Idx) :
    i ∈ ((cfg0.win 3).blk t).view.set ↔ ∀ a : Fin 2, win0_3.index t a * S8x65536.size a ≤ (i a).val
      ∧ (i a).val < win0_3.index t a * S8x65536.size a + S8x65536.size a := by
  show i ∈ ((View.whole main_v5_0).slice (win0_3.rect t)).set ↔ _
  rw [View.set_slice_whole, Rect.mem_set_unit]
  exact Iff.rfl

/-- The same for the divergence row. -/
theorem mem_divergences (t : Fin cfg0.N) (i : S1x1048576.Idx) :
    i ∈ ((cfg0.win 4).blk t).view.set ↔ ∀ a : Fin 2, win0_4.index t a * S1x65536.size a ≤ (i a).val
      ∧ (i a).val < win0_4.index t a * S1x65536.size a + S1x65536.size a := by
  show i ∈ ((View.whole main_v5_1).slice (win0_4.rect t)).set ↔ _
  rw [View.set_slice_whole, Rect.mem_set_unit]
  exact Iff.rfl

/-- Column q lies in column block q / 65536. -/
theorem cover_samples (i : S8x1048576.Idx) :
    ∃ t : Fin cfg0.N, (cfg0.win 3).flush t = true ∧ i ∈ ((cfg0.win 3).blk t).view.set := by
  have hi0 : (i 0).val < 8 := (i 0).isLt
  have hi1 : (i 1).val < 1048576 := (i 1).isLt
  have ht : (i 1).val / 65536 < cfg0.N := by show _ < grid0.N; rw [N_0]; omega
  refine ⟨⟨(i 1).val / 65536, ht⟩, flush0_3 _, ?_⟩
  rw [mem_samples]
  obtain ⟨e00, e01, e10, e11, e20, e21, e30, e31, e40, e41⟩ := index0 ⟨(i 1).val / 65536, ht⟩
  intro a
  match a with
  | ⟨0, _⟩ =>
    show win0_3.index ⟨(i 1).val / 65536, ht⟩ (0 : Fin 2) * 8 ≤ (i 0).val
      ∧ (i 0).val < win0_3.index ⟨(i 1).val / 65536, ht⟩ (0 : Fin 2) * 8 + 8
    omega
  | ⟨1, _⟩ =>
    show win0_3.index ⟨(i 1).val / 65536, ht⟩ (1 : Fin 2) * 65536 ≤ (i 1).val
      ∧ (i 1).val < win0_3.index ⟨(i 1).val / 65536, ht⟩ (1 : Fin 2) * 65536 + 65536
    have : (⟨(i 1).val / 65536, ht⟩ : Fin cfg0.N).val = (i 1).val / 65536 := rfl
    omega

theorem cover_divergences (i : S1x1048576.Idx) :
    ∃ t : Fin cfg0.N, (cfg0.win 4).flush t = true ∧ i ∈ ((cfg0.win 4).blk t).view.set := by
  have hi0 : (i 0).val < 1 := (i 0).isLt
  have hi1 : (i 1).val < 1048576 := (i 1).isLt
  have ht : (i 1).val / 65536 < cfg0.N := by show _ < grid0.N; rw [N_0]; omega
  refine ⟨⟨(i 1).val / 65536, ht⟩, flush0_4 _, ?_⟩
  rw [mem_divergences]
  obtain ⟨e00, e01, e10, e11, e20, e21, e30, e31, e40, e41⟩ := index0 ⟨(i 1).val / 65536, ht⟩
  intro a
  match a with
  | ⟨0, _⟩ =>
    show win0_4.index ⟨(i 1).val / 65536, ht⟩ (0 : Fin 2) * 1 ≤ (i 0).val
      ∧ (i 0).val < win0_4.index ⟨(i 1).val / 65536, ht⟩ (0 : Fin 2) * 1 + 1
    omega
  | ⟨1, _⟩ =>
    show win0_4.index ⟨(i 1).val / 65536, ht⟩ (1 : Fin 2) * 65536 ≤ (i 1).val
      ∧ (i 1).val < win0_4.index ⟨(i 1).val / 65536, ht⟩ (1 : Fin 2) * 65536 + 65536
    have : (⟨(i 1).val / 65536, ht⟩ : Fin cfg0.N).val = (i 1).val / 65536 := rfl
    omega

/-- After the region the sample array is `samplesOf` of the input arrays as the region found them. -/
theorem samples_final (c : Dev nD) : (dat0 V c).arrAt 3 cfg0.N
    = samplesOf (V c (Pipeline.arrRef spec0 0)) (V c (Pipeline.arrRef spec0 1)) (V c (Pipeline.arrRef spec0 2)) :=
  (dat0 V c).arrAt_eq_of_cover 3 _ (fun t _ => flushed_samples V c t) cover_samples

/-- After the region the divergence row is `divergencesOf` of the two input rows. -/
theorem divergences_final (c : Dev nD) : (dat0 V c).arrAt 4 cfg0.N
    = divergencesOf (V c (Pipeline.arrRef spec0 0)) (V c (Pipeline.arrRef spec0 1)) :=
  (dat0 V c).arrAt_eq_of_cover 4 _ (fun t _ => flushed_divergences V c t) cover_divergences

end Cert.KernelIdeal.Arrays

end
-- ==== Proof.LibPlainDot.lean ====
/-
  A matrix product with ONE contracted axis, read at an output entry over the extended reals.

  For a product of an [A, K] array by a [K, B] array whose dimension numbers send output entry (p, c) and contraction
  position k to the operand entries (p, k) and (k, c), the accelerator's matmul into a zero accumulator and the host's
  dot_general are both the plain sum  Σ_k lhs[p, k] · rhs[k, c]  — no rounding and no order of summation is left at the
  exact instance. The four coordinate facts are taken as hypotheses, so that one statement serves every such record.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {A K B : Nat} {φ₁ φ₂ : FTy}

/-- The contraction sum re-indexed by the one contracted coordinate, the operand entries written out. -/
theorem contr_sum (d : DotDims ⟨2, ![A, K]⟩ ⟨2, ![K, B]⟩ ⟨2, ![A, B]⟩)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    (∑ q : d.contr.Idx, lhs (d.lhsIdx (ix2 p c) q) * rhs (d.rhsIdx (ix2 p c) q))
      = ∑ k : Fin K, lhs (ix2 p k) * rhs (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

/-- The matmul into the zero accumulator at entry (p, c) is Σ_k lhs[p, k] · rhs[k, c]. -/
theorem matmul_zero_apply (d : DotDims ⟨2, ![A, K]⟩ ⟨2, ![K, B]⟩ ⟨2, ![A, B]⟩) (prec : Option ContractPrecision)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.matmul d prec lhs rhs (constant (F := Ideal) ⟨2, ![A, B]⟩ .f32 0x00000000#32) (ix2 p c)
      = ∑ k : Fin K, lhs (ix2 p k) * rhs (ix2 k c) :=
  (Ideal.matmul_constant_zero_apply d prec lhs rhs (ix2 p c)).trans (contr_sum d hr hs hl0 hl1 hr0 hr1 lhs rhs p c)

/-- The host's dot_general at entry (p, c) is the same sum. -/
theorem dotGeneral_apply (d : DotDims ⟨2, ![A, K]⟩ ⟨2, ![K, B]⟩ ⟨2, ![A, B]⟩) (prec : Option ContractPrecision)
    (sched : HostSchedule)
    (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (lhs : FVec Ideal ⟨2, ![A, K]⟩ φ₁) (rhs : FVec Ideal ⟨2, ![K, B]⟩ φ₂) (p : Fin A) (c : Fin B) :
    FloatOps.dotGeneral d prec sched lhs rhs (ix2 p c) = ∑ k : Fin K, lhs (ix2 p k) * rhs (ix2 k c) :=
  (Ideal.dotGeneral_apply d prec sched lhs rhs (ix2 p c)).trans (contr_sum d hr hs hl0 hl1 hr0 hr1 lhs rhs p c)

end Idealize.ShloMosaic.PlainDot

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.Block1.lean ====
/-
  What one grid point of the likelihood region leaves in its two output blocks, entry by entry.

  The point holds 4096 reflections: their metadata rows, their eight samples, their observations and standard deviations,
  and the network's weights whole. Row y of its first output is the mean predicted intensity of reflection y, row y of
  its second the sum of the eight log-densities. A product with one contracted axis is the plain sum over that axis; a
  change of float format is the identity; a sum along the sample axis is the sum of the eight entries.
-/
import proofs.«104806_j40261023433129_2_alg».proof.Proof.Block0
import proofs.«104806_j40261023433129_2_alg».proof.Proof.LibPlainDot
import proofs.«104806_j40261023433129_2_alg».proof.Proof.LibColumn
import Idealize.ShloMosaic.PureOps.Ideal.Laws

noncomputable section

open scoped BigOperators

namespace Cert.KernelIdeal.Blocks

open Cert.KernelIdeal Cert.KernelIdeal.Gen Idealize.ShloMosaic Idealize.ShloMosaic.ValueIdx

section Pointwise
variable {s : Shape} {φ : FTy}
theorem exp_at (a : FVec Ideal s φ) (i : s.Idx) : Idealize.ShloMosaic.exp a i = Ideal.exp (a i) := rfl
theorem log_at (a : FVec Ideal s φ) (i : s.Idx) : Idealize.ShloMosaic.log a i = Ideal.log (a i) := rfl
theorem log1p_at (a : FVec Ideal s φ) (i : s.Idx) : Idealize.ShloMosaic.log1p a i = Ideal.log1p (a i) := rfl
theorem absf_at (a : FVec Ideal s φ) (i : s.Idx) : Idealize.ShloMosaic.absf a i = max (a i) (-(a i)) := rfl
theorem cmpf_at (p : CmpFPredicate) (a b : FVec Ideal s φ) (i : s.Idx) : cmpf p a b i = Ideal.cmp p (a i) (b i) := rfl
theorem zero_word : Scalar.ofBits (F := Ideal) .f32 0x00000000#32 = (0 : EReal) := Ideal.ofBits_zero_f32
end Pointwise

/-- The first product at entry (y, j): the sum over the sixteen metadata values. -/
theorem product1 (l : FVec Ideal S4096x16 .bf16) (r : FVec Ideal S16x32 .bf16) (y : Fin 4096) (j : Fin 32) :
    matmul dot_S4096x16_S16x32_S4096x32_1_0_0_1_n_n none l r (constant (F := Ideal) S4096x32 .f32 0x00000000#32) (ix2 y j)
      = ∑ i : Fin 16, l (ix2 y i) * r (ix2 i j) :=
  PlainDot.matmul_zero_apply dot_S4096x16_S16x32_S4096x32_1_0_0_1_n_n none rfl rfl
    (fun _ _ => rfl) (fun _ _ => rfl) (fun _ _ => rfl) (fun _ _ => rfl) l r y j

/-- The second product at entry (y, k): the sum over the thirty-two hidden units. -/
theorem product2 (l : FVec Ideal S4096x32 .bf16) (r : FVec Ideal S32x8 .bf16) (y : Fin 4096) (k : Fin 8) :
    matmul dot_S4096x32_S32x8_S4096x8_1_0_0_1_n_n none l r (constant (F := Ideal) S4096x8 .f32 0x00000000#32) (ix2 y k)
      = ∑ j : Fin 32, l (ix2 y j) * r (ix2 j k) :=
  PlainDot.matmul_zero_apply dot_S4096x32_S32x8_S4096x8_1_0_0_1_n_n none rfl rfl
    (fun _ _ => rfl) (fun _ _ => rfl) (fun _ _ => rfl) (fun _ _ => rfl) l r y k

/-- Entry (y, k) of the predicted intensities. -/
theorem intensity_block (v0 : Vec Ideal S4096x16 .f32) (v3 : Vec Ideal S16x32 .f32) (v5 : Vec Ideal S32 .f32)
    (v13 : Vec Ideal S32x8 .f32) (v15 : Vec Ideal S8 .f32) (v34 : Vec Ideal S4096x8 .f32) (y : Fin 4096) (k : Fin 8) :
    k1_pay3 (F := Ideal) v0 v3 v5 v13 v15 v34 (ix2 y k)
      = Spec.intensity (v34 (ix2 y k)) (Spec.scale (fun i => v0 (ix2 y i)) v3 v5 v13 v15 k) := by
  unfold k1_pay3
  simp only [shapeCast_self]
  simp only [mulf_apply, addf_apply, subf_apply, maximumf_apply, select_apply, cmpf_at, broadcast_apply, truncf_apply,
    exp_at, log1p_at, absf_at, product1, product2, broadcastTo_1b_ab_apply, shapeCast_a_1a_apply, zero_word]
  simp only [Spec.intensity, Spec.scale, Spec.hidden, Spec.softplus_one]

/-- Reflection y with sample k put back on the summed axis is the entry (y, k). -/
theorem row_entry (h : S4096x8.Reduces [1] S4096) (y : Fin 4096) (k : Fin 8) : h.lift (ix1 y) k = ix2 y k := by
  funext c
  apply Fin.ext
  match c with
  | ⟨0, _⟩ => rfl
  | ⟨1, _⟩ => rfl

/-- A sum along the sample axis, at reflection y: the sum of the eight entries of row y. -/
theorem sum_samples (src : FVec Ideal S4096x8 .f32) (h : S4096x8.Reduces [1] S4096) (hφ : FKind.Formats .f32)
    (hacc : (0x00000000#32 : BitVec 32) = 0x00000000#32) (y : Fin 4096) :
    multiReduction .add [1] S4096 src 0x00000000#32 h hφ hacc (ix1 y) = ∑ k : Fin 8, src (ix2 y k) :=
  (Ideal.multiReduction_add_single src 0x00000000#32 h hφ hacc (ix1 y)).trans
    (Finset.sum_congr rfl fun k _ => congrArg src (row_entry h y k))

/-- Row y of the first output: the mean of reflection y's eight predicted intensities. -/
theorem mean_block (x0 : Vec Ideal S4096x16 .f32) (x1 : Vec Ideal S4096x8 .f32) (x2 x3 : Vec Ideal S4096 .f32)
    (x4 : Vec Ideal S16x32 .f32) (x5 : Vec Ideal S32 .f32) (x6 : Vec Ideal S32x8 .f32) (x7 : Vec Ideal S8 .f32)
    (y : Fin 4096) :
    out1_8 (F := Ideal) x0 x1 x2 x3 x4 x5 x6 x7 (ix1 y)
      = Spec.meanIntensity (fun k => x1 (ix2 y k)) (Spec.scale (fun i => x0 (ix2 y i)) x4 x5 x6 x7) := by
  unfold out1_8
  rw [View.canon_unit_zero zero1]
  simp only [View.ld_unit_zero (S := S4096x16) zero2, View.ld_unit_zero (S := S16x32) zero2,
    View.ld_unit_zero (S := S32x8) zero2, View.ld_unit_zero (S := S4096x8) zero2,
    View.ld_unit_zero (S := S32) zero1, View.ld_unit_zero (S := S8) zero1]
  unfold k1_pay1
  simp only [divf_apply, broadcast_apply]
  rw [sum_samples]
  simp only [intensity_block]
  rfl

/-- Row y of the second output: the sum of reflection y's eight log-densities. -/
theorem logDensity_block (x0 : Vec Ideal S4096x16 .f32) (x1 : Vec Ideal S4096x8 .f32) (x2 x3 : Vec Ideal S4096 .f32)
    (x4 : Vec Ideal S16x32 .f32) (x5 : Vec Ideal S32 .f32) (x6 : Vec Ideal S32x8 .f32) (x7 : Vec Ideal S8 .f32)
    (y : Fin 4096) :
    out1_9 (F := Ideal) x0 x1 x2 x3 x4 x5 x6 x7 (ix1 y)
      = Spec.logDensitySum (fun k => x1 (ix2 y k)) (Spec.scale (fun i => x0 (ix2 y i)) x4 x5 x6 x7)
          (x2 (ix1 y)) (x3 (ix1 y)) := by
  unfold out1_9
  rw [View.canon_unit_zero zero1]
  simp only [View.ld_unit_zero (S := S4096x16) zero2, View.ld_unit_zero (S := S16x32) zero2,
    View.ld_unit_zero (S := S32x8) zero2, View.ld_unit_zero (S := S4096x8) zero2,
    View.ld_unit_zero (S := S32) zero1, View.ld_unit_zero (S := S8) zero1, View.ld_unit_zero (S := S4096) zero1]
  unfold k1_pay2 k1_pay4 k1_pay5
  simp only [shapeCast_self]
  rw [sum_samples]
  simp only [subf_apply, mulf_apply, divf_apply, broadcast_apply, log_at, intensity_block,
    Column.broadcastTo_a1_ab_apply, Column.shapeCast_a_a1_apply]
  rfl

/-- The same two rows, given what the block's entries under reflection y are. -/
theorem mean_block_of (x0 : Vec Ideal S4096x16 .f32) (x1 : Vec Ideal S4096x8 .f32) (x2 x3 : Vec Ideal S4096 .f32)
    (x4 : Vec Ideal S16x32 .f32) (x5 : Vec Ideal S32 .f32) (x6 : Vec Ideal S32x8 .f32) (x7 : Vec Ideal S8 .f32)
    (y : Fin 4096) (g : Fin 16 → EReal) (f : Fin 8 → EReal)
    (w4 : Vec Ideal S16x32 .f32) (w5 : Vec Ideal S32 .f32) (w6 : Vec Ideal S32x8 .f32) (w7 : Vec Ideal S8 .f32)
    (h0 : ∀ a, x0 (ix2 y a) = g a) (h1 : ∀ k, x1 (ix2 y k) = f k)
    (h4 : x4 = w4) (h5 : x5 = w5) (h6 : x6 = w6) (h7 : x7 = w7) :
    out1_8 (F := Ideal) x0 x1 x2 x3 x4 x5 x6 x7 (ix1 y) = Spec.meanIntensity f (Spec.scale g w4 w5 w6 w7) := by
  subst h4 h5 h6 h7
  have e0 : (fun a => x0 (ix2 y a)) = g := funext h0
  have e1 : (fun k => x1 (ix2 y k)) = f := funext h1
  rw [mean_block, e0, e1]

theorem logDensity_block_of (x0 : Vec Ideal S4096x16 .f32) (x1 : Vec Ideal S4096x8 .f32) (x2 x3 : Vec Ideal S4096 .f32)
    (x4 : Vec Ideal S16x32 .f32) (x5 : Vec Ideal S32 .f32) (x6 : Vec Ideal S32x8 .f32) (x7 : Vec Ideal S8 .f32)
    (y : Fin 4096) (g : Fin 16 → EReal) (f : Fin 8 → EReal) (io sg : EReal)
    (w4 : Vec Ideal S16x32 .f32) (w5 : Vec Ideal S32 .f32) (w6 : Vec Ideal S32x8 .f32) (w7 : Vec Ideal S8 .f32)
    (h0 : ∀ a, x0 (ix2 y a) = g a) (h1 : ∀ k, x1 (ix2 y k) = f k) (h2 : x2 (ix1 y) = io) (h3 : x3 (ix1 y) = sg)
    (h4 : x4 = w4) (h5 : x5 = w5) (h6 : x6 = w6) (h7 : x7 = w7) :
    out1_9 (F := Ideal) x0 x1 x2 x3 x4 x5 x6 x7 (ix1 y) = Spec.logDensitySum f (Spec.scale g w4 w5 w6 w7) io sg := by
  subst h4 h5 h6 h7 h2 h3
  have e0 : (fun a => x0 (ix2 y a)) = g := funext h0
  have e1 : (fun k => x1 (ix2 y k)) = f := funext h1
  rw [logDensity_block, e0, e1]

end Cert.KernelIdeal.Blocks

end
-- ==== Proof.Region1.lean ====
/-
  The likelihood region's two output arrays, whole.

  489 grid points, point t holding reflections 4096·t … 4096·t + 4095: their metadata rows, their sample rows, their
  observations and standard deviations, and the four weight arrays whole. What point t writes back to each output is block t
  of ONE function of the eight input arrays — entry r is the mean predicted intensity, respectively the log-density sum,
  of reflection r — and the 489 blocks tile each output, so after the region each output IS that function of the input
  arrays as the region found them.
-/
import proofs.«104806_j40261023433129_2_alg».proof.Proof.Block1

set_option maxRecDepth 16384

noncomputable section

namespace Cert.KernelIdeal.Arrays

open Cert.KernelIdeal Cert.KernelIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The mean predicted intensities as one function of the input arrays. -/
def meansOf (a0 : S2002944x16.Idx → EReal) (a1 : S2002944x8.Idx → EReal) (a4 : S16x32.Idx → EReal) (a5 : S32.Idx → EReal)
    (a6 : S32x8.Idx → EReal) (a7 : S8.Idx → EReal) : S2002944.Idx → EReal :=
  fun i => Spec.meanIntensity (fun k => a1 (ix2 (i 0) k)) (Spec.scale (fun a => a0 (ix2 (i 0) a)) a4 a5 a6 a7)

/-- The log-density sums as one function of the input arrays. -/
def logDensitiesOf (a0 : S2002944x16.Idx → EReal) (a1 : S2002944x8.Idx → EReal) (a2 a3 : S2002944.Idx → EReal)
    (a4 : S16x32.Idx → EReal) (a5 : S32.Idx → EReal) (a6 : S32x8.Idx → EReal) (a7 : S8.Idx → EReal) :
    S2002944.Idx → EReal :=
  fun i => Spec.logDensitySum (fun k => a1 (ix2 (i 0) k)) (Spec.scale (fun a => a0 (ix2 (i 0) a)) a4 a5 a6 a7)
    (a2 (ix1 (i 0))) (a3 (ix1 (i 0)))

/-- The row windows sit at block row t at point t, the weight windows at block 0. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = t.val ∧ win1_3.index t (0 : Fin 1) = t.val
    ∧ win1_4.index t (0 : Fin 2) = 0 ∧ win1_4.index t (1 : Fin 2) = 0
    ∧ win1_5.index t (0 : Fin 1) = 0
    ∧ win1_6.index t (0 : Fin 2) = 0 ∧ win1_6.index t (1 : Fin 2) = 0
    ∧ win1_7.index t (0 : Fin 1) = 0
    ∧ win1_8.index t (0 : Fin 1) = t.val ∧ win1_9.index t (0 : Fin 1) = t.val :=
  (by decide +kernel : ∀ t : Fin grid1.N, _)

/-- Window 4's block is its whole array at every point. -/
theorem whole4 (c : Dev nD) (t : Fin cfg1.N) : (iblk1 V c 4 t : S16x32.Idx → EReal) = V c (Pipeline.arrRef spec1 4) := by
  obtain ⟨e00, e01, e10, e11, e20, e30, e40, e41, e50, e60, e61, e70, e80, e90⟩ := index1 t
  funext x
  show V c (Pipeline.arrRef spec1 4) (((cfg1.win 4).blk t).view.emb x) = V c (Pipeline.arrRef spec1 4) x
  refine congrArg (V c (Pipeline.arrRef spec1 4)) (funext fun a => Fin.ext ?_)
  match a with
  | ⟨0, _⟩ => show win1_4.index t (0 : Fin 2) * 16 + 1 * (x 0).val = (x 0).val; omega
  | ⟨1, _⟩ => show win1_4.index t (1 : Fin 2) * 32 + 1 * (x 1).val = (x 1).val; omega

/-- Window 5's block is its whole array at every point. -/
theorem whole5 (c : Dev nD) (t : Fin cfg1.N) : (iblk1 V c 5 t : S32.Idx → EReal) = V c (Pipeline.arrRef spec1 5) := by
  obtain ⟨e00, e01, e10, e11, e20, e30, e40, e41, e50, e60, e61, e70, e80, e90⟩ := index1 t
  funext x
  show V c (Pipeline.arrRef spec1 5) (((cfg1.win 5).blk t).view.emb x) = V c (Pipeline.arrRef spec1 5) x
  refine congrArg (V c (Pipeline.arrRef spec1 5)) (funext fun a => Fin.ext ?_)
  match a with
  | ⟨0, _⟩ => show win1_5.index t (0 : Fin 1) * 32 + 1 * (x 0).val = (x 0).val; omega

/-- Window 6's block is its whole array at every point. -/
theorem whole6 (c : Dev nD) (t : Fin cfg1.N) : (iblk1 V c 6 t : S32x8.Idx → EReal) = V c (Pipeline.arrRef spec1 6) := by
  obtain ⟨e00, e01, e10, e11, e20, e30, e40, e41, e50, e60, e61, e70, e80, e90⟩ := index1 t
  funext x
  show V c (Pipeline.arrRef spec1 6) (((cfg1.win 6).blk t).view.emb x) = V c (Pipeline.arrRef spec1 6) x
  refine congrArg (V c (Pipeline.arrRef spec1 6)) (funext fun a => Fin.ext ?_)
  match a with
  | ⟨0, _⟩ => show win1_6.index t (0 : Fin 2) * 32 + 1 * (x 0).val = (x 0).val; omega
  | ⟨1, _⟩ => show win1_6.index t (1 : Fin 2) * 8 + 1 * (x 1).val = (x 1).val; omega

/-- Window 7's block is its whole array at every point. -/
theorem whole7 (c : Dev nD) (t : Fin cfg1.N) : (iblk1 V c 7 t : S8.Idx → EReal) = V c (Pipeline.arrRef spec1 7) := by
  obtain ⟨e00, e01, e10, e11, e20, e30, e40, e41, e50, e60, e61, e70, e80, e90⟩ := index1 t
  funext x
  show V c (Pipeline.arrRef spec1 7) (((cfg1.win 7).blk t).view.emb x) = V c (Pipeline.arrRef spec1 7) x
  refine congrArg (V c (Pipeline.arrRef spec1 7)) (funext fun a => Fin.ext ?_)
  match a with
  | ⟨0, _⟩ => show win1_7.index t (0 : Fin 1) * 8 + 1 * (x 0).val = (x 0).val; omega

/-- An entry of point t's metadata block is the array's entry under it. -/
theorem read0 (c : Dev nD) (t : Fin cfg1.N) (y : Fin 4096) (a : Fin 16) :
    iblk1 V c 0 t (ix2 y a) = V c (Pipeline.arrRef spec1 0) (((cfg1.win 0).blk t).view.emb (ix2 y a)) := rfl
/-- The same for the sample block. -/
theorem read1 (c : Dev nD) (t : Fin cfg1.N) (y : Fin 4096) (k : Fin 8) :
    iblk1 V c 1 t (ix2 y k) = V c (Pipeline.arrRef spec1 1) (((cfg1.win 1).blk t).view.emb (ix2 y k)) := rfl
/-- The same for the observations. -/
theorem read2 (c : Dev nD) (t : Fin cfg1.N) (y : Fin 4096) :
    iblk1 V c 2 t (ix1 y) = V c (Pipeline.arrRef spec1 2) (((cfg1.win 2).blk t).view.emb (ix1 y)) := rfl
/-- The same for the standard deviations. -/
theorem read3 (c : Dev nD) (t : Fin cfg1.N) (y : Fin 4096) :
    iblk1 V c 3 t (ix1 y) = V c (Pipeline.arrRef spec1 3) (((cfg1.win 3).blk t).view.emb (ix1 y)) := rfl

/-! Under point t, row y of a row window and entry y of a vector window sit at the array row that entry y of the output
    block sits at. -/
theorem row0_under8 (t : Fin cfg1.N) (y : Fin 4096) (k : Fin 16) :
    ((cfg1.win 0).blk t).view.emb (ix2 y k) = ix2 ((((cfg1.win 8).blk t).view.emb (ix1 y)) 0) k := by
  obtain ⟨e00, e01, e10, e11, e20, e30, e40, e41, e50, e60, e61, e70, e80, e90⟩ := index1 t
  funext a; apply Fin.ext
  match a with
  | ⟨0, _⟩ => show win1_0.index t (0 : Fin 2) * 4096 + 1 * y.val = win1_8.index t (0 : Fin 1) * 4096 + 1 * y.val; omega
  | ⟨1, _⟩ => show win1_0.index t (1 : Fin 2) * 16 + 1 * k.val = k.val; omega
theorem row1_under8 (t : Fin cfg1.N) (y : Fin 4096) (k : Fin 8) :
    ((cfg1.win 1).blk t).view.emb (ix2 y k) = ix2 ((((cfg1.win 8).blk t).view.emb (ix1 y)) 0) k := by
  obtain ⟨e00, e01, e10, e11, e20, e30, e40, e41, e50, e60, e61, e70, e80, e90⟩ := index1 t
  funext a; apply Fin.ext
  match a with
  | ⟨0, _⟩ => show win1_1.index t (0 : Fin 2) * 4096 + 1 * y.val = win1_8.index t (0 : Fin 1) * 4096 + 1 * y.val; omega
  | ⟨1, _⟩ => show win1_1.index t (1 : Fin 2) * 8 + 1 * k.val = k.val; omega
theorem row0_under9 (t : Fin cfg1.N) (y : Fin 4096) (k : Fin 16) :
    ((cfg1.win 0).blk t).view.emb (ix2 y k) = ix2 ((((cfg1.win 9).blk t).view.emb (ix1 y)) 0) k := by
  obtain ⟨e00, e01, e10, e11, e20, e30, e40, e41, e50, e60, e61, e70, e80, e90⟩ := index1 t
  funext a; apply Fin.ext
  match a with
  | ⟨0, _⟩ => show win1_0.index t (0 : Fin 2) * 4096 + 1 * y.val = win1_9.index t (0 : Fin 1) * 4096 + 1 * y.val; omega
  | ⟨1, _⟩ => show win1_0.index t (1 : Fin 2) * 16 + 1 * k.val = k.val; omega
theorem row1_under9 (t : Fin cfg1.N) (y : Fin 4096) (k : Fin 8) :
    ((cfg1.win 1).blk t).view.emb (ix2 y k) = ix2 ((((cfg1.win 9).blk t).view.emb (ix1 y)) 0) k := by
  obtain ⟨e00, e01, e10, e11, e20, e30, e40, e41, e50, e60, e61, e70, e80, e90⟩ := index1 t
  funext a; apply Fin.ext
  match a with
  | ⟨0, _⟩ => show win1_1.index t (0 : Fin 2) * 4096 + 1 * y.val = win1_9.index t (0 : Fin 1) * 4096 + 1 * y.val; omega
  | ⟨1, _⟩ => show win1_1.index t (1 : Fin 2) * 8 + 1 * k.val = k.val; omega
theorem vec2_under9 (t : Fin cfg1.N) (y : Fin 4096) :
    ((cfg1.win 2).blk t).view.emb (ix1 y) = ix1 ((((cfg1.win 9).blk t).view.emb (ix1 y)) 0) := by
  obtain ⟨e00, e01, e10, e11, e20, e30, e40, e41, e50, e60, e61, e70, e80, e90⟩ := index1 t
  funext a; apply Fin.ext
  match a with
  | ⟨0, _⟩ => show win1_2.index t (0 : Fin 1) * 4096 + 1 * y.val = win1_9.index t (0 : Fin 1) * 4096 + 1 * y.val; omega
theorem vec3_under9 (t : Fin cfg1.N) (y : Fin 4096) :
    ((cfg1.win 3).blk t).view.emb (ix1 y) = ix1 ((((cfg1.win 9).blk t).view.emb (ix1 y)) 0) := by
  obtain ⟨e00, e01, e10, e11, e20, e30, e40, e41, e50, e60, e61, e70, e80, e90⟩ := index1 t
  funext a; apply Fin.ext
  match a with
  | ⟨0, _⟩ => show win1_3.index t (0 : Fin 1) * 4096 + 1 * y.val = win1_9.index t (0 : Fin 1) * 4096 + 1 * y.val; omega

/-- What point t writes back to the first output is block t of `meansOf` of the input arrays. -/
theorem flushed_means (c : Dev nD) (t : Fin cfg1.N) :
    (dat1 V c).flushed 8 t = ((cfg1.win 8).blk t).view.read (Elt Ideal)
      (meansOf (V c (Pipeline.arrRef spec1 0)) (V c (Pipeline.arrRef spec1 1)) (V c (Pipeline.arrRef spec1 4)) (V c (Pipeline.arrRef spec1 5)) (V c (Pipeline.arrRef spec1 6)) (V c (Pipeline.arrRef spec1 7))) := by
  show (cfg1.win 8).cut (grid1.coords t) ((dat1 V c).after 8 t) = _
  rw [after1_8]
  funext j
  obtain ⟨y, rfl⟩ : ∃ y : Fin 4096, j = ix1 y := ⟨j 0, eq_ix1 j⟩
  exact Blocks.mean_block_of (iblk1 V c 0 t) (iblk1 V c 1 t) (iblk1 V c 2 t) (iblk1 V c 3 t) (iblk1 V c 4 t)
    (iblk1 V c 5 t) (iblk1 V c 6 t) (iblk1 V c 7 t) y
    (fun a => (V c (Pipeline.arrRef spec1 0)) (ix2 ((((cfg1.win 8).blk t).view.emb (ix1 y)) 0) a)) (fun k => (V c (Pipeline.arrRef spec1 1)) (ix2 ((((cfg1.win 8).blk t).view.emb (ix1 y)) 0) k))
    (V c (Pipeline.arrRef spec1 4)) (V c (Pipeline.arrRef spec1 5)) (V c (Pipeline.arrRef spec1 6)) (V c (Pipeline.arrRef spec1 7))
    (fun a => (read0 V c t y a).trans (congrArg (V c (Pipeline.arrRef spec1 0)) (row0_under8 t y a)))
    (fun k => (read1 V c t y k).trans (congrArg (V c (Pipeline.arrRef spec1 1)) (row1_under8 t y k)))
    (whole4 V c t) (whole5 V c t) (whole6 V c t) (whole7 V c t)

/-- What point t writes back to the second output is block t of `logDensitiesOf` of the input arrays. -/
theorem flushed_logDensities (c : Dev nD) (t : Fin cfg1.N) :
    (dat1 V c).flushed 9 t = ((cfg1.win 9).blk t).view.read (Elt Ideal)
      (logDensitiesOf (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7))) := by
  show (cfg1.win 9).cut (grid1.coords t) ((dat1 V c).after 9 t) = _
  rw [after1_9]
  funext j
  obtain ⟨y, rfl⟩ : ∃ y : Fin 4096, j = ix1 y := ⟨j 0, eq_ix1 j⟩
  exact Blocks.logDensity_block_of (iblk1 V c 0 t) (iblk1 V c 1 t) (iblk1 V c 2 t) (iblk1 V c 3 t) (iblk1 V c 4 t)
    (iblk1 V c 5 t) (iblk1 V c 6 t) (iblk1 V c 7 t) y
    (fun a => (V c (Pipeline.arrRef spec1 0)) (ix2 ((((cfg1.win 9).blk t).view.emb (ix1 y)) 0) a)) (fun k => (V c (Pipeline.arrRef spec1 1)) (ix2 ((((cfg1.win 9).blk t).view.emb (ix1 y)) 0) k))
    ((V c (Pipeline.arrRef spec1 2)) (ix1 ((((cfg1.win 9).blk t).view.emb (ix1 y)) 0))) ((V c (Pipeline.arrRef spec1 3)) (ix1 ((((cfg1.win 9).blk t).view.emb (ix1 y)) 0)))
    (V c (Pipeline.arrRef spec1 4)) (V c (Pipeline.arrRef spec1 5)) (V c (Pipeline.arrRef spec1 6)) (V c (Pipeline.arrRef spec1 7))
    (fun a => (read0 V c t y a).trans (congrArg (V c (Pipeline.arrRef spec1 0)) (row0_under9 t y a)))
    (fun k => (read1 V c t y k).trans (congrArg (V c (Pipeline.arrRef spec1 1)) (row1_under9 t y k)))
    ((read2 V c t y).trans (congrArg (V c (Pipeline.arrRef spec1 2)) (vec2_under9 t y)))
    ((read3 V c t y).trans (congrArg (V c (Pipeline.arrRef spec1 3)) (vec3_under9 t y)))
    (whole4 V c t) (whole5 V c t) (whole6 V c t) (whole7 V c t)

/-- An entry of an output is in point t's block iff it is in the block's range. -/
theorem mem_means (t : Fin cfg1.N) (i : S2002944.Idx) :
    i ∈ ((cfg1.win 8).blk t).view.set ↔ ∀ a : Fin 1, win1_8.index t a * S4096.size a ≤ (i a).val
      ∧ (i a).val < win1_8.index t a * S4096.size a + S4096.size a := by
  show i ∈ ((View.whole main_v17_0).slice (win1_8.rect t)).set ↔ _
  rw [View.set_slice_whole, Rect.mem_set_unit]
  exact Iff.rfl

theorem mem_logDensities (t : Fin cfg1.N) (i : S2002944.Idx) :
    i ∈ ((cfg1.win 9).blk t).view.set ↔ ∀ a : Fin 1, win1_9.index t a * S4096.size a ≤ (i a).val
      ∧ (i a).val < win1_9.index t a * S4096.size a + S4096.size a := by
  show i ∈ ((View.whole main_v17_1).slice (win1_9.rect t)).set ↔ _
  rw [View.set_slice_whole, Rect.mem_set_unit]
  exact Iff.rfl

/-- Reflection r lies in row block r / 4096. -/
theorem cover_means (i : S2002944.Idx) :
    ∃ t : Fin cfg1.N, (cfg1.win 8).flush t = true ∧ i ∈ ((cfg1.win 8).blk t).view.set := by
  have hi0 : (i 0).val < 2002944 := (i 0).isLt
  have ht : (i 0).val / 4096 < cfg1.N := by show _ < grid1.N; rw [N_1]; omega
  refine ⟨⟨(i 0).val / 4096, ht⟩, flush1_8 _, ?_⟩
  rw [mem_means]
  obtain ⟨e00, e01, e10, e11, e20, e30, e40, e41, e50, e60, e61, e70, e80, e90⟩ := index1 ⟨(i 0).val / 4096, ht⟩
  intro a
  match a with
  | ⟨0, _⟩ =>
    show win1_8.index ⟨(i 0).val / 4096, ht⟩ (0 : Fin 1) * 4096 ≤ (i 0).val
      ∧ (i 0).val < win1_8.index ⟨(i 0).val / 4096, ht⟩ (0 : Fin 1) * 4096 + 4096
    have : (⟨(i 0).val / 4096, ht⟩ : Fin cfg1.N).val = (i 0).val / 4096 := rfl
    omega

theorem cover_logDensities (i : S2002944.Idx) :
    ∃ t : Fin cfg1.N, (cfg1.win 9).flush t = true ∧ i ∈ ((cfg1.win 9).blk t).view.set := by
  have hi0 : (i 0).val < 2002944 := (i 0).isLt
  have ht : (i 0).val / 4096 < cfg1.N := by show _ < grid1.N; rw [N_1]; omega
  refine ⟨⟨(i 0).val / 4096, ht⟩, flush1_9 _, ?_⟩
  rw [mem_logDensities]
  obtain ⟨e00, e01, e10, e11, e20, e30, e40, e41, e50, e60, e61, e70, e80, e90⟩ := index1 ⟨(i 0).val / 4096, ht⟩
  intro a
  match a with
  | ⟨0, _⟩ =>
    show win1_9.index ⟨(i 0).val / 4096, ht⟩ (0 : Fin 1) * 4096 ≤ (i 0).val
      ∧ (i 0).val < win1_9.index ⟨(i 0).val / 4096, ht⟩ (0 : Fin 1) * 4096 + 4096
    have : (⟨(i 0).val / 4096, ht⟩ : Fin cfg1.N).val = (i 0).val / 4096 := rfl
    omega

/-- After the region the first output is `meansOf` of the input arrays as the region found them. -/
theorem means_final (c : Dev nD) : (dat1 V c).arrAt 8 cfg1.N
    = meansOf (V c (Pipeline.arrRef spec1 0)) (V c (Pipeline.arrRef spec1 1)) (V c (Pipeline.arrRef spec1 4)) (V c (Pipeline.arrRef spec1 5)) (V c (Pipeline.arrRef spec1 6)) (V c (Pipeline.arrRef spec1 7)) :=
  (dat1 V c).arrAt_eq_of_cover 8 _ (fun t _ => flushed_means V c t) cover_means

/-- After the region the second output is `logDensitiesOf` of the input arrays as the region found them. -/
theorem logDensities_final (c : Dev nD) : (dat1 V c).arrAt 9 cfg1.N
    = logDensitiesOf (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (V c (Pipeline.arrRef spec1 6)) (V c (Pipeline.arrRef spec1 7)) :=
  (dat1 V c).arrAt_eq_of_cover 9 _ (fun t _ => flushed_logDensities V c t) cover_logDensities

end Cert.KernelIdeal.Arrays

end
-- ==== Proof.RefLine.lean ====
/-
  The reference program as one straight line of host operations, and its run.

  The program's entry point is a sequence of array operations; the functions it calls (the positive part, the softplus,
  the row lookup with its index normalisation and range test) are sequences of array operations too, each call writing
  into buffers of its own. Listed in order, with every call's operations in place of the call, they are one line of 118
  operations, cut here into six consecutive pieces by what they compute. Every weakly fair execution of the entry point
  terminates without a fault, and leaves every buffer at what folding that line over the launch contents gives.
-/
import proofs.«104806_j40261023433129_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- The samples z = q_loc + exp(q_log_scale) · eps and the per-entry divergence term. -/
abbrev rA : List (HloOp τ sig (Elt F)) :=
  [ StableHlo.unary main_arg1 main_v0 (Host.exp : (⟨S1000000, .f32⟩ : BufTy).Contents (Elt F) → (⟨S1000000, .f32⟩ : BufTy).Contents (Elt F)),
    StableHlo.unary main_v0 main_v1 (broadcastInDim S1x1000000 ![1] bcast_S1000000_S1x1000000_1 : (⟨S1000000, .f32⟩ : BufTy).Contents (Elt F) → (⟨S1x1000000, .f32⟩ : BufTy).Contents (Elt F)),
    StableHlo.unary main_v1 main_v2 (broadcastInDim S8x1000000 ![0, 1] bcast_S1x1000000_S8x1000000_0_1 : (⟨S1x1000000, .f32⟩ : BufTy).Contents (Elt F) → (⟨S8x1000000, .f32⟩ : BufTy).Contents (Elt F)),
    StableHlo.binary main_v2 main_arg2 main_v3 (mulf : (⟨S8x1000000, .f32⟩ : BufTy).Contents (Elt F) → (⟨S8x1000000, .f32⟩ : BufTy).Contents (Elt F) → (⟨S8x1000000, .f32⟩ : BufTy).Contents (Elt F)),
    StableHlo.unary main_arg0 main_v4 (broadcastInDim S1x1000000 ![1] bcast_S1000000_S1x1000000_1 : (⟨S1000000, .f32⟩ : BufTy).Contents (Elt F) → (⟨S1x1000000, .f32⟩ : BufTy).Contents (Elt F)),
    StableHlo.unary main_v4 main_v5 (broadcastInDim S8x1000000 ![0, 1] bcast_S1x1000000_S8x1000000_0_1 : (⟨S1x1000000, .f32⟩ : BufTy).Contents (Elt F) → (⟨S8x1000000, .f32⟩ : BufTy).Contents (Elt F)),
    StableHlo.binary main_v5 main_v3 main_v6 (addf : (⟨S8x1000000, .f32⟩ : BufTy).Contents (Elt F) → (⟨S8x1000000, .f32⟩ : BufTy).Contents (Elt F) → (⟨S8x1000000, .f32⟩ : BufTy).Contents (Elt F)),
    StableHlo.binary main_v0 main_v0 main_v7 (mulf : (⟨S1000000, .f32⟩ : BufTy).Contents (Elt F) → (⟨S1000000, .f32⟩ : BufTy).Contents (Elt F) → (⟨S1000000, .f32⟩ : BufTy).Contents (Elt F)),
    StableHlo.binary main_arg0 main_arg0 main_v8 (mulf : (⟨S1000000, .f32⟩ : BufTy).Contents (Elt F) → (⟨S1000000, .f32⟩ : BufTy).Contents (Elt F) → (⟨S1000000, .f32⟩ : BufTy).Contents (Elt F)),
    StableHlo.binary main_v7 main_v8 main_v9 (addf : (⟨S1000000, .f32⟩ : BufTy).Contents (Elt F) → (⟨S1000000, .f32⟩ : BufTy).Contents (Elt F) → (⟨S1000000, .f32⟩ : BufTy).Contents (Elt F)),
    StableHlo.nullary main_cst (constant S_ .f32 0x3F800000#32),
    StableHlo.unary main_cst main_v10 (broadcastInDim S1000000 ![] bcast_S_S1000000 : (⟨S_, .f32⟩ : BufTy).Contents (Elt F) → (⟨S1000000, .f32⟩ : BufTy).Contents (Elt F)),
    StableHlo.binary main_v9 main_v10 main_v11 (subf : (⟨S1000000, .f32⟩ : BufTy).Contents (Elt F) → (⟨S1000000, .f32⟩ : BufTy).Contents (Elt F) → (⟨S1000000, .f32⟩ : BufTy).Contents (Elt F)),
    StableHlo.nullary main_cst_0 (constant S_ .f32 0x3F000000#32),
    StableHlo.unary main_cst_0 main_v12 (broadcastInDim S1000000 ![] bcast_S_S1000000 : (⟨S_, .f32⟩ : BufTy).Contents (Elt F) → (⟨S1000000, .f32⟩ : BufTy).Contents (Elt F)),
    StableHlo.binary main_v12 main_v11 main_v13 (mulf : (⟨S1000000, .f32⟩ : BufTy).Contents (Elt F) → (⟨S1000000, .f32⟩ : BufTy).Contents (Elt F) → (⟨S1000000, .f32⟩ : BufTy).Contents (Elt F)),
    StableHlo.binary main_v13 main_arg1 main_v14 (subf : (⟨S1000000, .f32⟩ : BufTy).Contents (Elt F) → (⟨S1000000, .f32⟩ : BufTy).Contents (Elt F) → (⟨S1000000, .f32⟩ : BufTy).Contents (Elt F)) ]

/-- The two-layer scale network: metadata · W1 + b1, its positive part, · W2 + b2, and the softplus of that. -/
abbrev rB : List (HloOp τ sig (Elt F)) :=
  [ StableHlo.binary main_arg3 main_arg4 main_v15 ((fun l r => Host.dotGeneral dot_S2000000x16_S16x32_S2000000x32_1_0_0_1_n_n none l r) : (⟨S2000000x16, .f32⟩ : BufTy).Contents (Elt F) → (⟨S16x32, .f32⟩ : BufTy).Contents (Elt F) → (⟨S2000000x32, .f32⟩ : BufTy).Contents (Elt F)),
    StableHlo.unary main_arg5 main_v16 (broadcastInDim S1x32 ![1] bcast_S32_S1x32_1 : (⟨S32, .f32⟩ : BufTy).Contents (Elt F) → (⟨S1x32, .f32⟩ : BufTy).Contents (Elt F)),
    StableHlo.unary main_v16 main_v17 (broadcastInDim S2000000x32 ![0, 1] bcast_S1x32_S2000000x32_0_1 : (⟨S1x32, .f32⟩ : BufTy).Contents (Elt F) → (⟨S2000000x32, .f32⟩ : BufTy).Contents (Elt F)),
    StableHlo.binary main_v15 main_v17 main_v18 (addf : (⟨S2000000x32, .f32⟩ : BufTy).Contents (Elt F) → (⟨S2000000x32, .f32⟩ : BufTy).Contents (Elt F) → (⟨S2000000x32, .f32⟩ : BufTy).Contents (Elt F)),
    StableHlo.TRef.nullary main_call0.cst (constant S_ .f32 0x00000000#32),
    StableHlo.TRef.unary main_call0.cst main_call0.v0 (broadcastInDim S2000000x32 ![] bcast_S_S2000000x32),
    StableHlo.TRef.binary (.of main_v18 : StableHlo.TRef sig ⟨S2000000x32, .f32⟩) main_call0.v0 main_call0.v1 maximumf,
    StableHlo.binary main_v19 main_arg6 main_v20 ((fun l r => Host.dotGeneral dot_S2000000x32_S32x8_S2000000x8_1_0_0_1_n_n none l r) : (⟨S2000000x32, .f32⟩ : BufTy).Contents (Elt F) → (⟨S32x8, .f32⟩ : BufTy).Contents (Elt F) → (⟨S2000000x8, .f32⟩ : BufTy).Contents (Elt F)),
    StableHlo.unary main_arg7 main_v21 (broadcastInDim S1x8 ![1] bcast_S8_S1x8_1 : (⟨S8, .f32⟩ : BufTy).Contents (Elt F) → (⟨S1x8, .f32⟩ : BufTy).Contents (Elt F)),
    StableHlo.unary main_v21 main_v22 (broadcastInDim S2000000x8 ![0, 1] bcast_S1x8_S2000000x8_0_1 : (⟨S1x8, .f32⟩ : BufTy).Contents (Elt F) → (⟨S2000000x8, .f32⟩ : BufTy).Contents (Elt F)),
    StableHlo.binary main_v20 main_v22 main_v23 (addf : (⟨S2000000x8, .f32⟩ : BufTy).Contents (Elt F) → (⟨S2000000x8, .f32⟩ : BufTy).Contents (Elt F) → (⟨S2000000x8, .f32⟩ : BufTy).Contents (Elt F)),
    StableHlo.TRef.nullary main_call1.cst (constant S_ .f32 0x00000000#32),
    StableHlo.TRef.unary main_call1.cst main_call1.v0 (broadcastInDim S2000000x8 ![] bcast_S_S2000000x8),
    StableHlo.TRef.binary (.of main_v23 : StableHlo.TRef sig ⟨S2000000x8, .f32⟩) main_call1.v0 main_call1.v1 maximumf,
    StableHlo.TRef.unary main_call1.cst main_call1.v2 (broadcastInDim S2000000x8 ![] bcast_S_S2000000x8),
    StableHlo.TRef.binary (.of main_v23 : StableHlo.TRef sig ⟨S2000000x8, .f32⟩) main_call1.v2 main_call1.v3 subf,
    StableHlo.TRef.binary main_call1.v3 main_call1.v3 main_call1.v4 (cmpf .une),
    StableHlo.TRef.unary main_call1.cst main_call1.v5 (broadcastInDim S2000000x8 ![] bcast_S_S2000000x8),
    StableHlo.TRef.binary (.of main_v23 : StableHlo.TRef sig ⟨S2000000x8, .f32⟩) main_call1.v5 main_call1.v6 addf,
    StableHlo.TRef.unary main_call1.v3 main_call1.v7 Host.absf,
    StableHlo.TRef.unary main_call1.v7 main_call1.v8 Host.negf,
    StableHlo.TRef.unary main_call1.v8 main_call1.v9 Host.exp,
    StableHlo.TRef.unary main_call1.v9 main_call1.v10 Host.log1p,
    StableHlo.TRef.binary main_call1.v1 main_call1.v10 main_call1.v11 addf,
    StableHlo.TRef.ternary main_call1.v4 main_call1.v6 main_call1.v11 main_call1.v12 select ]

/-- The samples transposed to one row per table entry, and the rows picked out by the reflection's table index (out-of-range indices read the fill value). -/
abbrev rC : List (HloOp τ sig (Elt F)) :=
  [ StableHlo.unary main_v6 main_v25 ((transpose S1000000x8 [1, 0] · transposes_S8x1000000_S1000000x8_1_0) : (⟨S8x1000000, .f32⟩ : BufTy).Contents (Elt F) → (⟨S1000000x8, .f32⟩ : BufTy).Contents (Elt F)),
    StableHlo.TRef.nullary main_call2.c (constantI S_ 32 0#32),
    StableHlo.TRef.unary main_call2.c main_call2.v0 (broadcastInDim S2000000 ![] bcast_S_S2000000),
    StableHlo.TRef.binary (.of main_arg11 : StableHlo.TRef sig ⟨S2000000, .i32⟩) main_call2.v0 main_call2.v1 (cmpi .slt),
    StableHlo.TRef.nullary main_call2.c_0 (constantI S_ 32 1000000#32),
    StableHlo.TRef.unary main_call2.c_0 main_call2.v2 (broadcastInDim S2000000 ![] bcast_S_S2000000),
    StableHlo.TRef.binary (.of main_arg11 : StableHlo.TRef sig ⟨S2000000, .i32⟩) main_call2.v2 main_call2.v3 addi,
    StableHlo.TRef.ternary main_call2.v1 main_call2.v3 (.of main_arg11 : StableHlo.TRef sig ⟨S2000000, .i32⟩) main_call2.call0.v0 select,
    StableHlo.TRef.unary main_call2.call0.v0 main_call2.v5 (broadcastInDim S2000000x1 ![0] bcast_S2000000_S2000000x1_0),
    StableHlo.TRef.nullary main_call2.c_1 (constantI S1 32 999999#32),
    StableHlo.TRef.nullary main_call2.c_2 (constantI S_ 32 0#32),
    StableHlo.TRef.unary main_call2.c_2 main_call2.v6 (broadcastInDim S2000000x1 ![] bcast_S_S2000000x1),
    StableHlo.TRef.binary main_call2.v5 main_call2.v6 main_call2.v7 (cmpi .sge),
    StableHlo.TRef.unary main_call2.c_1 main_call2.v8 (broadcastInDim S1x1 ![1] bcast_S1_S1x1_1),
    StableHlo.TRef.unary main_call2.v8 main_call2.v9 (broadcastInDim S2000000x1 ![0, 1] bcast_S1x1_S2000000x1_0_1),
    StableHlo.TRef.binary main_call2.v5 main_call2.v9 main_call2.v10 (cmpi .sle),
    StableHlo.TRef.binary main_call2.v7 main_call2.v10 main_call2.v11 andi,
    StableHlo.TRef.nullary main_call2.c_3 (constantI S_ 1 1#1),
    StableHlo.TRef.binary main_call2.v11 main_call2.c_3 main_call2.v12 (fun x v => Host.reduce IntOp.andi x v reducesTo_S2000000x1_S2000000_d1 h_S_),
    StableHlo.TRef.binary (.of main_v25 : StableHlo.TRef sig ⟨S1000000x8, .f32⟩) main_call2.v5 main_call2.v13 (fun x i => Host.gather gather_S1000000x8_S2000000x1_S2000000x8_1_0_n_n_0_1_18 x i),
    StableHlo.TRef.unary main_call2.v12 main_call2.v14 (broadcastInDim S2000000x8 ![0] bcast_S2000000_S2000000x8_0),
    StableHlo.TRef.nullary main_call2.cst (constant S_ .f32 0x7FC00000#32),
    StableHlo.TRef.unary main_call2.cst main_call2.v15 (broadcastInDim S2000000x8 ![] bcast_S_S2000000x8),
    StableHlo.TRef.ternary main_call2.v14 main_call2.v13 main_call2.v15 main_call2.v16 select ]

/-- The predicted intensity f² · scale, its residual against the observation in units of its standard deviation, the normal log-density of each sample, and its sum over the samples. -/
abbrev rD : List (HloOp τ sig (Elt F)) :=
  [ StableHlo.binary main_v26 main_v26 main_v27 (mulf : (⟨S2000000x8, .f32⟩ : BufTy).Contents (Elt F) → (⟨S2000000x8, .f32⟩ : BufTy).Contents (Elt F) → (⟨S2000000x8, .f32⟩ : BufTy).Contents (Elt F)),
    StableHlo.binary main_v27 main_v24 main_v28 (mulf : (⟨S2000000x8, .f32⟩ : BufTy).Contents (Elt F) → (⟨S2000000x8, .f32⟩ : BufTy).Contents (Elt F) → (⟨S2000000x8, .f32⟩ : BufTy).Contents (Elt F)),
    StableHlo.unary main_arg8 main_v29 (broadcastInDim S2000000x1 ![0] bcast_S2000000_S2000000x1_0 : (⟨S2000000, .f32⟩ : BufTy).Contents (Elt F) → (⟨S2000000x1, .f32⟩ : BufTy).Contents (Elt F)),
    StableHlo.unary main_v29 main_v30 (broadcastInDim S2000000x8 ![0, 1] bcast_S2000000x1_S2000000x8_0_1 : (⟨S2000000x1, .f32⟩ : BufTy).Contents (Elt F) → (⟨S2000000x8, .f32⟩ : BufTy).Contents (Elt F)),
    StableHlo.binary main_v28 main_v30 main_v31 (subf : (⟨S2000000x8, .f32⟩ : BufTy).Contents (Elt F) → (⟨S2000000x8, .f32⟩ : BufTy).Contents (Elt F) → (⟨S2000000x8, .f32⟩ : BufTy).Contents (Elt F)),
    StableHlo.unary main_arg9 main_v32 (broadcastInDim S2000000x1 ![0] bcast_S2000000_S2000000x1_0 : (⟨S2000000, .f32⟩ : BufTy).Contents (Elt F) → (⟨S2000000x1, .f32⟩ : BufTy).Contents (Elt F)),
    StableHlo.unary main_v32 main_v33 (broadcastInDim S2000000x8 ![0, 1] bcast_S2000000x1_S2000000x8_0_1 : (⟨S2000000x1, .f32⟩ : BufTy).Contents (Elt F) → (⟨S2000000x8, .f32⟩ : BufTy).Contents (Elt F)),
    StableHlo.binary main_v31 main_v33 main_v34 (Host.divf : (⟨S2000000x8, .f32⟩ : BufTy).Contents (Elt F) → (⟨S2000000x8, .f32⟩ : BufTy).Contents (Elt F) → (⟨S2000000x8, .f32⟩ : BufTy).Contents (Elt F)),
    StableHlo.nullary main_cst_1 (constant S_ .f32 0xBF000000#32),
    StableHlo.unary main_cst_1 main_v35 (broadcastInDim S2000000x8 ![] bcast_S_S2000000x8 : (⟨S_, .f32⟩ : BufTy).Contents (Elt F) → (⟨S2000000x8, .f32⟩ : BufTy).Contents (Elt F)),
    StableHlo.binary main_v35 main_v34 main_v36 (mulf : (⟨S2000000x8, .f32⟩ : BufTy).Contents (Elt F) → (⟨S2000000x8, .f32⟩ : BufTy).Contents (Elt F) → (⟨S2000000x8, .f32⟩ : BufTy).Contents (Elt F)),
    StableHlo.binary main_v36 main_v34 main_v37 (mulf : (⟨S2000000x8, .f32⟩ : BufTy).Contents (Elt F) → (⟨S2000000x8, .f32⟩ : BufTy).Contents (Elt F) → (⟨S2000000x8, .f32⟩ : BufTy).Contents (Elt F)),
    StableHlo.unary main_arg9 main_v38 (Host.log : (⟨S2000000, .f32⟩ : BufTy).Contents (Elt F) → (⟨S2000000, .f32⟩ : BufTy).Contents (Elt F)),
    StableHlo.unary main_v38 main_v39 (broadcastInDim S2000000x1 ![0] bcast_S2000000_S2000000x1_0 : (⟨S2000000, .f32⟩ : BufTy).Contents (Elt F) → (⟨S2000000x1, .f32⟩ : BufTy).Contents (Elt F)),
    StableHlo.unary main_v39 main_v40 (broadcastInDim S2000000x8 ![0, 1] bcast_S2000000x1_S2000000x8_0_1 : (⟨S2000000x1, .f32⟩ : BufTy).Contents (Elt F) → (⟨S2000000x8, .f32⟩ : BufTy).Contents (Elt F)),
    StableHlo.binary main_v37 main_v40 main_v41 (subf : (⟨S2000000x8, .f32⟩ : BufTy).Contents (Elt F) → (⟨S2000000x8, .f32⟩ : BufTy).Contents (Elt F) → (⟨S2000000x8, .f32⟩ : BufTy).Contents (Elt F)),
    StableHlo.nullary main_cst_2 (constant S_ .f32 0x3F6B3F8E#32),
    StableHlo.unary main_cst_2 main_v42 (broadcastInDim S2000000x8 ![] bcast_S_S2000000x8 : (⟨S_, .f32⟩ : BufTy).Contents (Elt F) → (⟨S2000000x8, .f32⟩ : BufTy).Contents (Elt F)),
    StableHlo.binary main_v41 main_v42 main_v43 (subf : (⟨S2000000x8, .f32⟩ : BufTy).Contents (Elt F) → (⟨S2000000x8, .f32⟩ : BufTy).Contents (Elt F) → (⟨S2000000x8, .f32⟩ : BufTy).Contents (Elt F)),
    StableHlo.nullary main_cst_3 (constant S_ .f32 0x00000000#32),
    StableHlo.binary main_v43 main_cst_3 main_v44 ((fun x v => Host.reduceAdd x v reducesTo_S2000000x8_S2000000_d1 h_S_) : (⟨S2000000x8, .f32⟩ : BufTy).Contents (Elt F) → (⟨S_, .f32⟩ : BufTy).Contents (Elt F) → (⟨S2000000, .f32⟩ : BufTy).Contents (Elt F)) ]

/-- The per-image totals of the log-density sums and of the counts (two scatter-adds over the image index). -/
abbrev rE : List (HloOp τ sig (Elt F)) :=
  [ StableHlo.nullary main_cst_4 (constant S_ .f32 0x00000000#32),
    StableHlo.unary main_cst_4 main_v45 (broadcastInDim S8192 ![] bcast_S_S8192 : (⟨S_, .f32⟩ : BufTy).Contents (Elt F) → (⟨S8192, .f32⟩ : BufTy).Contents (Elt F)),
    StableHlo.unary main_arg10 main_v46 (broadcastInDim S2000000x1 ![0] bcast_S2000000_S2000000x1_0 : (⟨S2000000, .i32⟩ : BufTy).Contents (Elt F) → (⟨S2000000x1, .i32⟩ : BufTy).Contents (Elt F)),
    StableHlo.ternary main_v45 main_v46 main_v44 main_v47 ((fun x i u => Host.scatterAdd scatter_S8192_S2000000x1_S2000000_n_0_0_1 x i u) : (⟨S8192, .f32⟩ : BufTy).Contents (Elt F) → (⟨S2000000x1, .i32⟩ : BufTy).Contents (Elt F) → (⟨S2000000, .f32⟩ : BufTy).Contents (Elt F) → (⟨S8192, .f32⟩ : BufTy).Contents (Elt F)),
    StableHlo.nullary main_cst_5 (constant S_ .f32 0x3F800000#32),
    StableHlo.unary main_cst_5 main_v48 (broadcastInDim S2000000 ![] bcast_S_S2000000 : (⟨S_, .f32⟩ : BufTy).Contents (Elt F) → (⟨S2000000, .f32⟩ : BufTy).Contents (Elt F)),
    StableHlo.nullary main_cst_6 (constant S_ .f32 0x00000000#32),
    StableHlo.unary main_cst_6 main_v49 (broadcastInDim S8192 ![] bcast_S_S8192 : (⟨S_, .f32⟩ : BufTy).Contents (Elt F) → (⟨S8192, .f32⟩ : BufTy).Contents (Elt F)),
    StableHlo.unary main_arg10 main_v50 (broadcastInDim S2000000x1 ![0] bcast_S2000000_S2000000x1_0 : (⟨S2000000, .i32⟩ : BufTy).Contents (Elt F) → (⟨S2000000x1, .i32⟩ : BufTy).Contents (Elt F)),
    StableHlo.ternary main_v49 main_v50 main_v48 main_v51 ((fun x i u => Host.scatterAdd scatter_S8192_S2000000x1_S2000000_n_0_0_1 x i u) : (⟨S8192, .f32⟩ : BufTy).Contents (Elt F) → (⟨S2000000x1, .i32⟩ : BufTy).Contents (Elt F) → (⟨S2000000, .f32⟩ : BufTy).Contents (Elt F) → (⟨S8192, .f32⟩ : BufTy).Contents (Elt F)) ]

/-- The per-image averages, their mean negated; the mean over the samples of the predicted intensity; the mean divergence. -/
abbrev rF : List (HloOp τ sig (Elt F)) :=
  [ StableHlo.nullary main_cst_7 (constant S_ .f32 0x3F800000#32),
    StableHlo.unary main_cst_7 main_v52 (broadcastInDim S8192 ![] bcast_S_S8192 : (⟨S_, .f32⟩ : BufTy).Contents (Elt F) → (⟨S8192, .f32⟩ : BufTy).Contents (Elt F)),
    StableHlo.binary main_v51 main_v52 main_v53 (maximumf : (⟨S8192, .f32⟩ : BufTy).Contents (Elt F) → (⟨S8192, .f32⟩ : BufTy).Contents (Elt F) → (⟨S8192, .f32⟩ : BufTy).Contents (Elt F)),
    StableHlo.binary main_v47 main_v53 main_v54 (Host.divf : (⟨S8192, .f32⟩ : BufTy).Contents (Elt F) → (⟨S8192, .f32⟩ : BufTy).Contents (Elt F) → (⟨S8192, .f32⟩ : BufTy).Contents (Elt F)),
    StableHlo.nullary main_cst_8 (constant S_ .f32 0x41000000#32),
    StableHlo.unary main_cst_8 main_v55 (broadcastInDim S8192 ![] bcast_S_S8192 : (⟨S_, .f32⟩ : BufTy).Contents (Elt F) → (⟨S8192, .f32⟩ : BufTy).Contents (Elt F)),
    StableHlo.binary main_v54 main_v55 main_v56 (Host.divf : (⟨S8192, .f32⟩ : BufTy).Contents (Elt F) → (⟨S8192, .f32⟩ : BufTy).Contents (Elt F) → (⟨S8192, .f32⟩ : BufTy).Contents (Elt F)),
    StableHlo.nullary main_cst_9 (constant S_ .f32 0x00000000#32),
    StableHlo.binary main_v28 main_cst_9 main_v57 ((fun x v => Host.reduceAdd x v reducesTo_S2000000x8_S2000000_d1 h_S_) : (⟨S2000000x8, .f32⟩ : BufTy).Contents (Elt F) → (⟨S_, .f32⟩ : BufTy).Contents (Elt F) → (⟨S2000000, .f32⟩ : BufTy).Contents (Elt F)),
    StableHlo.nullary main_cst_10 (constant S_ .f32 0x41000000#32),
    StableHlo.unary main_cst_10 main_v58 (broadcastInDim S2000000 ![] bcast_S_S2000000 : (⟨S_, .f32⟩ : BufTy).Contents (Elt F) → (⟨S2000000, .f32⟩ : BufTy).Contents (Elt F)),
    StableHlo.binary main_v57 main_v58 main_v59 (Host.divf : (⟨S2000000, .f32⟩ : BufTy).Contents (Elt F) → (⟨S2000000, .f32⟩ : BufTy).Contents (Elt F) → (⟨S2000000, .f32⟩ : BufTy).Contents (Elt F)),
    StableHlo.nullary main_cst_11 (constant S_ .f32 0x00000000#32),
    StableHlo.binary main_v56 main_cst_11 main_v60 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    StableHlo.nullary main_cst_12 (constant S_ .f32 0x46000000#32),
    StableHlo.binary main_v60 main_cst_12 main_v61 (Host.divf : (⟨S_, .f32⟩ : BufTy).Contents (Elt F) → (⟨S_, .f32⟩ : BufTy).Contents (Elt F) → (⟨S_, .f32⟩ : BufTy).Contents (Elt F)),
    StableHlo.unary main_v61 main_v62 (Host.negf : (⟨S_, .f32⟩ : BufTy).Contents (Elt F) → (⟨S_, .f32⟩ : BufTy).Contents (Elt F)),
    StableHlo.nullary main_cst_13 (constant S_ .f32 0x00000000#32),
    StableHlo.binary main_v14 main_cst_13 main_v63 ((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)),
    StableHlo.nullary main_cst_14 (constant S_ .f32 0x49742400#32),
    StableHlo.binary main_v63 main_cst_14 main_v64 (Host.divf : (⟨S_, .f32⟩ : BufTy).Contents (Elt F) → (⟨S_, .f32⟩ : BufTy).Contents (Elt F) → (⟨S_, .f32⟩ : BufTy).Contents (Elt F)) ]

/-- The whole line. -/
abbrev ops : List (HloOp τ sig (Elt F)) := rA ++ rB ++ rC ++ rD ++ rE ++ rF

/-- A property of every operation of two lines holds of every operation of the two run one after the other. -/
theorem forall_append {α : Type} {p : α → Prop} {l₁ l₂ : List α} (h₁ : l₁.Forall p) (h₂ : l₂.Forall p) :
    (l₁ ++ l₂).Forall p := by
  rw [List.forall_iff_forall_mem] at *
  intro x hx
  rcases List.mem_append.mp hx with h | h
  exacts [h₁ x h, h₂ x h]

theorem rA_sub : (rA : List (HloOp τ sig (Elt F))).Forall fun op => op.bufs ⊆ tcRefs τ sig :=
  ⟨unary_bufs_sub .., unary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub .., nullary_bufs_sub .., unary_bufs_sub .., binary_bufs_sub .., binary_bufs_sub ..⟩
theorem rA_fresh : (rA : List (HloOp τ sig (Elt F))).Forall fun op => op.fresh = ∅ := by
  simp only [List.Forall]; repeat' constructor
theorem rB_sub : (rB : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub ..⟩
theorem rB_fresh : (rB : List (HloOp τ sig (Elt F))).Forall fun op => op.fresh = ∅ := by
  simp only [List.Forall]; repeat' constructor
theorem rC_sub : (rC : List (HloOp τ sig (Elt F))).Forall fun op => op.bufs ⊆ tcRefs τ sig :=
  ⟨unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem rC_fresh : (rC : List (HloOp τ sig (Elt F))).Forall fun op => op.fresh = ∅ := by
  simp only [List.Forall]; repeat' constructor
theorem rD_sub : (rD : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., unary_bufs_sub .., binary_bufs_sub .., nullary_bufs_sub .., unary_bufs_sub .., binary_bufs_sub .., nullary_bufs_sub .., binary_bufs_sub ..⟩
theorem rD_fresh : (rD : List (HloOp τ sig (Elt F))).Forall fun op => op.fresh = ∅ := by
  simp only [List.Forall]; repeat' constructor
theorem rE_sub : (rE : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub ..⟩
theorem rE_fresh : (rE : List (HloOp τ sig (Elt F))).Forall fun op => op.fresh = ∅ := by
  simp only [List.Forall]; repeat' constructor
theorem rF_sub : (rF : List (HloOp τ sig (Elt F))).Forall fun op => op.bufs ⊆ tcRefs τ sig :=
  ⟨nullary_bufs_sub .., unary_bufs_sub .., binary_bufs_sub .., binary_bufs_sub .., nullary_bufs_sub .., unary_bufs_sub .., binary_bufs_sub .., nullary_bufs_sub .., binary_bufs_sub .., nullary_bufs_sub .., unary_bufs_sub .., binary_bufs_sub .., nullary_bufs_sub .., binary_bufs_sub .., nullary_bufs_sub .., binary_bufs_sub .., unary_bufs_sub .., nullary_bufs_sub .., binary_bufs_sub .., nullary_bufs_sub .., binary_bufs_sub ..⟩
theorem rF_fresh : (rF : List (HloOp τ sig (Elt F))).Forall fun op => op.fresh = ∅ := by
  simp only [List.Forall]; repeat' constructor

/-- Every operation of the line touches buffers of the core only. -/
theorem ops_sub : (ops : List (HloOp τ sig (Elt F))).Forall fun op => op.bufs ⊆ tcRefs τ sig :=
  forall_append (forall_append (forall_append (forall_append (forall_append rA_sub rB_sub) rC_sub) rD_sub) rE_sub) rF_sub

/-- No operation of the line allocates a buffer. -/
theorem ops_fresh : (ops : List (HloOp τ sig (Elt F))).Forall fun op => op.fresh = ∅ :=
  forall_append (forall_append (forall_append (forall_append (forall_append rA_fresh rB_fresh) rC_fresh) rD_fresh) rE_fresh) rF_fresh

set_option maxRecDepth 4096 in
set_option maxHeartbeats 4000000 in
/-- The entry point is that line: the called functions unfolded at their calls, both sides are one chain of steps once
    sequencing is re-associated. -/
theorem main_eq (c : Dev nD) : main (F := F) c = seq ops := by
  simp only [main, main_part0, main_part1, fn_relu.body, fn_softplus.body, fn_take.body, fn_where.body,
    ops, rA, rB, rC, rD, rE, rF, List.cons_append, List.nil_append, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of the entry point terminates, nothing faulting, and
    every final state has each buffer of the core at the line's fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.forall_iff_forall_mem.mp ops_fresh) op h)

end Cert.ReferenceIdeal.Line

end
-- ==== Proof.LibTypedRef.lean ====
/-
  A typed reference's transports cancel.

  A typed reference pairs a buffer with a proof that the buffer's declared type is a given one; a host operation built
  over typed references carries its operands from the buffers' types to the given types and its result back, along
  those equations.  Carrying a value to the buffer's type and back again is the identity, whatever proof of the equation
  the reference holds — so a chain of such operations, each reading what the one before wrote, composes to the plain
  composition of their functions.
-/
import Idealize.ShloMosaic.Lib.StableHlo

namespace Idealize.ShloMosaic.StableHlo.TRef

variable {sig : RefSig} {Val : EltTy → Type} {T : BufTy}

/-- To the buffer's type and back. -/
theorem ofBuf_toBuf (x : TRef sig T) (v : T.Contents Val) : x.ofBuf (x.toBuf v) = v := by
  obtain ⟨r, rfl, _, _⟩ := x
  rfl

/-- From the buffer's type and back. -/
theorem toBuf_ofBuf (x : TRef sig T) (v : x.ref.ty.Contents Val) : x.toBuf (x.ofBuf v) = v := by
  obtain ⟨r, rfl, _, _⟩ := x
  rfl

end Idealize.ShloMosaic.StableHlo.TRef
-- ==== Proof.LibHostRows.lean ====
/-
  Host-side (array program) layouts and reductions of a matrix, read at an index given by coordinates, for any extents.

  A broadcast_in_dim reads its operand at the result's coordinates on the axes it names, and at 0 on the operand's axes
  of extent one. So a vector [n] placed as the row of a [1, n] matrix reads entry c at (u, c), and that row repeated
  down [a, n] reads (0, c) at (p, c); a vector [a] placed as the column of an [a, 1] matrix reads entry p at (p, u), and
  that column repeated across [a, b] reads (p, 0) at (p, c). A reduction of an [R, C] matrix along its second axis at row
  p runs over the entries (p, k), k < C — row p with the coordinate k inserted on the dropped axis is (p, k) —: with a
  maximum body it is the running maximum from the initial value, with an add body, over the extended reals, the initial
  value plus the sum.
-/
import Idealize.ShloMosaic.PureOps.Ideal.Laws
import Idealize.ShloMosaic.Lib.Pipeline.Value
import Idealize.ShloMosaic.Lib.ValueIdx
import Idealize.ShloMosaic.Lib.IdealHost

noncomputable section

open scoped BigOperators

namespace Cert.HostRows

open Idealize.ShloMosaic Idealize.ShloMosaic.ValueIdx

variable {α : Type}

/-- A vector [n] as the row of a [1, n] matrix reads, at (u, c), its entry c. -/
theorem rowOfVec_apply {n : ℕ} (v : (⟨1, ![n]⟩ : Shape).Idx → α)
    (h : (⟨1, ![n]⟩ : Shape).BroadcastsInDim ⟨2, ![1, n]⟩ ![1]) (u : Fin 1) (c : Fin n) :
    broadcastInDim ⟨2, ![1, n]⟩ ![1] h v (ix2 u c) = v (ix1 c) :=
  broadcastInDim_apply _ h v (ix2 u c) (ix1 c) (fun ax => match ax with
    | ⟨0, _⟩ => by
      show c.val = if n = 1 then 0 else c.val
      split
      · have := c.isLt; omega
      · rfl)

/-- A row [1, n] repeated down an [a, n] matrix reads, at (p, c), the row's entry c. -/
theorem rowDown_apply {a n : ℕ} (w : (⟨2, ![1, n]⟩ : Shape).Idx → α)
    (h : (⟨2, ![1, n]⟩ : Shape).BroadcastsInDim ⟨2, ![a, n]⟩ ![0, 1]) (p : Fin a) (c : Fin n) :
    broadcastInDim ⟨2, ![a, n]⟩ ![0, 1] h w (ix2 p c) = w (ix2 (0 : Fin 1) c) :=
  broadcastInDim_apply _ h w (ix2 p c) (ix2 (0 : Fin 1) c) (fun ax => match ax with
    | ⟨0, _⟩ => by
      show (0 : ℕ) = if (1 : ℕ) = 1 then 0 else p.val
      rw [if_pos rfl]
    | ⟨1, _⟩ => by
      show c.val = if n = 1 then 0 else c.val
      split
      · have := c.isLt; omega
      · rfl)

/-- A vector [a] as the column of an [a, 1] matrix reads, at (p, u), its entry p. -/
theorem colOfVec_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) :=
  broadcastInDim_apply _ h v (ix2 p u) (ix1 p) (fun ax => match ax with
    | ⟨0, _⟩ => by
      show p.val = if a = 1 then 0 else p.val
      split
      · have := p.isLt; omega
      · rfl)

/-- A column [a, 1] repeated across an [a, b] matrix reads, at (p, c), the column's entry p. -/
theorem colAcross_apply {a b : ℕ} (w : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h w (ix2 p c) = w (ix2 p (0 : Fin 1)) :=
  broadcastInDim_apply _ h w (ix2 p c) (ix2 p (0 : Fin 1)) (fun ax => match ax with
    | ⟨0, _⟩ => by
      show p.val = if a = 1 then 0 else p.val
      split
      · have := p.isLt; omega
      · rfl
    | ⟨1, _⟩ => by
      show (0 : ℕ) = if (1 : ℕ) = 1 then 0 else c.val
      rw [if_pos rfl])

/-- Row p with the column k inserted on the dropped second axis is the index (p, k). -/
theorem lift_row {R C : ℕ} (h : (⟨2, ![R, C]⟩ : Shape).Reduces [1] ⟨1, ![R]⟩) (p : Fin R) (k : Fin C) :
    h.lift (ix1 p) k = ix2 p k := by
  funext c
  apply Fin.ext
  match c with
  | ⟨0, _⟩ => rfl
  | ⟨1, _⟩ => rfl

/-- The host's maximum along the second axis of a matrix, at row p: the running maximum, from the initial value, over
    the entries of that row. -/
theorem hostMax_row {R C : ℕ} (x : (⟨2, ![R, C]⟩ : Shape).Idx → EReal) (init : (⟨0, ![]⟩ : Shape).Idx → EReal)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (p : Fin R) :
    Host.reduce (FloatOps.maximumf (F := Ideal) (φ := .f32)) x init h' hu (ix1 p)
      = (Finset.univ : Finset (Fin C)).fold max (init (Shape.Idx.first hu)) (fun k => x (ix2 p k)) := by
  refine (Host.reduce_eq_fold_single (FloatOps.maximumf (F := Ideal) (φ := .f32)) x init h' h hu (ix1 p)).trans ?_
  exact congrArg (Finset.fold max (init (Shape.Idx.first hu)) · (Finset.univ : Finset (Fin C)))
    (funext fun k => congrArg x (lift_row h p k))

/-- The host's sum along the second axis of a matrix over the extended reals, at row p: the initial value plus the sum
    of the entries of that row. -/
theorem hostSum_row {R C : ℕ} (x : FVec Ideal ⟨2, ![R, C]⟩ .f32) (init : (⟨0, ![]⟩ : Shape).Idx → Ideal .f32)
    (h' : (⟨2, ![R, C]⟩ : Shape).ReducesTo [1] ⟨1, ![R]⟩) (h : (⟨2, ![R, C]⟩ : Shape).Reduces [1] ⟨1, ![R]⟩)
    (hu : 0 < (⟨0, ![]⟩ : Shape).numel) (p : Fin R) :
    Host.reduceAdd (F := Ideal) x init h' hu (ix1 p) = init (Shape.Idx.first hu) + ∑ k : Fin C, x (ix2 p k) := by
  rw [hostReduceAdd_apply, Ideal.hostReduceAdd_single h' h]
  exact congrArg (init (Shape.Idx.first hu) + ·) (Finset.sum_congr rfl fun k _ => congrArg x (lift_row h p k))

end Cert.HostRows

end
-- ==== Proof.RefStages.lean ====
/-
  The reference line read piece by piece.

  Three whole-array functions are named because both programs apply them to arrays that will be shown equal: the row
  lookup (normalise a negative index by adding the table length, test the range, gather the rows, fill the rows out of
  range), the per-image tail (scatter-add the log-density sums and the counts by image, divide by the count floored at
  one and by eight, average over the images, negate) and the overall mean. The other pieces are read at an entry: what a
  piece leaves at an entry of a buffer it writes, as a function of entries of buffers written before it.
-/
import proofs.«104806_j40261023433129_2_alg».proof.Proof.RefLine
import proofs.«104806_j40261023433129_2_alg».proof.Proof.LibTypedRef
import proofs.«104806_j40261023433129_2_alg».proof.Proof.LibHostRows
import proofs.«104806_j40261023433129_2_alg».proof.Proof.LibPlainDot
import proofs.«104806_j40261023433129_2_alg».proof.Proof.Spec
import Idealize.ShloMosaic.Lib.ValueLayout
import Idealize.ShloMosaic.Lib.IdealHost

noncomputable section

open scoped BigOperators

namespace Cert.ReferenceIdeal.Line

open Cert.ReferenceIdeal Cert.ReferenceIdeal.Gen Idealize.ShloMosaic Idealize.ShloMosaic.TcCoe Idealize.SL.Sem
open Idealize.ShloMosaic.StableHlo Idealize.ShloMosaic.ValueIdx

/-- The contents of one buffer after literal lines of operations, the lines named so that they can be opened. -/
syntax "read_ops" "[" ident,* "]" : tactic
macro_rules
  | `(tactic| read_ops [$ids,*]) =>
    `(tactic| simp (disch := decide) only [$[$ids:ident],*, after_cons, after_nil,
      nullary_result', unary_result', binary_result', ternary_result', quaternary_result', reshape_result',
      nullary_result_ne', unary_result_ne', binary_result_ne', ternary_result_ne', quaternary_result_ne', reshape_result_ne',
      TRef.ofBuf_toBuf])

section AnyValues
variable {F : FTy → Type} [FloatOps F]

/-- The rows of a table picked out by an index array: a negative index counts from the end, an index still out of range
    reads the fill value. -/
def gatherRows (zT : (⟨S1000000x8, .f32⟩ : BufTy).Contents (Elt F)) (idx : (⟨S2000000, .i32⟩ : BufTy).Contents (Elt F)) : (⟨S2000000x8, .f32⟩ : BufTy).Contents (Elt F) :=
  (select ((broadcastInDim S2000000x8 ![0] bcast_S2000000_S2000000x8_0) ((fun x v => Host.reduce IntOp.andi x v reducesTo_S2000000x1_S2000000_d1 h_S_) (andi ((cmpi .sge) ((broadcastInDim S2000000x1 ![0] bcast_S2000000_S2000000x1_0) (select ((cmpi .slt) idx ((broadcastInDim S2000000 ![] bcast_S_S2000000) (constantI S_ 32 0#32))) (addi idx ((broadcastInDim S2000000 ![] bcast_S_S2000000) (constantI S_ 32 1000000#32))) idx)) ((broadcastInDim S2000000x1 ![] bcast_S_S2000000x1) (constantI S_ 32 0#32))) ((cmpi .sle) ((broadcastInDim S2000000x1 ![0] bcast_S2000000_S2000000x1_0) (select ((cmpi .slt) idx ((broadcastInDim S2000000 ![] bcast_S_S2000000) (constantI S_ 32 0#32))) (addi idx ((broadcastInDim S2000000 ![] bcast_S_S2000000) (constantI S_ 32 1000000#32))) idx)) ((broadcastInDim S2000000x1 ![0, 1] bcast_S1x1_S2000000x1_0_1) ((broadcastInDim S1x1 ![1] bcast_S1_S1x1_1) (constantI S1 32 999999#32))))) (constantI S_ 1 1#1))) ((fun x i => Host.gather gather_S1000000x8_S2000000x1_S2000000x8_1_0_n_n_0_1_18 x i) zT ((broadcastInDim S2000000x1 ![0] bcast_S2000000_S2000000x1_0) (select ((cmpi .slt) idx ((broadcastInDim S2000000 ![] bcast_S_S2000000) (constantI S_ 32 0#32))) (addi idx ((broadcastInDim S2000000 ![] bcast_S_S2000000) (constantI S_ 32 1000000#32))) idx))) ((broadcastInDim S2000000x8 ![] bcast_S_S2000000x8) (constant S_ .f32 0x7FC00000#32)))

/-- The per-image average of the log-density sums, averaged over the images and negated. -/
def imageTail (ll : (⟨S2000000, .f32⟩ : BufTy).Contents (Elt F)) (img : (⟨S2000000, .i32⟩ : BufTy).Contents (Elt F)) : (⟨S_, .f32⟩ : BufTy).Contents (Elt F) :=
  ((Host.negf : (⟨S_, .f32⟩ : BufTy).Contents (Elt F) → (⟨S_, .f32⟩ : BufTy).Contents (Elt F)) ((Host.divf : (⟨S_, .f32⟩ : BufTy).Contents (Elt F) → (⟨S_, .f32⟩ : BufTy).Contents (Elt F) → (⟨S_, .f32⟩ : BufTy).Contents (Elt F)) (((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)) ((Host.divf : (⟨S8192, .f32⟩ : BufTy).Contents (Elt F) → (⟨S8192, .f32⟩ : BufTy).Contents (Elt F) → (⟨S8192, .f32⟩ : BufTy).Contents (Elt F)) ((Host.divf : (⟨S8192, .f32⟩ : BufTy).Contents (Elt F) → (⟨S8192, .f32⟩ : BufTy).Contents (Elt F) → (⟨S8192, .f32⟩ : BufTy).Contents (Elt F)) (((fun x i u => Host.scatterAdd scatter_S8192_S2000000x1_S2000000_n_0_0_1 x i u) : (⟨S8192, .f32⟩ : BufTy).Contents (Elt F) → (⟨S2000000x1, .i32⟩ : BufTy).Contents (Elt F) → (⟨S2000000, .f32⟩ : BufTy).Contents (Elt F) → (⟨S8192, .f32⟩ : BufTy).Contents (Elt F)) ((broadcastInDim S8192 ![] bcast_S_S8192 : (⟨S_, .f32⟩ : BufTy).Contents (Elt F) → (⟨S8192, .f32⟩ : BufTy).Contents (Elt F)) (constant S_ .f32 0x00000000#32)) ((broadcastInDim S2000000x1 ![0] bcast_S2000000_S2000000x1_0 : (⟨S2000000, .i32⟩ : BufTy).Contents (Elt F) → (⟨S2000000x1, .i32⟩ : BufTy).Contents (Elt F)) img) ll) ((maximumf : (⟨S8192, .f32⟩ : BufTy).Contents (Elt F) → (⟨S8192, .f32⟩ : BufTy).Contents (Elt F) → (⟨S8192, .f32⟩ : BufTy).Contents (Elt F)) (((fun x i u => Host.scatterAdd scatter_S8192_S2000000x1_S2000000_n_0_0_1 x i u) : (⟨S8192, .f32⟩ : BufTy).Contents (Elt F) → (⟨S2000000x1, .i32⟩ : BufTy).Contents (Elt F) → (⟨S2000000, .f32⟩ : BufTy).Contents (Elt F) → (⟨S8192, .f32⟩ : BufTy).Contents (Elt F)) ((broadcastInDim S8192 ![] bcast_S_S8192 : (⟨S_, .f32⟩ : BufTy).Contents (Elt F) → (⟨S8192, .f32⟩ : BufTy).Contents (Elt F)) (constant S_ .f32 0x00000000#32)) ((broadcastInDim S2000000x1 ![0] bcast_S2000000_S2000000x1_0 : (⟨S2000000, .i32⟩ : BufTy).Contents (Elt F) → (⟨S2000000x1, .i32⟩ : BufTy).Contents (Elt F)) img) ((broadcastInDim S2000000 ![] bcast_S_S2000000 : (⟨S_, .f32⟩ : BufTy).Contents (Elt F) → (⟨S2000000, .f32⟩ : BufTy).Contents (Elt F)) (constant S_ .f32 0x3F800000#32))) ((broadcastInDim S8192 ![] bcast_S_S8192 : (⟨S_, .f32⟩ : BufTy).Contents (Elt F) → (⟨S8192, .f32⟩ : BufTy).Contents (Elt F)) (constant S_ .f32 0x3F800000#32)))) ((broadcastInDim S8192 ![] bcast_S_S8192 : (⟨S_, .f32⟩ : BufTy).Contents (Elt F) → (⟨S8192, .f32⟩ : BufTy).Contents (Elt F)) (constant S_ .f32 0x41000000#32))) (constant S_ .f32 0x00000000#32)) (constant S_ .f32 0x46000000#32)))

/-- The mean of a million entries. -/
def meanAll (x : (⟨S1000000, .f32⟩ : BufTy).Contents (Elt F)) : (⟨S_, .f32⟩ : BufTy).Contents (Elt F) :=
  ((Host.divf : (⟨S_, .f32⟩ : BufTy).Contents (Elt F) → (⟨S_, .f32⟩ : BufTy).Contents (Elt F) → (⟨S_, .f32⟩ : BufTy).Contents (Elt F)) (((fun x v => Host.reduceAdd x v reducesTo_S1000000_S_d0 h_S_) : (⟨S1000000, .f32⟩ : BufTy).Contents (Elt F) → (⟨S_, .f32⟩ : BufTy).Contents (Elt F) → (⟨S_, .f32⟩ : BufTy).Contents (Elt F)) x (constant S_ .f32 0x00000000#32)) (constant S_ .f32 0x49742400#32))

/-- The table transposed: one row of eight samples per entry. -/
def sampleRows (z : (⟨S8x1000000, .f32⟩ : BufTy).Contents (Elt F)) : (⟨S1000000x8, .f32⟩ : BufTy).Contents (Elt F) :=
  transpose S1000000x8 [1, 0] z transposes_S8x1000000_S1000000x8_1_0

/-- The network's output before the softplus: (positive part of metadata · W1 + b1) · W2 + b2. -/
def preScale (a3 : (⟨S2000000x16, .f32⟩ : BufTy).Contents (Elt F)) (a4 : (⟨S16x32, .f32⟩ : BufTy).Contents (Elt F)) (a5 : (⟨S32, .f32⟩ : BufTy).Contents (Elt F))
    (a6 : (⟨S32x8, .f32⟩ : BufTy).Contents (Elt F)) (a7 : (⟨S8, .f32⟩ : BufTy).Contents (Elt F)) : (⟨S2000000x8, .f32⟩ : BufTy).Contents (Elt F) :=
  ((addf : (⟨S2000000x8, .f32⟩ : BufTy).Contents (Elt F) → (⟨S2000000x8, .f32⟩ : BufTy).Contents (Elt F) → (⟨S2000000x8, .f32⟩ : BufTy).Contents (Elt F)) (((fun l r => Host.dotGeneral dot_S2000000x32_S32x8_S2000000x8_1_0_0_1_n_n none l r) : (⟨S2000000x32, .f32⟩ : BufTy).Contents (Elt F) → (⟨S32x8, .f32⟩ : BufTy).Contents (Elt F) → (⟨S2000000x8, .f32⟩ : BufTy).Contents (Elt F)) (maximumf ((addf : (⟨S2000000x32, .f32⟩ : BufTy).Contents (Elt F) → (⟨S2000000x32, .f32⟩ : BufTy).Contents (Elt F) → (⟨S2000000x32, .f32⟩ : BufTy).Contents (Elt F)) (((fun l r => Host.dotGeneral dot_S2000000x16_S16x32_S2000000x32_1_0_0_1_n_n none l r) : (⟨S2000000x16, .f32⟩ : BufTy).Contents (Elt F) → (⟨S16x32, .f32⟩ : BufTy).Contents (Elt F) → (⟨S2000000x32, .f32⟩ : BufTy).Contents (Elt F)) a3 a4) ((broadcastInDim S2000000x32 ![0, 1] bcast_S1x32_S2000000x32_0_1 : (⟨S1x32, .f32⟩ : BufTy).Contents (Elt F) → (⟨S2000000x32, .f32⟩ : BufTy).Contents (Elt F)) ((broadcastInDim S1x32 ![1] bcast_S32_S1x32_1 : (⟨S32, .f32⟩ : BufTy).Contents (Elt F) → (⟨S1x32, .f32⟩ : BufTy).Contents (Elt F)) a5))) ((broadcastInDim S2000000x32 ![] bcast_S_S2000000x32) (constant S_ .f32 0x00000000#32))) a6) ((broadcastInDim S2000000x8 ![0, 1] bcast_S1x8_S2000000x8_0_1 : (⟨S1x8, .f32⟩ : BufTy).Contents (Elt F) → (⟨S2000000x8, .f32⟩ : BufTy).Contents (Elt F)) ((broadcastInDim S1x8 ![1] bcast_S8_S1x8_1 : (⟨S8, .f32⟩ : BufTy).Contents (Elt F) → (⟨S1x8, .f32⟩ : BufTy).Contents (Elt F)) a7)))

/-- The softplus as the array program spells it. -/
def softplusOf (x : (⟨S2000000x8, .f32⟩ : BufTy).Contents (Elt F)) : (⟨S2000000x8, .f32⟩ : BufTy).Contents (Elt F) :=
  (select ((cmpf .une) (subf x ((broadcastInDim S2000000x8 ![] bcast_S_S2000000x8) (constant S_ .f32 0x00000000#32))) (subf x ((broadcastInDim S2000000x8 ![] bcast_S_S2000000x8) (constant S_ .f32 0x00000000#32)))) (addf x ((broadcastInDim S2000000x8 ![] bcast_S_S2000000x8) (constant S_ .f32 0x00000000#32))) (addf (maximumf x ((broadcastInDim S2000000x8 ![] bcast_S_S2000000x8) (constant S_ .f32 0x00000000#32))) (Host.log1p (Host.exp (Host.negf (Host.absf (subf x ((broadcastInDim S2000000x8 ![] bcast_S_S2000000x8) (constant S_ .f32 0x00000000#32)))))))))

variable (W : Valuation τ sig (Elt F))

theorem scales_read : after rB W (Proc.devRef .tc main_v24)
    = softplusOf (preScale (W (Proc.devRef .tc main_arg3)) (W (Proc.devRef .tc main_arg4)) (W (Proc.devRef .tc main_arg5))
        (W (Proc.devRef .tc main_arg6)) (W (Proc.devRef .tc main_arg7))) := by
  unfold softplusOf preScale
  read_ops [rB]
  rfl

attribute [local irreducible] Host.reduce Host.gather in
theorem rows_read : after rC W (Proc.devRef .tc main_v26)
    = gatherRows (sampleRows (W (Proc.devRef .tc main_v6))) (W (Proc.devRef .tc main_arg11)) := by
  unfold gatherRows sampleRows
  read_ops [rC]
  rfl

theorem tail_read : after rF (after rE W) (Proc.devRef .tc main_v62)
    = imageTail (W (Proc.devRef .tc main_v44)) (W (Proc.devRef .tc main_arg10)) := by
  read_ops [rE, rF]
  rfl

theorem mean_read : after rF W (Proc.devRef .tc main_v64) = meanAll (W (Proc.devRef .tc main_v14)) := by
  read_ops [rF]
  rfl

end AnyValues

section AtIdeal

section Pointwise
variable {s : Shape} {φ : FTy}
theorem hexp_at (a : FVec Ideal s φ) (i : s.Idx) : Host.exp a i = Ideal.exp (a i) := rfl
theorem hlog_at (a : FVec Ideal s φ) (i : s.Idx) : Host.log a i = Ideal.log (a i) := rfl
theorem hlog1p_at (a : FVec Ideal s φ) (i : s.Idx) : Host.log1p a i = Ideal.log1p (a i) := rfl
theorem habsf_at (a : FVec Ideal s φ) (i : s.Idx) : Host.absf a i = max (a i) (-(a i)) := rfl
theorem hnegf_at (a : FVec Ideal s φ) (i : s.Idx) : Host.negf a i = -(a i) := rfl
theorem cmpf_at (p : CmpFPredicate) (a b : FVec Ideal s φ) (i : s.Idx) : cmpf p a b i = Ideal.cmp p (a i) (b i) := rfl
end Pointwise

/-- The first product at entry (r, j): the sum over the sixteen metadata values. -/
theorem product1 (l : FVec Ideal S2000000x16 .f32) (w : FVec Ideal S16x32 .f32) (r : Fin 2000000) (j : Fin 32) :
    Host.dotGeneral dot_S2000000x16_S16x32_S2000000x32_1_0_0_1_n_n none l w (ix2 r j)
      = ∑ i : Fin 16, l (ix2 r i) * w (ix2 i j) :=
  PlainDot.dotGeneral_apply dot_S2000000x16_S16x32_S2000000x32_1_0_0_1_n_n none _ rfl rfl
    (fun _ _ => rfl) (fun _ _ => rfl) (fun _ _ => rfl) (fun _ _ => rfl) l w r j

/-- The second product at entry (r, k): the sum over the thirty-two hidden units. -/
theorem product2 (l : FVec Ideal S2000000x32 .f32) (w : FVec Ideal S32x8 .f32) (r : Fin 2000000) (k : Fin 8) :
    Host.dotGeneral dot_S2000000x32_S32x8_S2000000x8_1_0_0_1_n_n none l w (ix2 r k)
      = ∑ j : Fin 32, l (ix2 r j) * w (ix2 j k) :=
  PlainDot.dotGeneral_apply dot_S2000000x32_S32x8_S2000000x8_1_0_0_1_n_n none _ rfl rfl
    (fun _ _ => rfl) (fun _ _ => rfl) (fun _ _ => rfl) (fun _ _ => rfl) l w r k

/-- A scalar constant broadcast to any shape reads the constant everywhere. -/
theorem splat {T : Shape} (h : S_.BroadcastsInDim T ![]) (w : BitVec 32) (j : T.Idx) :
    broadcastInDim T ![] h (constant (F := Ideal) S_ .f32 w) j = Ideal.ofBits .f32 w :=
  broadcastInDim_scalar_apply h _ j

/-- A vector over the table laid as a row and repeated down the eight samples reads its entry q at (p, q). -/
theorem row8 (v : FVec Ideal S1000000 .f32) (p : Fin 8) (q : Fin 1000000) :
    broadcastInDim S8x1000000 ![0, 1] bcast_S1x1000000_S8x1000000_0_1
      (broadcastInDim S1x1000000 ![1] bcast_S1000000_S1x1000000_1 v) (ix2 p q) = v (ix1 q) :=
  (HostRows.rowDown_apply _ _ p q).trans (HostRows.rowOfVec_apply _ _ 0 q)

/-- The first bias laid as a row and repeated down the reflections reads its entry j at (r, j). -/
theorem bias1 (v : FVec Ideal S32 .f32) (r : Fin 2000000) (j : Fin 32) :
    broadcastInDim S2000000x32 ![0, 1] bcast_S1x32_S2000000x32_0_1
      (broadcastInDim S1x32 ![1] bcast_S32_S1x32_1 v) (ix2 r j) = v (ix1 j) :=
  (HostRows.rowDown_apply _ _ r j).trans (HostRows.rowOfVec_apply _ _ 0 j)

/-- The second bias likewise. -/
theorem bias2 (v : FVec Ideal S8 .f32) (r : Fin 2000000) (k : Fin 8) :
    broadcastInDim S2000000x8 ![0, 1] bcast_S1x8_S2000000x8_0_1
      (broadcastInDim S1x8 ![1] bcast_S8_S1x8_1 v) (ix2 r k) = v (ix1 k) :=
  (HostRows.rowDown_apply _ _ r k).trans (HostRows.rowOfVec_apply _ _ 0 k)

/-- A vector over the reflections laid as a column and repeated across the eight samples reads its entry r at (r, k). -/
theorem col8 (v : FVec Ideal S2000000 .f32) (r : Fin 2000000) (k : Fin 8) :
    broadcastInDim S2000000x8 ![0, 1] bcast_S2000000x1_S2000000x8_0_1
      (broadcastInDim S2000000x1 ![0] bcast_S2000000_S2000000x1_0 v) (ix2 r k) = v (ix1 r) :=
  (HostRows.colAcross_apply _ _ r k).trans (HostRows.colOfVec_apply _ _ r 0)

/-- The host's sum along the sample axis from zero, at reflection r: the sum of the eight entries of row r. -/
theorem sum8 (x : FVec Ideal S2000000x8 .f32) (r : Fin 2000000) :
    Host.reduceAdd (F := Ideal) x (constant S_ .f32 0x00000000#32) reducesTo_S2000000x8_S2000000_d1 h_S_ (ix1 r)
      = ∑ k : Fin 8, x (ix2 r k) := by
  rw [HostRows.hostSum_row _ _ _ (by decide), constant_apply, Ideal.ofBits_zero_f32, zero_add]

/-- Entry (r, k) of the network's output before the softplus. -/
theorem preScale_entry (a3 : FVec Ideal S2000000x16 .f32) (a4 : FVec Ideal S16x32 .f32) (a5 : FVec Ideal S32 .f32)
    (a6 : FVec Ideal S32x8 .f32) (a7 : FVec Ideal S8 .f32) (r : Fin 2000000) (k : Fin 8) :
    preScale (F := Ideal) a3 a4 a5 a6 a7 (ix2 r k)
      = (∑ j : Fin 32, Spec.hidden (fun i => a3 (ix2 r i)) a4 a5 j * a6 (ix2 j k)) + a7 (ix1 k) := by
  unfold preScale
  beta_reduce
  rw [addf_apply, product2, bias2]
  refine congrArg (· + a7 (ix1 k)) (Finset.sum_congr rfl fun j _ => ?_)
  beta_reduce
  rw [maximumf_apply, addf_apply, product1, bias1, splat, Ideal.ofBits_zero_f32]
  rfl

/-- Entry (r, k) of the scales. -/
theorem scale_entry (a3 : FVec Ideal S2000000x16 .f32) (a4 : FVec Ideal S16x32 .f32) (a5 : FVec Ideal S32 .f32)
    (a6 : FVec Ideal S32x8 .f32) (a7 : FVec Ideal S8 .f32) (r : Fin 2000000) (k : Fin 8) :
    softplusOf (F := Ideal) (preScale a3 a4 a5 a6 a7) (ix2 r k) = Spec.scale (fun i => a3 (ix2 r i)) a4 a5 a6 a7 k := by
  unfold softplusOf
  simp only [select_apply, cmpf_at, subf_apply, addf_apply, maximumf_apply, hlog1p_at, hexp_at, hnegf_at, habsf_at]
  rw [splat, Ideal.ofBits_zero_f32, preScale_entry]
  exact Spec.softplus_une _

variable (W : Valuation τ sig (Elt Ideal))

/-- Entry (p, q) of the samples. -/
theorem sample_read (p : Fin 8) (q : Fin 1000000) :
    after rA W (Proc.devRef .tc main_v6) (ix2 p q)
      = Spec.sample (W (Proc.devRef .tc main_arg0) (ix1 q)) (W (Proc.devRef .tc main_arg1) (ix1 q)) (W (Proc.devRef .tc main_arg2) (ix2 p q)) := by
  read_ops [rA]
  rw [addf_apply, mulf_apply, row8, row8]
  rfl

/-- Entry q of the divergence terms. -/
theorem divergence_read (q : Fin 1000000) :
    after rA W (Proc.devRef .tc main_v14) (ix1 q)
      = Spec.divergence (W (Proc.devRef .tc main_arg0) (ix1 q)) (W (Proc.devRef .tc main_arg1) (ix1 q)) := by
  read_ops [rA]
  simp only [addf_apply, mulf_apply, subf_apply, hexp_at]
  rw [splat, splat]
  rfl

/-- Entry (r, k) of the predicted intensities. -/
theorem intensity_read (r : Fin 2000000) (k : Fin 8) :
    after rD W (Proc.devRef .tc main_v28) (ix2 r k)
      = Spec.intensity (W (Proc.devRef .tc main_v26) (ix2 r k)) (W (Proc.devRef .tc main_v24) (ix2 r k)) := by
  read_ops [rD]
  rfl

/-- Entry r of the log-density sums. -/
theorem logDensity_read (r : Fin 2000000) :
    after rD W (Proc.devRef .tc main_v44) (ix1 r)
      = Spec.logDensitySum (fun k => W (Proc.devRef .tc main_v26) (ix2 r k)) (fun k => W (Proc.devRef .tc main_v24) (ix2 r k))
          (W (Proc.devRef .tc main_arg8) (ix1 r)) (W (Proc.devRef .tc main_arg9) (ix1 r)) := by
  read_ops [rD]
  refine (sum8 _ r).trans (Finset.sum_congr rfl fun k _ => ?_)
  simp only [subf_apply, mulf_apply, hostDivf_apply, hlog_at]
  rw [splat, splat, col8, col8, col8]
  rfl

/-- Entry r of the mean predicted intensities. -/
theorem meanIntensity_read (r : Fin 2000000) :
    after rF W (Proc.devRef .tc main_v59) (ix1 r)
      = Ideal.div (∑ k : Fin 8, W (Proc.devRef .tc main_v28) (ix2 r k)) (Ideal.ofBits .f32 0x41000000#32) := by
  read_ops [rF]
  refine (hostDivf_apply _ _ (ix1 r)).trans ?_
  rw [sum8, splat]

/-! ## The three results as functions of the launch contents -/

variable (V : Valuation τ sig (Elt Ideal))

/-- The line is its six pieces run one after the other. -/
theorem ops_split : after ops V = after rF (after rE (after rD (after rC (after rB (after rA V))))) := by
  simp only [ops, StableHlo.after_append]

/-- The samples, from the launch contents. -/
def samplesR : (⟨S8x1000000, .f32⟩ : BufTy).Contents (Elt Ideal) := after rA V (Proc.devRef .tc main_v6)
/-- The divergence terms, from the launch contents. -/
def divergencesR : (⟨S1000000, .f32⟩ : BufTy).Contents (Elt Ideal) := after rA V (Proc.devRef .tc main_v14)
/-- Each reflection's row of samples, from the launch contents. -/
def rowsR : (⟨S2000000x8, .f32⟩ : BufTy).Contents (Elt Ideal) := gatherRows (sampleRows (samplesR V)) (V (Proc.devRef .tc main_arg11))
/-- The log-density sums, from the launch contents. -/
def logDensitiesR : (⟨S2000000, .f32⟩ : BufTy).Contents (Elt Ideal) := after rD (after rC (after rB (after rA V))) (Proc.devRef .tc main_v44)

theorem samplesR_entry (p : Fin 8) (q : Fin 1000000) :
    samplesR V (ix2 p q) = Spec.sample ((V (Proc.devRef .tc main_arg0)) (ix1 q)) ((V (Proc.devRef .tc main_arg1)) (ix1 q)) ((V (Proc.devRef .tc main_arg2)) (ix2 p q)) :=
  sample_read V p q

theorem divergencesR_entry (q : Fin 1000000) :
    divergencesR V (ix1 q) = Spec.divergence ((V (Proc.devRef .tc main_arg0)) (ix1 q)) ((V (Proc.devRef .tc main_arg1)) (ix1 q)) :=
  divergence_read V q

theorem rows_at : (after rC (after rB (after rA V))) (Proc.devRef .tc main_v26) = rowsR V := by
  rw [rows_read,
    show after rB (after rA V) (Proc.devRef .tc main_v6) = after rA V (Proc.devRef .tc main_v6) from by read_ops [rB],
    show after rB (after rA V) (Proc.devRef .tc main_arg11) = V (Proc.devRef .tc main_arg11) from by read_ops [rA, rB]]
  rfl

theorem scales_at (r : Fin 2000000) (k : Fin 8) :
    (after rC (after rB (after rA V))) (Proc.devRef .tc main_v24) (ix2 r k)
      = Spec.scale (fun a => (V (Proc.devRef .tc main_arg3)) (ix2 r a)) (V (Proc.devRef .tc main_arg4)) (V (Proc.devRef .tc main_arg5)) (V (Proc.devRef .tc main_arg6)) (V (Proc.devRef .tc main_arg7)) k := by
  rw [show (after rC (after rB (after rA V))) (Proc.devRef .tc main_v24) = after rB (after rA V) (Proc.devRef .tc main_v24) from by read_ops [rC],
    scales_read,
    show after rA V (Proc.devRef .tc main_arg3) = V (Proc.devRef .tc main_arg3) from by read_ops [rA],
    show after rA V (Proc.devRef .tc main_arg4) = V (Proc.devRef .tc main_arg4) from by read_ops [rA],
    show after rA V (Proc.devRef .tc main_arg5) = V (Proc.devRef .tc main_arg5) from by read_ops [rA],
    show after rA V (Proc.devRef .tc main_arg6) = V (Proc.devRef .tc main_arg6) from by read_ops [rA],
    show after rA V (Proc.devRef .tc main_arg7) = V (Proc.devRef .tc main_arg7) from by read_ops [rA]]
  exact scale_entry (V (Proc.devRef .tc main_arg3)) (V (Proc.devRef .tc main_arg4)) (V (Proc.devRef .tc main_arg5)) (V (Proc.devRef .tc main_arg6)) (V (Proc.devRef .tc main_arg7)) r k

/-- Entry r of the log-density sums. -/
theorem logDensitiesR_entry (r : Fin 2000000) :
    logDensitiesR V (ix1 r) = Spec.logDensitySum (fun k => rowsR V (ix2 r k))
      (Spec.scale (fun a => (V (Proc.devRef .tc main_arg3)) (ix2 r a)) (V (Proc.devRef .tc main_arg4)) (V (Proc.devRef .tc main_arg5)) (V (Proc.devRef .tc main_arg6)) (V (Proc.devRef .tc main_arg7)))
      ((V (Proc.devRef .tc main_arg8)) (ix1 r)) ((V (Proc.devRef .tc main_arg9)) (ix1 r)) := by
  unfold logDensitiesR
  rw [logDensity_read, rows_at,
    show (after rC (after rB (after rA V))) (Proc.devRef .tc main_arg8) = V (Proc.devRef .tc main_arg8) from by read_ops [rA, rB, rC],
    show (after rC (after rB (after rA V))) (Proc.devRef .tc main_arg9) = V (Proc.devRef .tc main_arg9) from by read_ops [rA, rB, rC]]
  exact congrArg (fun s => Spec.logDensitySum (fun k => rowsR V (ix2 r k)) s ((V (Proc.devRef .tc main_arg8)) (ix1 r)) ((V (Proc.devRef .tc main_arg9)) (ix1 r)))
    (funext fun k => scales_at V r k)

/-- The first result at reflection r. -/
theorem result0 (r : Fin 2000000) :
    after ops V (Proc.devRef .tc main_v59) (ix1 r) = Spec.meanIntensity (fun k => rowsR V (ix2 r k))
      (Spec.scale (fun a => (V (Proc.devRef .tc main_arg3)) (ix2 r a)) (V (Proc.devRef .tc main_arg4)) (V (Proc.devRef .tc main_arg5)) (V (Proc.devRef .tc main_arg6)) (V (Proc.devRef .tc main_arg7))) := by
  rw [ops_split, meanIntensity_read,
    show after rE (after rD (after rC (after rB (after rA V)))) (Proc.devRef .tc main_v28) = after rD (after rC (after rB (after rA V))) (Proc.devRef .tc main_v28) from by read_ops [rE]]
  unfold Spec.meanIntensity
  refine congrArg (fun s => Ideal.div s (Ideal.ofBits .f32 0x41000000#32)) (Finset.sum_congr rfl fun k _ => ?_)
  rw [intensity_read, rows_at, scales_at]

/-- The second result. -/
theorem result1 : after ops V (Proc.devRef .tc main_v62) = imageTail (logDensitiesR V) (V (Proc.devRef .tc main_arg10)) := by
  rw [ops_split, tail_read,
    show after rD (after rC (after rB (after rA V))) (Proc.devRef .tc main_arg10) = V (Proc.devRef .tc main_arg10) from by read_ops [rA, rB, rC, rD]]
  rfl

/-- The third result. -/
theorem result2 : after ops V (Proc.devRef .tc main_v64) = meanAll (divergencesR V) := by
  rw [ops_split, mean_read,
    show after rE (after rD (after rC (after rB (after rA V)))) (Proc.devRef .tc main_v14) = after rA V (Proc.devRef .tc main_v14) from by read_ops [rB, rC, rD, rE]]
  rfl

set_option maxHeartbeats 8000000 in
/-- An argument buffer is written by no operation of the line. -/
theorem arg_kept (b : Ref sig .tc) (hb : b = main_arg0 ∨ b = main_arg1 ∨ b = main_arg2 ∨ b = main_arg3 ∨ b = main_arg4
    ∨ b = main_arg5 ∨ b = main_arg6 ∨ b = main_arg7 ∨ b = main_arg8 ∨ b = main_arg9 ∨ b = main_arg10 ∨ b = main_arg11) :
    after ops V (Proc.devRef .tc b) = V (Proc.devRef .tc b) := by
  rw [ops_split]
  rcases hb with rfl | rfl | rfl | rfl | rfl | rfl | rfl | rfl | rfl | rfl | rfl | rfl <;>
    read_ops [rA, rB, rC, rD, rE, rF]

/-- So after the line an argument buffer holds its launch contents. -/
theorem arg_final (m : (ℓ : Loc nD τ sig) → Buf (Elt Ideal) ℓ) (c : Dev nD) (b : Ref sig .tc)
    (hb : b = main_arg0 ∨ b = main_arg1 ∨ b = main_arg2 ∨ b = main_arg3 ∨ b = main_arg4
    ∨ b = main_arg5 ∨ b = main_arg6 ∨ b = main_arg7 ∨ b = main_arg8 ∨ b = main_arg9 ∨ b = main_arg10 ∨ b = main_arg11) :
    after ops (launchContents m c) (Proc.devRef .tc b) = m ((c.tc : Thread nD τ).loc b) :=
  (arg_kept (launchContents m c) b hb).trans rfl

end AtIdeal

end Cert.ReferenceIdeal.Line

end
-- ==== Proof.KerStages.lean ====
/-
  The accelerator program's buffers read through its segments.

  Before the sampling region the locations and log-scales are laid as rows and the three arrays are padded on the right
  with zeros to 1048576 columns; after it the first million columns are cut back out. So entry (p, q) of the cut sample
  array is the sample built from entry q of the locations and log-scales and entry (p, q) of the noise, and entry q of
  the cut divergence vector is the divergence term of entry q. Before the likelihood region the four per-reflection
  arrays are padded below to 2002944 rows (the standard deviations with ones, the rest with zeros) and after it the first
  two million entries are cut back out, so entry r of each cut output is the function of reflection r alone. The padding
  is never read back.
-/
import proofs.«104806_j40261023433129_2_alg».proof.Proof.KerRun
import proofs.«104806_j40261023433129_2_alg».proof.Proof.Region0
import proofs.«104806_j40261023433129_2_alg».proof.Proof.Region1
import proofs.«104806_j40261023433129_2_alg».proof.Proof.RefStages
import Idealize.ShloMosaic.Lib.KernelVsHost

set_option maxRecDepth 16384

noncomputable section

namespace Cert.KernelIdeal.Whole

open Cert.KernelIdeal Cert.KernelIdeal.Gen Idealize.ShloMosaic Idealize.ShloMosaic.TcCoe Idealize.SL.Sem
open Idealize.ShloMosaic.StableHlo Idealize.ShloMosaic.ValueIdx

/-- One buffer's contents through stretches of host operations: each stretch opened, an operation's result at the buffer
    it writes its function of its operands' contents, elsewhere what was there. -/
syntax "read_segs" "[" ident,* "]" : tactic
macro_rules
  | `(tactic| read_segs [$ids,*]) =>
    `(tactic| simp (disch := decide) only [$[$ids:ident],*, after_cons, after_nil,
      nullary_result', unary_result', binary_result', ternary_result', quaternary_result', reshape_result',
      nullary_result_ne', unary_result_ne', binary_result_ne', ternary_result_ne', quaternary_result_ne', reshape_result_ne',
      TRef.ofBuf_toBuf])

variable (m : (ℓ : Loc nD τ sig) → Buf (Elt Ideal) ℓ) (ρ : Dev nD → PrngReg) (c : Dev nD)

/-! ## Into the sampling region -/

/-- The padded location row. -/
theorem row_loc : W6 m ρ c (Proc.devRef .tc main_v1) = pad S1x1048576 ![0, 0] ![0, 48576] ![0, 0]
    (shapeCast S1x1000000 (m ((c : Thread nD τ).loc main_arg0)) shapeCasts_S1000000_S1x1000000) (sitofp (F := Ideal) .f32 (constantI S_ 32 0#32))
    pads_S1x1000000_S1x1048576_000_0485760 h_S_ := by
  read_segs [W6, W5, W4, W3, W2, W1, hostOps0, hostOps0_1, hostOps0_2, hostOps0_3, hostOps0_4, hostOps0_5]
  all_goals rfl

/-- The padded log-scale row. -/
theorem row_logScale : W6 m ρ c (Proc.devRef .tc main_v3) = pad S1x1048576 ![0, 0] ![0, 48576] ![0, 0]
    (shapeCast S1x1000000 (m ((c : Thread nD τ).loc main_arg1)) shapeCasts_S1000000_S1x1000000) (sitofp (F := Ideal) .f32 (constantI S_ 32 0#32))
    pads_S1x1000000_S1x1048576_000_0485760 h_S_ := by
  read_segs [W6, W5, W4, W3, W2, W1, hostOps0, hostOps0_1, hostOps0_2, hostOps0_3, hostOps0_4, hostOps0_5]
  all_goals rfl

/-- The padded noise. -/
theorem padded_noise : W6 m ρ c (Proc.devRef .tc main_v4) = pad S8x1048576 ![0, 0] ![0, 48576] ![0, 0]
    (m ((c : Thread nD τ).loc main_arg2)) (sitofp (F := Ideal) .f32 (constantI S_ 32 0#32)) pads_S8x1000000_S8x1048576_000_0485760 h_S_ := by
  read_segs [W6, W5, W4, W3, W2, W1, hostOps0, hostOps0_1, hostOps0_2, hostOps0_3, hostOps0_4, hostOps0_5]
  all_goals rfl

/-- A row of a million entries padded to 1048576 reads, at column q below a million, the vector's entry q. -/
theorem padded_row_entry (x : (⟨1, ![1000000]⟩ : Shape).Idx → EReal) (z : S_.Idx → EReal) (u : Fin 1) (q : Fin 1000000)
    (q' : Fin 1048576) (hq : q'.val = q.val) :
    pad S1x1048576 ![0, 0] ![0, 48576] ![0, 0] (shapeCast S1x1000000 x shapeCasts_S1000000_S1x1000000) z
      pads_S1x1000000_S1x1048576_000_0485760 h_S_ (ix2 u q') = x (ix1 q) := by
  refine (pad_apply_of_inside _ _ _ _ _ _ _ (ix2 u q') (ix2 u q) fun a => ?_).trans (shapeCast_a_1a_apply x _ u q)
  match a with
  | ⟨0, _⟩ => show u.val = 0 + u.val * (0 + 1); omega
  | ⟨1, _⟩ => show q'.val = 0 + q.val * (0 + 1); omega

/-- The padded noise reads, at column q below a million, the noise's entry. -/
theorem padded_noise_entry (x : S8x1000000.Idx → EReal) (z : S_.Idx → EReal) (p : Fin 8) (q : Fin 1000000)
    (q' : Fin 1048576) (hq : q'.val = q.val) :
    pad S8x1048576 ![0, 0] ![0, 48576] ![0, 0] x z pads_S8x1000000_S8x1048576_000_0485760 h_S_ (ix2 p q') = x (ix2 p q) := by
  refine pad_apply_of_inside _ _ _ _ _ _ _ (ix2 p q') (ix2 p q) fun a => ?_
  match a with
  | ⟨0, _⟩ => show p.val = 0 + p.val * (0 + 1); omega
  | ⟨1, _⟩ => show q'.val = 0 + q.val * (0 + 1); omega

/-! ## Out of the sampling region -/

/-- The region's sample array. -/
theorem samples_out : W7 m ρ c (Proc.devRef .tc main_v5_0)
    = Arrays.samplesOf (W6 m ρ c (Proc.devRef .tc main_v1)) (W6 m ρ c (Proc.devRef .tc main_v3)) (W6 m ρ c (Proc.devRef .tc main_v4)) :=
  (W7_arr m ρ c 3).trans (Arrays.samples_final (V6 m ρ) c)

/-- The region's divergence row. -/
theorem divergences_out : W7 m ρ c (Proc.devRef .tc main_v5_1)
    = Arrays.divergencesOf (W6 m ρ c (Proc.devRef .tc main_v1)) (W6 m ρ c (Proc.devRef .tc main_v3)) :=
  (W7_arr m ρ c 4).trans (Arrays.divergences_final (V6 m ρ) c)

/-- The samples cut back to a million columns. -/
def samplesK : S8x1000000.Idx → EReal := W8 m ρ c (Proc.devRef .tc main_v6)
/-- The divergence terms cut back to a million entries. -/
def divergencesK : S1000000.Idx → EReal := W8 m ρ c (Proc.devRef .tc main_v8)

theorem samplesK_eq : samplesK m ρ c
    = extractStridedSlice S8x1000000 ![0, 0] (W7 m ρ c (Proc.devRef .tc main_v5_0)) slices_S8x1048576_S8x1000000_0_0 := by
  unfold samplesK
  read_segs [W8, hostOps1]
  all_goals rfl

theorem divergencesK_eq : divergencesK m ρ c = shapeCast S1000000
    (extractStridedSlice S1x1000000 ![0, 0] (W7 m ρ c (Proc.devRef .tc main_v5_1)) slices_S1x1048576_S1x1000000_0_0)
    shapeCasts_S1x1000000_S1000000 := by
  unfold divergencesK
  read_segs [W8, hostOps1]
  all_goals rfl

/-- Entry (p, q) of the samples. -/
theorem samplesK_entry (p : Fin 8) (q : Fin 1000000) :
    samplesK m ρ c (ix2 p q) = Spec.sample ((m ((c : Thread nD τ).loc main_arg0)) (ix1 q)) ((m ((c : Thread nD τ).loc main_arg1)) (ix1 q)) ((m ((c : Thread nD τ).loc main_arg2)) (ix2 p q)) := by
  have hq : q.val < 1048576 := by have := q.isLt; omega
  rw [samplesK_eq, slice2_axis1_apply 0 _ _ p q ⟨q.val, hq⟩ (by show q.val = 0 + q.val; omega), samples_out]
  show Spec.sample (W6 m ρ c (Proc.devRef .tc main_v1) (ix2 (0 : Fin 1) ⟨q.val, hq⟩)) (W6 m ρ c (Proc.devRef .tc main_v3) (ix2 (0 : Fin 1) ⟨q.val, hq⟩))
    (W6 m ρ c (Proc.devRef .tc main_v4) (ix2 p ⟨q.val, hq⟩)) = _
  rw [row_loc, row_logScale, padded_noise, padded_row_entry _ _ 0 q ⟨q.val, hq⟩ rfl,
    padded_row_entry _ _ 0 q ⟨q.val, hq⟩ rfl, padded_noise_entry _ _ p q ⟨q.val, hq⟩ rfl]

/-- Entry q of the divergence terms. -/
theorem divergencesK_entry (q : Fin 1000000) :
    divergencesK m ρ c (ix1 q) = Spec.divergence ((m ((c : Thread nD τ).loc main_arg0)) (ix1 q)) ((m ((c : Thread nD τ).loc main_arg1)) (ix1 q)) := by
  have hq : q.val < 1048576 := by have := q.isLt; omega
  rw [divergencesK_eq, shapeCast_1a_a_apply, slice2_axis1_apply 0 _ _ (0 : Fin 1) q ⟨q.val, hq⟩ (by show q.val = 0 + q.val; omega),
    divergences_out]
  show Spec.divergence (W6 m ρ c (Proc.devRef .tc main_v1) (ix2 (0 : Fin 1) ⟨q.val, hq⟩)) (W6 m ρ c (Proc.devRef .tc main_v3) (ix2 (0 : Fin 1) ⟨q.val, hq⟩)) = _
  rw [row_loc, row_logScale, padded_row_entry _ _ 0 q ⟨q.val, hq⟩ rfl, padded_row_entry _ _ 0 q ⟨q.val, hq⟩ rfl]

/-! ## Between the regions -/

/-- An argument buffer is still as launched. -/
theorem arg11_at9 : W9 m ρ c (Proc.devRef .tc main_arg11) = (m ((c : Thread nD τ).loc main_arg11)) := by
  read_segs [W9, W8, hostOps1, hostOps1_1]
  rw [W7_of_ne m ρ c main_arg11 (by decide)]
  read_segs [W6, W5, W4, W3, W2, W1, hostOps0, hostOps0_1, hostOps0_2, hostOps0_3, hostOps0_4, hostOps0_5]

/-- Each reflection's row of samples. -/
def rowsK : S2000000x8.Idx → EReal := W9 m ρ c (Proc.devRef .tc main_v12)

attribute [local irreducible] Host.reduce Host.gather in
theorem rowsK_eq : rowsK m ρ c
    = Cert.ReferenceIdeal.Line.gatherRows (Cert.ReferenceIdeal.Line.sampleRows (samplesK m ρ c)) (m ((c : Thread nD τ).loc main_arg11)) := by
  unfold rowsK samplesK
  read_segs [W9, W8, hostOps1, hostOps1_1]
  rw [W7_of_ne m ρ c main_arg11 (by decide)]
  read_segs [W6, W5, W4, W3, W2, W1, hostOps0, hostOps0_1, hostOps0_2, hostOps0_3, hostOps0_4, hostOps0_5]
  unfold Cert.ReferenceIdeal.Line.gatherRows Cert.ReferenceIdeal.Line.sampleRows
  rfl

attribute [local irreducible] Host.reduceAdd in
/-- The third result: the mean of the divergence terms. -/
theorem result2K : W19 m ρ c (Proc.devRef .tc main_v10) = Cert.ReferenceIdeal.Line.meanAll (divergencesK m ρ c) := by
  have e : W19 m ρ c (Proc.devRef .tc main_v10) = W8 m ρ c (Proc.devRef .tc main_v10) := by
    read_segs [W19, hostOps2]
    rw [W18_of_ne m ρ c main_v10 (by decide)]
    read_segs [W17, W16, W15, W14, W13, W12, W11, W10, W9, hostOps1_1, hostOps1_2, hostOps1_3, hostOps1_4, hostOps1_5,
      hostOps1_6, hostOps1_7, hostOps1_8, hostOps1_9]
  rw [e]
  unfold divergencesK Cert.ReferenceIdeal.Line.meanAll
  read_segs [W8, hostOps1]
  all_goals rfl

/-! ## Into the likelihood region -/

/-- The padded metadata. -/
theorem padded_meta : W17 m ρ c (Proc.devRef .tc main_v13) = pad S2002944x16 ![0, 0] ![2944, 0] ![0, 0] (m ((c : Thread nD τ).loc main_arg3)) (sitofp (F := Ideal) .f32 (constantI S_ 32 0#32))
    pads_S2000000x16_S2002944x16_029440_000 h_S_ := by
  read_segs [W17, W16, W15, W14, W13, W12, W11, W10, W9, W8, hostOps1, hostOps1_1, hostOps1_2, hostOps1_3, hostOps1_4, hostOps1_5, hostOps1_6, hostOps1_7, hostOps1_8, hostOps1_9]
  rw [W7_of_ne m ρ c main_arg3 (by decide)]
  read_segs [W6, W5, W4, W3, W2, W1, hostOps0, hostOps0_1, hostOps0_2, hostOps0_3, hostOps0_4, hostOps0_5]
  all_goals rfl

/-- The padded sample rows. -/
theorem padded_rows : W17 m ρ c (Proc.devRef .tc main_v14) = pad S2002944x8 ![0, 0] ![2944, 0] ![0, 0] (rowsK m ρ c) (sitofp (F := Ideal) .f32 (constantI S_ 32 0#32))
    pads_S2000000x8_S2002944x8_029440_000 h_S_ := by
  have e : ∀ X : Valuation τ sig (Elt Ideal),
      after hostOps1_9 (after hostOps1_8 (after hostOps1_7 (after hostOps1_6 (after hostOps1_5 (after hostOps1_4
        (after hostOps1_3 (after hostOps1_2 X))))))) (Proc.devRef .tc main_v14)
      = pad S2002944x8 ![0, 0] ![2944, 0] ![0, 0] (X (Proc.devRef .tc main_v12))
          (sitofp (F := Ideal) .f32 (constantI S_ 32 0#32)) pads_S2000000x8_S2002944x8_029440_000 h_S_ := by
    intro X
    read_segs [hostOps1_2]
    all_goals rfl
  exact e (W9 m ρ c)

/-- The padded observations. -/
theorem padded_obs : W17 m ρ c (Proc.devRef .tc main_v15) = pad S2002944 ![0] ![2944] ![0] (m ((c : Thread nD τ).loc main_arg8)) (sitofp (F := Ideal) .f32 (constantI S_ 32 0#32))
    pads_S2000000_S2002944_029440 h_S_ := by
  read_segs [W17, W16, W15, W14, W13, W12, W11, W10, W9, W8, hostOps1, hostOps1_1, hostOps1_2, hostOps1_3, hostOps1_4, hostOps1_5, hostOps1_6, hostOps1_7, hostOps1_8, hostOps1_9]
  rw [W7_of_ne m ρ c main_arg8 (by decide)]
  read_segs [W6, W5, W4, W3, W2, W1, hostOps0, hostOps0_1, hostOps0_2, hostOps0_3, hostOps0_4, hostOps0_5]
  all_goals rfl

/-- The padded standard deviations (padded with ones). -/
theorem padded_sigma : W17 m ρ c (Proc.devRef .tc main_v16) = pad S2002944 ![0] ![2944] ![0] (m ((c : Thread nD τ).loc main_arg9))
    (constant (F := Ideal) S_ .f32 0x3F800000#32) pads_S2000000_S2002944_029440 h_S_ := by
  read_segs [W17, W16, W15, W14, W13, W12, W11, W10, W9, W8, hostOps1, hostOps1_1, hostOps1_2, hostOps1_3, hostOps1_4, hostOps1_5, hostOps1_6, hostOps1_7, hostOps1_8, hostOps1_9]
  rw [W7_of_ne m ρ c main_arg9 (by decide)]
  read_segs [W6, W5, W4, W3, W2, W1, hostOps0, hostOps0_1, hostOps0_2, hostOps0_3, hostOps0_4, hostOps0_5]
  all_goals rfl

/-- An argument buffer is still as launched. -/
theorem arg4_at17 : W17 m ρ c (Proc.devRef .tc main_arg4) = (m ((c : Thread nD τ).loc main_arg4)) := by
  read_segs [W17, W16, W15, W14, W13, W12, W11, W10, W9, W8, hostOps1, hostOps1_1, hostOps1_2, hostOps1_3, hostOps1_4, hostOps1_5, hostOps1_6, hostOps1_7, hostOps1_8, hostOps1_9]
  rw [W7_of_ne m ρ c main_arg4 (by decide)]
  read_segs [W6, W5, W4, W3, W2, W1, hostOps0, hostOps0_1, hostOps0_2, hostOps0_3, hostOps0_4, hostOps0_5]

/-- An argument buffer is still as launched. -/
theorem arg5_at17 : W17 m ρ c (Proc.devRef .tc main_arg5) = (m ((c : Thread nD τ).loc main_arg5)) := by
  read_segs [W17, W16, W15, W14, W13, W12, W11, W10, W9, W8, hostOps1, hostOps1_1, hostOps1_2, hostOps1_3, hostOps1_4, hostOps1_5, hostOps1_6, hostOps1_7, hostOps1_8, hostOps1_9]
  rw [W7_of_ne m ρ c main_arg5 (by decide)]
  read_segs [W6, W5, W4, W3, W2, W1, hostOps0, hostOps0_1, hostOps0_2, hostOps0_3, hostOps0_4, hostOps0_5]

/-- An argument buffer is still as launched. -/
theorem arg6_at17 : W17 m ρ c (Proc.devRef .tc main_arg6) = (m ((c : Thread nD τ).loc main_arg6)) := by
  read_segs [W17, W16, W15, W14, W13, W12, W11, W10, W9, W8, hostOps1, hostOps1_1, hostOps1_2, hostOps1_3, hostOps1_4, hostOps1_5, hostOps1_6, hostOps1_7, hostOps1_8, hostOps1_9]
  rw [W7_of_ne m ρ c main_arg6 (by decide)]
  read_segs [W6, W5, W4, W3, W2, W1, hostOps0, hostOps0_1, hostOps0_2, hostOps0_3, hostOps0_4, hostOps0_5]

/-- An argument buffer is still as launched. -/
theorem arg7_at17 : W17 m ρ c (Proc.devRef .tc main_arg7) = (m ((c : Thread nD τ).loc main_arg7)) := by
  read_segs [W17, W16, W15, W14, W13, W12, W11, W10, W9, W8, hostOps1, hostOps1_1, hostOps1_2, hostOps1_3, hostOps1_4, hostOps1_5, hostOps1_6, hostOps1_7, hostOps1_8, hostOps1_9]
  rw [W7_of_ne m ρ c main_arg7 (by decide)]
  read_segs [W6, W5, W4, W3, W2, W1, hostOps0, hostOps0_1, hostOps0_2, hostOps0_3, hostOps0_4, hostOps0_5]

/-- A matrix of two million rows padded below reads, at a row below two million, the matrix's row. -/
theorem padded16_entry (x : S2000000x16.Idx → EReal) (z : S_.Idx → EReal) (r : Fin 2000000) (r' : Fin 2002944)
    (hr : r'.val = r.val) (a : Fin 16) :
    pad S2002944x16 ![0, 0] ![2944, 0] ![0, 0] x z pads_S2000000x16_S2002944x16_029440_000 h_S_ (ix2 r' a) = x (ix2 r a) := by
  refine pad_apply_of_inside _ _ _ _ _ _ _ (ix2 r' a) (ix2 r a) fun d => ?_
  match d with
  | ⟨0, _⟩ => show r'.val = 0 + r.val * (0 + 1); omega
  | ⟨1, _⟩ => show a.val = 0 + a.val * (0 + 1); omega

theorem padded8_entry (x : S2000000x8.Idx → EReal) (z : S_.Idx → EReal) (r : Fin 2000000) (r' : Fin 2002944)
    (hr : r'.val = r.val) (k : Fin 8) :
    pad S2002944x8 ![0, 0] ![2944, 0] ![0, 0] x z pads_S2000000x8_S2002944x8_029440_000 h_S_ (ix2 r' k) = x (ix2 r k) := by
  refine pad_apply_of_inside _ _ _ _ _ _ _ (ix2 r' k) (ix2 r k) fun d => ?_
  match d with
  | ⟨0, _⟩ => show r'.val = 0 + r.val * (0 + 1); omega
  | ⟨1, _⟩ => show k.val = 0 + k.val * (0 + 1); omega

theorem padded_vec_entry (x : S2000000.Idx → EReal) (z : S_.Idx → EReal) (r : Fin 2000000) (r' : Fin 2002944)
    (hr : r'.val = r.val) :
    pad S2002944 ![0] ![2944] ![0] x z pads_S2000000_S2002944_029440 h_S_ (ix1 r') = x (ix1 r) := by
  refine pad_apply_of_inside _ _ _ _ _ _ _ (ix1 r') (ix1 r) fun d => ?_
  match d with
  | ⟨0, _⟩ => show r'.val = 0 + r.val * (0 + 1); omega

/-! ## Out of the likelihood region -/

theorem means_out : W18 m ρ c (Proc.devRef .tc main_v17_0) = Arrays.meansOf (W17 m ρ c (Proc.devRef .tc main_v13)) (W17 m ρ c (Proc.devRef .tc main_v14))
    (W17 m ρ c (Proc.devRef .tc main_arg4)) (W17 m ρ c (Proc.devRef .tc main_arg5)) (W17 m ρ c (Proc.devRef .tc main_arg6)) (W17 m ρ c (Proc.devRef .tc main_arg7)) :=
  (W18_arr m ρ c 8).trans (Arrays.means_final (V17 m ρ) c)

theorem logDensities_out : W18 m ρ c (Proc.devRef .tc main_v17_1) = Arrays.logDensitiesOf (W17 m ρ c (Proc.devRef .tc main_v13)) (W17 m ρ c (Proc.devRef .tc main_v14))
    (W17 m ρ c (Proc.devRef .tc main_v15)) (W17 m ρ c (Proc.devRef .tc main_v16))
    (W17 m ρ c (Proc.devRef .tc main_arg4)) (W17 m ρ c (Proc.devRef .tc main_arg5)) (W17 m ρ c (Proc.devRef .tc main_arg6)) (W17 m ρ c (Proc.devRef .tc main_arg7)) :=
  (W18_arr m ρ c 9).trans (Arrays.logDensities_final (V17 m ρ) c)

/-- The log-density sums cut back to two million entries. -/
def logDensitiesK : S2000000.Idx → EReal := W19 m ρ c (Proc.devRef .tc main_v19)

theorem result0K_eq : W19 m ρ c (Proc.devRef .tc main_v18)
    = extractStridedSlice S2000000 ![0] (W18 m ρ c (Proc.devRef .tc main_v17_0)) slices_S2002944_S2000000_0 := by
  read_segs [W19, hostOps2]
  all_goals rfl

theorem logDensitiesK_eq : logDensitiesK m ρ c
    = extractStridedSlice S2000000 ![0] (W18 m ρ c (Proc.devRef .tc main_v17_1)) slices_S2002944_S2000000_0 := by
  unfold logDensitiesK
  read_segs [W19, hostOps2]
  all_goals rfl

/-- A vector cut to its first two million entries reads the vector's entry. -/
theorem cut_entry (x : S2002944.Idx → EReal) (r : Fin 2000000) (r' : Fin 2002944) (hr : r'.val = r.val) :
    extractStridedSlice S2000000 ![0] x slices_S2002944_S2000000_0 (ix1 r) = x (ix1 r') :=
  extractStridedSlice_apply _ _ _ (ix1 r) (ix1 r') fun d => by
    match d with
    | ⟨0, _⟩ => show r'.val = 0 + r.val; omega

/-- The first result at reflection r. -/
theorem result0K (r : Fin 2000000) : W19 m ρ c (Proc.devRef .tc main_v18) (ix1 r)
    = Spec.meanIntensity (fun k => rowsK m ρ c (ix2 r k))
        (Spec.scale (fun a => (m ((c : Thread nD τ).loc main_arg3)) (ix2 r a)) (m ((c : Thread nD τ).loc main_arg4)) (m ((c : Thread nD τ).loc main_arg5)) (m ((c : Thread nD τ).loc main_arg6)) (m ((c : Thread nD τ).loc main_arg7))) := by
  have hr : r.val < 2002944 := by have := r.isLt; omega
  rw [result0K_eq, cut_entry _ r ⟨r.val, hr⟩ rfl, means_out]
  show Spec.meanIntensity (fun k => W17 m ρ c (Proc.devRef .tc main_v14) (ix2 (⟨r.val, hr⟩ : Fin 2002944) k))
    (Spec.scale (fun a => W17 m ρ c (Proc.devRef .tc main_v13) (ix2 (⟨r.val, hr⟩ : Fin 2002944) a)) (W17 m ρ c (Proc.devRef .tc main_arg4))
      (W17 m ρ c (Proc.devRef .tc main_arg5)) (W17 m ρ c (Proc.devRef .tc main_arg6)) (W17 m ρ c (Proc.devRef .tc main_arg7))) = _
  rw [padded_meta, padded_rows, arg4_at17, arg5_at17, arg6_at17, arg7_at17]
  exact congrArg₂ Spec.meanIntensity (funext fun k => padded8_entry _ _ r ⟨r.val, hr⟩ rfl k)
    (congrArg (fun g => Spec.scale g (m ((c : Thread nD τ).loc main_arg4)) (m ((c : Thread nD τ).loc main_arg5)) (m ((c : Thread nD τ).loc main_arg6)) (m ((c : Thread nD τ).loc main_arg7)))
      (funext fun a => padded16_entry _ _ r ⟨r.val, hr⟩ rfl a))

/-- Entry r of the log-density sums. -/
theorem logDensitiesK_entry (r : Fin 2000000) : logDensitiesK m ρ c (ix1 r)
    = Spec.logDensitySum (fun k => rowsK m ρ c (ix2 r k))
        (Spec.scale (fun a => (m ((c : Thread nD τ).loc main_arg3)) (ix2 r a)) (m ((c : Thread nD τ).loc main_arg4)) (m ((c : Thread nD τ).loc main_arg5)) (m ((c : Thread nD τ).loc main_arg6)) (m ((c : Thread nD τ).loc main_arg7)))
        ((m ((c : Thread nD τ).loc main_arg8)) (ix1 r)) ((m ((c : Thread nD τ).loc main_arg9)) (ix1 r)) := by
  have hr : r.val < 2002944 := by have := r.isLt; omega
  rw [logDensitiesK_eq, cut_entry _ r ⟨r.val, hr⟩ rfl, logDensities_out]
  show Spec.logDensitySum (fun k => W17 m ρ c (Proc.devRef .tc main_v14) (ix2 (⟨r.val, hr⟩ : Fin 2002944) k))
    (Spec.scale (fun a => W17 m ρ c (Proc.devRef .tc main_v13) (ix2 (⟨r.val, hr⟩ : Fin 2002944) a)) (W17 m ρ c (Proc.devRef .tc main_arg4))
      (W17 m ρ c (Proc.devRef .tc main_arg5)) (W17 m ρ c (Proc.devRef .tc main_arg6)) (W17 m ρ c (Proc.devRef .tc main_arg7)))
    (W17 m ρ c (Proc.devRef .tc main_v15) (ix1 (⟨r.val, hr⟩ : Fin 2002944))) (W17 m ρ c (Proc.devRef .tc main_v16) (ix1 (⟨r.val, hr⟩ : Fin 2002944))) = _
  rw [padded_meta, padded_rows, padded_obs, padded_sigma, arg4_at17, arg5_at17, arg6_at17, arg7_at17,
    padded_vec_entry _ _ r ⟨r.val, hr⟩ rfl, padded_vec_entry _ _ r ⟨r.val, hr⟩ rfl]
  exact congrArg₂ (fun f g => Spec.logDensitySum f
      (Spec.scale g (m ((c : Thread nD τ).loc main_arg4)) (m ((c : Thread nD τ).loc main_arg5)) (m ((c : Thread nD τ).loc main_arg6)) (m ((c : Thread nD τ).loc main_arg7)))
      ((m ((c : Thread nD τ).loc main_arg8)) (ix1 r)) ((m ((c : Thread nD τ).loc main_arg9)) (ix1 r)))
    (funext fun k => padded8_entry _ _ r ⟨r.val, hr⟩ rfl k) (funext fun a => padded16_entry _ _ r ⟨r.val, hr⟩ rfl a)

attribute [local irreducible] Host.reduceAdd Host.scatterAdd in
/-- The second result: the per-image tail of the log-density sums. -/
theorem result1K : W19 m ρ c (Proc.devRef .tc main_v34) = Cert.ReferenceIdeal.Line.imageTail (logDensitiesK m ρ c) (m ((c : Thread nD τ).loc main_arg10)) := by
  unfold logDensitiesK Cert.ReferenceIdeal.Line.imageTail
  read_segs [W19, hostOps2]
  rw [show W18 m ρ c (Proc.devRef .tc main_arg10) = (m ((c : Thread nD τ).loc main_arg10)) from
    (show _ = W19 m ρ c (Proc.devRef .tc main_arg10) from by read_segs [W19, hostOps2]).trans (W19_main_arg10 m ρ c)]
  all_goals rfl

end Cert.KernelIdeal.Whole

end
-- ==== Proof.Bridge.lean ====
/-
  The two programs compute the same three results.

  From memories agreeing on the twelve arguments: the two sample arrays agree entry by entry (both are
  location + exp(log-scale) · noise), so do the divergence vectors; the row lookup is one function of the sample array and
  the table index, so the looked-up rows agree; the mean predicted intensity and the log-density sum of a reflection are
  one function of its looked-up row, its metadata row, the weights, its observation and its standard deviation, so the
  first result and the log-density sums agree entry by entry; the per-image tail is one function of the log-density sums
  and the image index, and the overall mean one function of the divergence terms.
-/
import proofs.«104806_j40261023433129_2_alg».proof.Proof.KerStages

set_option maxRecDepth 16384

noncomputable section

namespace Cert.Bridge

open Idealize.ShloMosaic Idealize.ShloMosaic.TcCoe Idealize.SL.Sem Idealize.ShloMosaic.StableHlo Idealize.ShloMosaic.ValueIdx
open Cert.KernelIdeal.Whole Cert.ReferenceIdeal.Line

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The sample arrays agree. -/
theorem samples_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) :
    samplesR (launchContents m' c) = samplesK m ρ c := by
  funext i
  obtain ⟨p, q, rfl⟩ : ∃ (p : Fin 8) (q : Fin 1000000), i = ix2 p q := ⟨i 0, i 1, eq_ix2 i⟩
  rw [samplesR_entry, samplesK_entry]
  show Spec.sample (m' ((c.tc : Thread Cert.ReferenceIdeal.nD Cert.ReferenceIdeal.τ).loc Cert.ReferenceIdeal.main_arg0) (ix1 q)) (m' ((c.tc : Thread Cert.ReferenceIdeal.nD Cert.ReferenceIdeal.τ).loc Cert.ReferenceIdeal.main_arg1) (ix1 q)) (m' ((c.tc : Thread Cert.ReferenceIdeal.nD Cert.ReferenceIdeal.τ).loc Cert.ReferenceIdeal.main_arg2) (ix2 p q)) = _
  rw [h0, h1, h2]

/-- The divergence vectors agree. -/
theorem divergences_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) :
    divergencesR (launchContents m' c) = divergencesK m ρ c := by
  funext i
  obtain ⟨q, rfl⟩ : ∃ q : Fin 1000000, i = ix1 q := ⟨i 0, eq_ix1 i⟩
  rw [divergencesR_entry, divergencesK_entry]
  show Spec.divergence (m' ((c.tc : Thread Cert.ReferenceIdeal.nD Cert.ReferenceIdeal.τ).loc Cert.ReferenceIdeal.main_arg0) (ix1 q)) (m' ((c.tc : Thread Cert.ReferenceIdeal.nD Cert.ReferenceIdeal.τ).loc Cert.ReferenceIdeal.main_arg1) (ix1 q)) = _
  rw [h0, h1]

/-- The looked-up rows agree. -/
theorem rows_agree (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) : rowsR (launchContents m' c) = rowsK m ρ c := by
  rw [rowsK_eq, ← samples_agree m ρ m' c h0 h1 h2, ← h11]
  rfl

section Results

/-- The first results agree. -/
theorem result0_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    after Cert.ReferenceIdeal.Line.ops (launchContents m' c) (Proc.devRef .tc Cert.ReferenceIdeal.main_v59)
    = Cert.KernelIdeal.Gen.W19 m ρ c (Proc.devRef .tc Cert.KernelIdeal.main_v18) := by
  funext i
  obtain ⟨r, rfl⟩ : ∃ r : Fin 2000000, i = ix1 r := ⟨i 0, eq_ix1 i⟩
  rw [result0, result0K, rows_agree m ρ m' c h0 h1 h2 h11]
  show Spec.meanIntensity _ (Spec.scale (fun a => m' ((c.tc : Thread Cert.ReferenceIdeal.nD Cert.ReferenceIdeal.τ).loc Cert.ReferenceIdeal.main_arg3) (ix2 r a)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))) = _
  rw [h3, h4, h5, h6, h7]

/-- The log-density sums agree. -/
theorem logDensities_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    logDensitiesR (launchContents m' c) = logDensitiesK m ρ c := by
  funext i
  obtain ⟨r, rfl⟩ : ∃ r : Fin 2000000, i = ix1 r := ⟨i 0, eq_ix1 i⟩
  rw [logDensitiesR_entry, logDensitiesK_entry, rows_agree m ρ m' c h0 h1 h2 h11]
  show Spec.logDensitySum _ (Spec.scale (fun a => m' ((c.tc : Thread Cert.ReferenceIdeal.nD Cert.ReferenceIdeal.τ).loc Cert.ReferenceIdeal.main_arg3) (ix2 r a)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)))
    (m' ((c.tc : Thread Cert.ReferenceIdeal.nD Cert.ReferenceIdeal.τ).loc Cert.ReferenceIdeal.main_arg8) (ix1 r)) (m' ((c.tc : Thread Cert.ReferenceIdeal.nD Cert.ReferenceIdeal.τ).loc Cert.ReferenceIdeal.main_arg9) (ix1 r)) = _
  rw [h3, h4, h5, h6, h7, h8, h9]

/-- The second results agree. -/
theorem result1_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    after Cert.ReferenceIdeal.Line.ops (launchContents m' c) (Proc.devRef .tc Cert.ReferenceIdeal.main_v62)
    = Cert.KernelIdeal.Gen.W19 m ρ c (Proc.devRef .tc Cert.KernelIdeal.main_v34) := by
  rw [result1, result1K, logDensities_agree m ρ m' c h0 h1 h2 h3 h4 h5 h6 h7 h8 h9 h10 h11, ← h10]

/-- The third results agree. -/
theorem result2_agree
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (h8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (h9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (h10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (h11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    after Cert.ReferenceIdeal.Line.ops (launchContents m' c) (Proc.devRef .tc Cert.ReferenceIdeal.main_v64)
    = Cert.KernelIdeal.Gen.W19 m ρ c (Proc.devRef .tc Cert.KernelIdeal.main_v10) := by
  rw [result2, result2K, divergences_agree m ρ m' c h0 h1]

end Results

end Cert.Bridge

end
-- ==== Proof.lean ====
/-
  The certificate: the accelerator program, its idealization and the idealized reference each run to completion from any
  memory with finite inputs, leaving their arguments as launched; the idealization rewrote nothing; and, from memories
  agreeing on the arguments, the idealized accelerator program and the idealized reference end with the same three
  results over the extended reals — the per-reflection mean predicted intensity, minus the mean over images of the
  per-image average log-density, and the mean divergence term.

  The accelerator program computes the samples and divergence terms in one pipelined region over column blocks of the
  table and the per-reflection intensities and log-density sums in a second one over row blocks of the reflections,
  padding its arrays to whole blocks and cutting the padding off again; the reference computes the same quantities on
  whole arrays. Both look the samples up by the same row lookup and finish with the same per-image tail. At the exact
  instance a change of float format is the identity and a product with one contracted axis is the plain sum, so each
  entry of each intermediate array is one and the same function of the arguments' entries on both sides.
-/
import proofs.«104806_j40261023433129_2_alg».proof.Defs
import proofs.«104806_j40261023433129_2_alg».proof.Proof.Gen.Kernel
import proofs.«104806_j40261023433129_2_alg».proof.Proof.Gen.Kernel.Frame
import proofs.«104806_j40261023433129_2_alg».proof.Proof.Gen.KernelIdeal
import proofs.«104806_j40261023433129_2_alg».proof.Proof.Gen.KernelIdeal.Frame
import proofs.«104806_j40261023433129_2_alg».proof.Proof.Gen.ReferenceIdeal
import proofs.«104806_j40261023433129_2_alg».proof.Proof.Gen.Pre_finite_inputs
import proofs.«104806_j40261023433129_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, keeping only that no operation of its line writes an argument. -/
theorem frame_referenceIdeal : Cert.frame_ReferenceIdeal := fun m ρ _ =>
  (θ_run Cert.ReferenceIdeal.defs _ _).mono (fun _ h c =>
    ⟨(h c Cert.ReferenceIdeal.main_arg0).trans (Cert.ReferenceIdeal.Line.arg_final m c Cert.ReferenceIdeal.main_arg0 (by decide)),
     (h c Cert.ReferenceIdeal.main_arg1).trans (Cert.ReferenceIdeal.Line.arg_final m c Cert.ReferenceIdeal.main_arg1 (by decide)),
     (h c Cert.ReferenceIdeal.main_arg2).trans (Cert.ReferenceIdeal.Line.arg_final m c Cert.ReferenceIdeal.main_arg2 (by decide)),
     (h c Cert.ReferenceIdeal.main_arg3).trans (Cert.ReferenceIdeal.Line.arg_final m c Cert.ReferenceIdeal.main_arg3 (by decide)),
     (h c Cert.ReferenceIdeal.main_arg4).trans (Cert.ReferenceIdeal.Line.arg_final m c Cert.ReferenceIdeal.main_arg4 (by decide)),
     (h c Cert.ReferenceIdeal.main_arg5).trans (Cert.ReferenceIdeal.Line.arg_final m c Cert.ReferenceIdeal.main_arg5 (by decide)),
     (h c Cert.ReferenceIdeal.main_arg6).trans (Cert.ReferenceIdeal.Line.arg_final m c Cert.ReferenceIdeal.main_arg6 (by decide)),
     (h c Cert.ReferenceIdeal.main_arg7).trans (Cert.ReferenceIdeal.Line.arg_final m c Cert.ReferenceIdeal.main_arg7 (by decide)),
     (h c Cert.ReferenceIdeal.main_arg8).trans (Cert.ReferenceIdeal.Line.arg_final m c Cert.ReferenceIdeal.main_arg8 (by decide)),
     (h c Cert.ReferenceIdeal.main_arg9).trans (Cert.ReferenceIdeal.Line.arg_final m c Cert.ReferenceIdeal.main_arg9 (by decide)),
     (h c Cert.ReferenceIdeal.main_arg10).trans (Cert.ReferenceIdeal.Line.arg_final m c Cert.ReferenceIdeal.main_arg10 (by decide)),
     (h c Cert.ReferenceIdeal.main_arg11).trans (Cert.ReferenceIdeal.Line.arg_final m c Cert.ReferenceIdeal.main_arg11 (by decide))⟩)
    (Cert.ReferenceIdeal.Line.run_main (F := Ideal) m ρ)

/-- Both programs run, and their results are the same arrays. -/
theorem algebraic : Cert.algebraic_KernelIdeal_ReferenceIdeal := by
  intro m ρ m' ρ' _ hagree
  refine ⟨fun c => Cert.KernelIdeal.Gen.W19 m ρ c (Proc.devRef .tc Cert.KernelIdeal.main_v18),
    fun c => Cert.KernelIdeal.Gen.W19 m ρ c (Proc.devRef .tc Cert.KernelIdeal.main_v34),
    fun c => Cert.KernelIdeal.Gen.W19 m ρ c (Proc.devRef .tc Cert.KernelIdeal.main_v10), ?_, ?_⟩
  · exact (θ_run Cert.KernelIdeal.defs _ _).mono (fun _ h c =>
      ⟨h c _ (Cert.KernelIdeal.Gen.mem_uc Cert.KernelIdeal.main_v18 (by decide)),
       h c _ (Cert.KernelIdeal.Gen.mem_uc Cert.KernelIdeal.main_v34 (by decide)),
       h c _ (Cert.KernelIdeal.Gen.mem_uc Cert.KernelIdeal.main_v10 (by decide)),
       (h c _ (Cert.KernelIdeal.Gen.mem_uc Cert.KernelIdeal.main_arg0 (by decide))).trans (Cert.KernelIdeal.Gen.W19_main_arg0 m ρ c),
       (h c _ (Cert.KernelIdeal.Gen.mem_uc Cert.KernelIdeal.main_arg1 (by decide))).trans (Cert.KernelIdeal.Gen.W19_main_arg1 m ρ c),
       (h c _ (Cert.KernelIdeal.Gen.mem_uc Cert.KernelIdeal.main_arg2 (by decide))).trans (Cert.KernelIdeal.Gen.W19_main_arg2 m ρ c),
       (h c _ (Cert.KernelIdeal.Gen.mem_uc Cert.KernelIdeal.main_arg3 (by decide))).trans (Cert.KernelIdeal.Gen.W19_main_arg3 m ρ c),
       (h c _ (Cert.KernelIdeal.Gen.mem_uc Cert.KernelIdeal.main_arg4 (by decide))).trans (Cert.KernelIdeal.Gen.W19_main_arg4 m ρ c),
       (h c _ (Cert.KernelIdeal.Gen.mem_uc Cert.KernelIdeal.main_arg5 (by decide))).trans (Cert.KernelIdeal.Gen.W19_main_arg5 m ρ c),
       (h c _ (Cert.KernelIdeal.Gen.mem_uc Cert.KernelIdeal.main_arg6 (by decide))).trans (Cert.KernelIdeal.Gen.W19_main_arg6 m ρ c),
       (h c _ (Cert.KernelIdeal.Gen.mem_uc Cert.KernelIdeal.main_arg7 (by decide))).trans (Cert.KernelIdeal.Gen.W19_main_arg7 m ρ c),
       (h c _ (Cert.KernelIdeal.Gen.mem_uc Cert.KernelIdeal.main_arg8 (by decide))).trans (Cert.KernelIdeal.Gen.W19_main_arg8 m ρ c),
       (h c _ (Cert.KernelIdeal.Gen.mem_uc Cert.KernelIdeal.main_arg9 (by decide))).trans (Cert.KernelIdeal.Gen.W19_main_arg9 m ρ c),
       (h c _ (Cert.KernelIdeal.Gen.mem_uc Cert.KernelIdeal.main_arg10 (by decide))).trans (Cert.KernelIdeal.Gen.W19_main_arg10 m ρ c),
       (h c _ (Cert.KernelIdeal.Gen.mem_uc Cert.KernelIdeal.main_arg11 (by decide))).trans (Cert.KernelIdeal.Gen.W19_main_arg11 m ρ c)⟩)
      (Cert.KernelIdeal.Whole.run_all m ρ)
  · refine (θ_run Cert.ReferenceIdeal.defs _ _).mono (fun _ h c => ?_) (Cert.ReferenceIdeal.Line.run_main (F := Ideal) m' ρ')
    obtain ⟨h0, h1, h2, h3, h4, h5, h6, h7, h8, h9, h10, h11⟩ := hagree c
    exact ⟨(h c Cert.ReferenceIdeal.main_v59).trans (Cert.Bridge.result0_agree m ρ m' c h0 h1 h2 h3 h4 h5 h6 h7 h8 h9 h10 h11),
       (h c Cert.ReferenceIdeal.main_v62).trans (Cert.Bridge.result1_agree m ρ m' c h0 h1 h2 h3 h4 h5 h6 h7 h8 h9 h10 h11),
       (h c Cert.ReferenceIdeal.main_v64).trans (Cert.Bridge.result2_agree m ρ m' c h0 h1 h2 h3 h4 h5 h6 h7 h8 h9 h10 h11),
       (h c Cert.ReferenceIdeal.main_arg0).trans (Cert.ReferenceIdeal.Line.arg_final m' c Cert.ReferenceIdeal.main_arg0 (by decide)),
       (h c Cert.ReferenceIdeal.main_arg1).trans (Cert.ReferenceIdeal.Line.arg_final m' c Cert.ReferenceIdeal.main_arg1 (by decide)),
       (h c Cert.ReferenceIdeal.main_arg2).trans (Cert.ReferenceIdeal.Line.arg_final m' c Cert.ReferenceIdeal.main_arg2 (by decide)),
       (h c Cert.ReferenceIdeal.main_arg3).trans (Cert.ReferenceIdeal.Line.arg_final m' c Cert.ReferenceIdeal.main_arg3 (by decide)),
       (h c Cert.ReferenceIdeal.main_arg4).trans (Cert.ReferenceIdeal.Line.arg_final m' c Cert.ReferenceIdeal.main_arg4 (by decide)),
       (h c Cert.ReferenceIdeal.main_arg5).trans (Cert.ReferenceIdeal.Line.arg_final m' c Cert.ReferenceIdeal.main_arg5 (by decide)),
       (h c Cert.ReferenceIdeal.main_arg6).trans (Cert.ReferenceIdeal.Line.arg_final m' c Cert.ReferenceIdeal.main_arg6 (by decide)),
       (h c Cert.ReferenceIdeal.main_arg7).trans (Cert.ReferenceIdeal.Line.arg_final m' c Cert.ReferenceIdeal.main_arg7 (by decide)),
       (h c Cert.ReferenceIdeal.main_arg8).trans (Cert.ReferenceIdeal.Line.arg_final m' c Cert.ReferenceIdeal.main_arg8 (by decide)),
       (h c Cert.ReferenceIdeal.main_arg9).trans (Cert.ReferenceIdeal.Line.arg_final m' c Cert.ReferenceIdeal.main_arg9 (by decide)),
       (h c Cert.ReferenceIdeal.main_arg10).trans (Cert.ReferenceIdeal.Line.arg_final m' c Cert.ReferenceIdeal.main_arg10 (by decide)),
       (h c Cert.ReferenceIdeal.main_arg11).trans (Cert.ReferenceIdeal.Line.arg_final m' c Cert.ReferenceIdeal.main_arg11 (by decide))⟩

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
